-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x4 : Shape := ⟨3, ![512, 128, 4]⟩
abbrev S512x2x4 : Shape := ⟨3, ![512, 2, 4]⟩
abbrev S512x256 : Shape := ⟨2, ![512, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S_ : Shape := ⟨0, ![]⟩

class Facts : Prop where
  bcast_S_S512x128x4 : S_.BroadcastsInDim S512x128x4 (![] : Fin 0 → Fin S512x128x4.rank)
  reducesTo_S512x128x4_S_d0_1_2 : S512x128x4.ReducesTo [0, 1, 2] S_
  h_S_ : 0 < S_.numel
  bcast_S_S512x2x4 : S_.BroadcastsInDim S512x2x4 (![] : Fin 0 → Fin S512x2x4.rank)
  reducesTo_S512x2x4_S_d0_1_2 : S512x2x4.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S128 .f32) (main_arg12 : FVec F S128x256 .f32) (main_arg13 : FVec F S256 .f32) (main_arg14 : FVec F S256x1 .f32) (main_arg15 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S512 .f32) (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x1 .f32) (main_arg15 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_v48 main_v49 main_v50

def fn_part1 {F : FTy → Type} [FloatOps F] (main_arg4 : FVec F S256x512 .f32) (main_arg5 : FVec F S512 .f32) (main_arg6 : FVec F S512x512 .f32) (main_arg7 : FVec F S512 .f32) (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S512x128x4 .f32) (main_arg1 : FVec F S512x2x4 .f32) (main_arg2 : FVec F S512x256 .f32) (main_arg3 : FVec F S256 .f32) (main_arg4 : FVec F S256x512 .f32) (main_arg5 : FVec F S512 .f32) (main_arg6 : FVec F S512x512 .f32) (main_arg7 : FVec F S512 .f32) (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x1 .f32) (main_arg15 : FVec F S1 .f32) : IVec S_ 1 :=
  let main_v0 : FVec F S512x128x4 .f32 := Host.absf main_arg0
  let main_cst : FVec F S_ .f32 := constant S_ .f32 0x7F800000#32
  let main_v1 : FVec F S512x128x4 .f32 := broadcastInDim S512x128x4 ![] bcast_S_S512x128x4 main_cst
  let main_v2 : IVec S512x128x4 1 := cmpf .olt main_v0 main_v1
  let main_c : IVec S_ 1 := constantI S_ 1 1#1
  let main_v3 : IVec S_ 1 := (fun x v => Host.reduce IntOp.andi x v reducesTo_S512x128x4_S_d0_1_2 h_S_) main_v2 main_c
  let main_v4 : FVec F S512x2x4 .f32 := Host.absf main_arg1
  let main_cst_0 : FVec F S_ .f32 := constant S_ .f32 0x7F800000#32
  let main_v5 : FVec F S512x2x4 .f32 := broadcastInDim S512x2x4 ![] bcast_S_S512x2x4 main_cst_0
  let main_v6 : IVec S512x2x4 1 := cmpf .olt main_v4 main_v5
  let main_c_1 : IVec S_ 1 := constantI S_ 1 1#1
  let main_v7 : IVec S_ 1 := (fun x v => Host.reduce IntOp.andi x v reducesTo_S512x2x4_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S512x128x4 : Shape := ⟨3, ![512, 128, 4]⟩
abbrev S512x2x4 : Shape := ⟨3, ![512, 2, 4]⟩
abbrev S512x256 : Shape := ⟨2, ![512, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S128x128 : Shape := ⟨2, ![128, 128]⟩
abbrev S_ : Shape := ⟨0, ![]⟩
abbrev S1x128x1x128x1 : Shape := ⟨5, ![1, 128, 1, 128, 1]⟩
abbrev S512x1x2x1x4 : Shape := ⟨5, ![512, 1, 2, 1, 4]⟩
abbrev S512x128x2x128x4 : Shape := ⟨5, ![512, 128, 2, 128, 4]⟩
abbrev S512x1x1x128x4 : Shape := ⟨5, ![512, 1, 1, 128, 4]⟩
abbrev S512x256x512 : Shape := ⟨3, ![512, 256, 512]⟩
abbrev S1x1x512 : Shape := ⟨3, ![1, 1, 512]⟩
abbrev S131072x512 : Shape := ⟨2, ![131072, 512]⟩
abbrev S512x1 : Shape := ⟨2, ![512, 1]⟩
abbrev S1x256 : Shape := ⟨2, ![1, 256]⟩
abbrev S1x512 : Shape := ⟨2, ![1, 512]⟩
abbrev S512x128 : Shape := ⟨2, ![512, 128]⟩
abbrev S1x128 : Shape := ⟨2, ![1, 128]⟩
abbrev S1x1 : Shape := ⟨2, ![1, 1]⟩
abbrev S131072x1 : Shape := ⟨2, ![131072, 1]⟩
abbrev S2048x512 : Shape := ⟨2, ![2048, 512]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 81
  | .vmem => 34
  | .smem => 0
  | _ => 0

abbrev bufTy : (tb : Table) → Fin (tcTables nBuf tb) → BufTy
  | .hbm, ⟨0, _⟩ => ⟨S512x128x4, .f32⟩
  | .hbm, ⟨1, _⟩ => ⟨S512x2x4, .f32⟩
  | .hbm, ⟨2, _⟩ => ⟨S512x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S512x512, .f32⟩
  | .hbm, ⟨17, _⟩ => ⟨S128x128, .i32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S128x128, .f32⟩
  | .hbm, ⟨24, _⟩ => ⟨S1x128x1x128x1, .f32⟩
  | .hbm, ⟨25, _⟩ => ⟨S512x1x2x1x4, .f32⟩
  | .hbm, ⟨26, _⟩ => ⟨S512x128x2x128x4, .f32⟩
  | .hbm, ⟨27, _⟩ => ⟨S512x128x2x128x4, .f32⟩
  | .hbm, ⟨28, _⟩ => ⟨S512x128x2x128x4, .f32⟩
  | .hbm, ⟨29, _⟩ => ⟨S512x1x1x128x4, .f32⟩
  | .hbm, ⟨30, _⟩ => ⟨S512x128x2x128x4, .f32⟩
  | .hbm, ⟨31, _⟩ => ⟨S512x128x2x128x4, .f32⟩
  | .hbm, ⟨32, _⟩ => ⟨S512x256x512, .f32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S_, .i1⟩
  | .hbm, ⟨50, _⟩ => ⟨S512, .i1⟩
  | .hbm, ⟨51, _⟩ => ⟨S512, .i1⟩
  | .hbm, ⟨52, _⟩ => ⟨S512, .i1⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S_, .i32⟩
  | .hbm, ⟨57, _⟩ => ⟨S512, .i32⟩
  | .hbm, ⟨58, _⟩ => ⟨S512, .i1⟩
  | .hbm, ⟨59, _⟩ => ⟨S_, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S1x1x512, .f32⟩
  | .hbm, ⟨66, _⟩ => ⟨S512x256x512, .f32⟩
  | .hbm, ⟨67, _⟩ => ⟨S512x256x512, .f32⟩
  | .hbm, ⟨68, _⟩ => ⟨S131072x512, .f32⟩
  | .hbm, ⟨69, _⟩ => ⟨S512x256, .bf16⟩
  | .hbm, ⟨70, _⟩ => ⟨S256x512, .bf16⟩
  | .hbm, ⟨71, _⟩ => ⟨S512x512, .bf16⟩
  | .hbm, ⟨72, _⟩ => ⟨S512x256, .bf16⟩
  | .hbm, ⟨73, _⟩ => ⟨S256x128, .bf16⟩
  | .hbm, ⟨74, _⟩ => ⟨S128x256, .bf16⟩
  | .hbm, ⟨75, _⟩ => ⟨S256x1, .bf16⟩
  | .hbm, ⟨76, _⟩ => ⟨S512x1, .f32⟩
  | .hbm, ⟨77, _⟩ => ⟨S131072x1, .f32⟩
  | .hbm, ⟨78, _⟩ => ⟨S512x256, .f32⟩
  | .hbm, ⟨79, _⟩ => ⟨S512x256, .f32⟩
  | .hbm, ⟨80, _⟩ => ⟨S512x256, .f32⟩
  | .local _ .vmem, ⟨0, _⟩ => ⟨S512x512, .f32⟩
  | .local _ .vmem, ⟨1, _⟩ => ⟨S512x256, .bf16⟩
  | .local _ .vmem, ⟨2, _⟩ => ⟨S256, .f32⟩
  | .local _ .vmem, ⟨3, _⟩ => ⟨S256x512, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S512x256, .bf16⟩
  | .local _ .vmem, ⟨8, _⟩ => ⟨S256, .f32⟩
  | .local _ .vmem, ⟨9, _⟩ => ⟨S256x128, .bf16⟩
  | .local _ .vmem, ⟨10, _⟩ => ⟨S128, .f32⟩
  | .local _ .vmem, ⟨11, _⟩ => ⟨S128x256, .bf16⟩
  | .local _ .vmem, ⟨12, _⟩ => ⟨S256, .f32⟩
  | .local _ .vmem, ⟨13, _⟩ => ⟨S256x1, .bf16⟩
  | .local _ .vmem, ⟨14, _⟩ => ⟨S1, .f32⟩
  | .local _ .vmem, ⟨15, _⟩ => ⟨S512x1, .f32⟩
  | .local _ .vmem, ⟨16, _⟩ => ⟨S2048x512, .f32⟩
  | .local _ .vmem, ⟨17, _⟩ => ⟨S2048x512, .f32⟩
  | .local _ .vmem, ⟨18, _⟩ => ⟨S512x256, .bf16⟩
  | .local _ .vmem, ⟨19, _⟩ => ⟨S256, .f32⟩
  | .local _ .vmem, ⟨20, _⟩ => ⟨S256x512, .bf16⟩
  | .local _ .vmem, ⟨21, _⟩ => ⟨S512, .f32⟩
  | .local _ .vmem, ⟨22, _⟩ => ⟨S512x512, .bf16⟩
  | .local _ .vmem, ⟨23, _⟩ => ⟨S512, .f32⟩
  | .local _ .vmem, ⟨24, _⟩ => ⟨S512x256, .bf16⟩
  | .local _ .vmem, ⟨25, _⟩ => ⟨S256, .f32⟩
  | .local _ .vmem, ⟨26, _⟩ => ⟨S256x128, .bf16⟩
  | .local _ .vmem, ⟨27, _⟩ => ⟨S128, .f32⟩
  | .local _ .vmem, ⟨28, _⟩ => ⟨S128x256, .bf16⟩
  | .local _ .vmem, ⟨29, _⟩ => ⟨S256, .f32⟩
  | .local _ .vmem, ⟨30, _⟩ => ⟨S256x1, .bf16⟩
  | .local _ .vmem, ⟨31, _⟩ => ⟨S1, .f32⟩
  | .local _ .vmem, ⟨32, _⟩ => ⟨S2048x1, .f32⟩
  | .local _ .vmem, ⟨33, _⟩ => ⟨S2048x1, .f32⟩
  | _, _ => ⟨S512x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v17 : Ref sig .tc := ⟨.hbm, 55, rfl⟩
abbrev main_c_1 : Ref sig .tc := ⟨.hbm, 56, rfl⟩
abbrev main_v18 : Ref sig .tc := ⟨.hbm, 57, rfl⟩
abbrev main_v19 : Ref sig .tc := ⟨.hbm, 58, rfl⟩
abbrev main_cst : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg15_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem15_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x1 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2048x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  shapeCasts_S512x128x4_S512x512 : S512x128x4.ShapeCasts S512x512
  bcast_S_S128x128 : S_.BroadcastsInDim S128x128 (![] : Fin 0 → Fin S128x128.rank)
  bcast_S128x128_S1x128x1x128x1_1_3 : S128x128.BroadcastsInDim S1x128x1x128x1 (![1, 3] : Fin 2 → Fin S1x128x1x128x1.rank)
  bcast_S512x2x4_S512x1x2x1x4_0_2_4 : S512x2x4.BroadcastsInDim S512x1x2x1x4 (![0, 2, 4] : Fin 3 → Fin S512x1x2x1x4.rank)
  bcast_S1x128x1x128x1_S512x128x2x128x4_0_1_2_3_4 : S1x128x1x128x1.BroadcastsInDim S512x128x2x128x4 (![0, 1, 2, 3, 4] : Fin 5 → Fin S512x128x2x128x4.rank)
  bcast_S512x1x2x1x4_S512x128x2x128x4_0_1_2_3_4 : S512x1x2x1x4.BroadcastsInDim S512x128x2x128x4 (![0, 1, 2, 3, 4] : Fin 5 → Fin S512x128x2x128x4.rank)
  bcast_S512x128x4_S512x1x1x128x4_0_3_4 : S512x128x4.BroadcastsInDim S512x1x1x128x4 (![0, 3, 4] : Fin 3 → Fin S512x1x1x128x4.rank)
  bcast_S512x1x1x128x4_S512x128x2x128x4_0_1_2_3_4 : S512x1x1x128x4.BroadcastsInDim S512x128x2x128x4 (![0, 1, 2, 3, 4] : Fin 5 → Fin S512x128x2x128x4.rank)
  shapeCasts_S512x128x2x128x4_S512x256x512 : S512x128x2x128x4.ShapeCasts S512x256x512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S512x256x512_0_1_2 : S1x1x512.BroadcastsInDim S512x256x512 (![0, 1, 2] : Fin 3 → Fin S512x256x512.rank)
  shapeCasts_S512x256x512_S131072x512 : S512x256x512.ShapeCasts S131072x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x256_S2048x256 : S1x256.Broadcasts S2048x256
  broadcasts_S1x512_S2048x512 : S1x512.Broadcasts S2048x512
  broadcasts_S1x128_S2048x128 : S1x128.Broadcasts S2048x128
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S131072x1_S512x256 : S131072x1.ShapeCasts S512x256
  bcast_S512x1_S512x256_0_1 : S512x1.BroadcastsInDim S512x256 (![0, 1] : Fin 2 → Fin S512x256.rank)
  dot_S512x512_S512x256_S512x256_1_0_0_1_n_n_wf : DotDims.WF S512x512 S512x256 S512x256 [1] [0] [0] [1] [] []
  dot_S512x256_S256x512_S512x512_1_0_0_1_n_n_wf : DotDims.WF S512x256 S256x512 S512x512 [1] [0] [0] [1] [] []
  dot_S512x512_S512x512_S512x512_1_0_0_1_n_n_wf : DotDims.WF S512x512 S512x512 S512x512 [1] [0] [0] [1] [] []
  dot_S512x256_S256x128_S512x128_1_0_0_1_n_n_wf : DotDims.WF S512x256 S256x128 S512x128 [1] [0] [0] [1] [] []
  dot_S512x128_S128x256_S512x256_1_0_0_1_n_n_wf : DotDims.WF S512x128 S128x256 S512x256 [1] [0] [0] [1] [] []
  dot_S512x256_S256x1_S512x1_1_0_0_1_n_n_wf : DotDims.WF S512x256 S256x1 S512x1 [1] [0] [0] [1] [] []
  dot_S2048x512_S512x256_S2048x256_1_0_0_1_n_n_wf : DotDims.WF S2048x512 S512x256 S2048x256 [1] [0] [0] [1] [] []
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x256.size a
  hwx0_11 : ∀ i : grid0.Coords, EltTy.bits .bf16 = 32 ∨ (Rect.block (s := S128x256) S128x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .bf16 = 32 ∨ (Rect.block (s := S256x1) S256x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 1
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S512x1.size a
  hwx0_15 : ∀ i : grid0.Coords, EltTy.bits .f32 = 32 ∨ (Rect.block (s := S512x1) S512x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .bf16 = 32 ∨ (Rect.block (s := S512x256) S512x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .bf16 = 32 ∨ (Rect.block (s := S256x128) S256x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x256.size a ≤ S128x256.size a
  hwx1_11 : ∀ i : grid1.Coords, EltTy.bits .bf16 = 32 ∨ (Rect.block (s := S128x256) S128x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256.size a ≤ S256.size a
  hwx1_12 : ∀ i : grid1.Coords, EltTy.bits .f32 = 32 ∨ (Rect.block (s := S256) S256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x1.size a ≤ S256x1.size a
  hwx1_13 : ∀ i : grid1.Coords, EltTy.bits .bf16 = 32 ∨ (Rect.block (s := S256x1) S256x1.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1.size a ≤ S1.size a
  hwx1_14 : ∀ i : grid1.Coords, EltTy.bits .f32 = 32 ∨ (Rect.block (s := S1) S1.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2048x1.size a ≤ S131072x1.size a
  hwx1_15 : ∀ i : grid1.Coords, EltTy.bits .f32 = 32 ∨ (Rect.block (s := S131072x1) S2048x1.size (cc1_transform_15 i) (hinb1_15 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v0) S512x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S512x1.size cc0_transform_15 reads0_15 true false 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v25) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v32) S256x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg15) S1.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v34) S2048x1.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S512x128x4 : Shape := ⟨3, ![512, 128, 4]⟩
abbrev S512x2x4 : Shape := ⟨3, ![512, 2, 4]⟩
abbrev S512x256 : Shape := ⟨2, ![512, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S1x256 : Shape := ⟨2, ![1, 256]⟩
abbrev S_ : Shape := ⟨0, ![]⟩
abbrev S1x512 : Shape := ⟨2, ![1, 512]⟩
abbrev S512x128 : Shape := ⟨2, ![512, 128]⟩
abbrev S1x128 : Shape := ⟨2, ![1, 128]⟩
abbrev S512x1 : Shape := ⟨2, ![512, 1]⟩
abbrev S1x1 : Shape := ⟨2, ![1, 1]⟩
abbrev S128x128 : Shape := ⟨2, ![128, 128]⟩
abbrev S1x128x1x128x1 : Shape := ⟨5, ![1, 128, 1, 128, 1]⟩
abbrev S512x1x2x1x4 : Shape := ⟨5, ![512, 1, 2, 1, 4]⟩
abbrev S512x128x2x128x4 : Shape := ⟨5, ![512, 128, 2, 128, 4]⟩
abbrev S512x1x1x128x4 : Shape := ⟨5, ![512, 1, 1, 128, 4]⟩
abbrev S512x256x512 : Shape := ⟨3, ![512, 256, 512]⟩
abbrev S1x1x512 : Shape := ⟨3, ![1, 1, 512]⟩
abbrev S131072x512 : Shape := ⟨2, ![131072, 512]⟩
abbrev S131072x256 : Shape := ⟨2, ![131072, 256]⟩
abbrev S131072x128 : Shape := ⟨2, ![131072, 128]⟩
abbrev S131072x1 : Shape := ⟨2, ![131072, 1]⟩

abbrev nBuf : Space → Nat
  | .hbm => 164
  | .vmem => 0
  | .smem => 0
  | _ => 0

abbrev hbmTy0_0 (i : Nat) : BufTy := match i % 128 with
  | 0 => ⟨S512x128x4, .f32⟩
  | 1 => ⟨S512x2x4, .f32⟩
  | 2 => ⟨S512x256, .f32⟩
  | 3 => ⟨S256, .f32⟩
  | 4 => ⟨S256x512, .f32⟩
  | 5 => ⟨S512, .f32⟩
  | 6 => ⟨S512x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x256, .f32⟩
  | 13 => ⟨S256, .f32⟩
  | 14 => ⟨S256x1, .f32⟩
  | 15 => ⟨S1, .f32⟩
  | 16 => ⟨S512x512, .f32⟩
  | 17 => ⟨S512x256, .f32⟩
  | 18 => ⟨S1x256, .f32⟩
  | 19 => ⟨S512x256, .f32⟩
  | 20 => ⟨S512x256, .f32⟩
  | 21 => ⟨S_, .f32⟩
  | 22 => ⟨S512x256, .f32⟩
  | 23 => ⟨S512x256, .f32⟩
  | 24 => ⟨S512x512, .f32⟩
  | 25 => ⟨S1x512, .f32⟩
  | 26 => ⟨S512x512, .f32⟩
  | 27 => ⟨S512x512, .f32⟩
  | 28 => ⟨S_, .f32⟩
  | 29 => ⟨S512x512, .f32⟩
  | 30 => ⟨S512x512, .f32⟩
  | 31 => ⟨S512x512, .f32⟩
  | 32 => ⟨S1x512, .f32⟩
  | 33 => ⟨S512x512, .f32⟩
  | 34 => ⟨S512x512, .f32⟩
  | 35 => ⟨S_, .f32⟩
  | 36 => ⟨S512x512, .f32⟩
  | 37 => ⟨S512x512, .f32⟩
  | 38 => ⟨S512x256, .f32⟩
  | 39 => ⟨S1x256, .f32⟩
  | 40 => ⟨S512x256, .f32⟩
  | 41 => ⟨S512x256, .f32⟩
  | 42 => ⟨S_, .f32⟩
  | 43 => ⟨S512x256, .f32⟩
  | 44 => ⟨S512x256, .f32⟩
  | 45 => ⟨S512x128, .f32⟩
  | 46 => ⟨S1x128, .f32⟩
  | 47 => ⟨S512x128, .f32⟩
  | 48 => ⟨S512x128, .f32⟩
  | 49 => ⟨S_, .f32⟩
  | 50 => ⟨S512x128, .f32⟩
  | 51 => ⟨S512x128, .f32⟩
  | 52 => ⟨S512x256, .f32⟩
  | 53 => ⟨S1x256, .f32⟩
  | 54 => ⟨S512x256, .f32⟩
  | 55 => ⟨S512x256, .f32⟩
  | 56 => ⟨S_, .f32⟩
  | 57 => ⟨S512x256, .f32⟩
  | 58 => ⟨S512x256, .f32⟩
  | 59 => ⟨S512x1, .f32⟩
  | 60 => ⟨S1x1, .f32⟩
  | 61 => ⟨S512x1, .f32⟩
  | 62 => ⟨S512x1, .f32⟩
  | 63 => ⟨S128x128, .i32⟩
  | 64 => ⟨S128x128, .i32⟩
  | 65 => ⟨S_, .i32⟩
  | 66 => ⟨S128x128, .i32⟩
  | 67 => ⟨S128x128, .i32⟩
  | 68 => ⟨S128x128, .i1⟩
  | 69 => ⟨S128x128, .f32⟩
  | 70 => ⟨S1x128x1x128x1, .f32⟩
  | 71 => ⟨S512x1x2x1x4, .f32⟩
  | 72 => ⟨S512x128x2x128x4, .f32⟩
  | 73 => ⟨S512x128x2x128x4, .f32⟩
  | 74 => ⟨S512x128x2x128x4, .f32⟩
  | 75 => ⟨S512x1x1x128x4, .f32⟩
  | 76 => ⟨S512x128x2x128x4, .f32⟩
  | 77 => ⟨S512x128x2x128x4, .f32⟩
  | 78 => ⟨S512x256x512, .f32⟩
  | 79 => ⟨S512, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S512, .i32⟩
  | 87 => ⟨S512, .i32⟩
  | 88 => ⟨S_, .i32⟩
  | 89 => ⟨S512, .i32⟩
  | 90 => ⟨S512, .i1⟩
  | 91 => ⟨S_, .i32⟩
  | 92 => ⟨S512, .i32⟩
  | 93 => ⟨S512, .i1⟩
  | 94 => ⟨S_, .i32⟩
  | 95 => ⟨S_, .i1⟩
  | 96 => ⟨S512, .i1⟩
  | 97 => ⟨S512, .i1⟩
  | 98 => ⟨S512, .i1⟩
  | 99 => ⟨S512, .i32⟩
  | 100 => ⟨S512, .i32⟩
  | 101 => ⟨S512, .i32⟩
  | 102 => ⟨S_, .i32⟩
  | 103 => ⟨S512, .i32⟩
  | 104 => ⟨S512, .i1⟩
  | 105 => ⟨S_, .f32⟩
  | 106 => ⟨S_, .f32⟩
  | 107 => ⟨S512, .f32⟩
  | 108 => ⟨S512, .f32⟩
  | 109 => ⟨S512, .f32⟩
  | 110 => ⟨S512, .f32⟩
  | 111 => ⟨S1x1x512, .f32⟩
  | 112 => ⟨S512x256x512, .f32⟩
  | 113 => ⟨S512x256x512, .f32⟩
  | 114 => ⟨S131072x512, .f32⟩
  | 115 => ⟨S131072x256, .f32⟩
  | 116 => ⟨S1x256, .f32⟩
  | 117 => ⟨S131072x256, .f32⟩
  | 118 => ⟨S131072x256, .f32⟩
  | 119 => ⟨S_, .f32⟩
  | 120 => ⟨S131072x256, .f32⟩
  | 121 => ⟨S131072x256, .f32⟩
  | 122 => ⟨S131072x512, .f32⟩
  | 123 => ⟨S1x512, .f32⟩
  | 124 => ⟨S131072x512, .f32⟩
  | 125 => ⟨S131072x512, .f32⟩
  | 126 => ⟨S_, .f32⟩
  | 127 => ⟨S131072x512, .f32⟩
  | _ => ⟨S512x128x4, .f32⟩

abbrev hbmTy0_1 (i : Nat) : BufTy := match i % 128 with
  | 0 => ⟨S131072x512, .f32⟩
  | 1 => ⟨S131072x512, .f32⟩
  | 2 => ⟨S1x512, .f32⟩
  | 3 => ⟨S131072x512, .f32⟩
  | 4 => ⟨S131072x512, .f32⟩
  | 5 => ⟨S_, .f32⟩
  | 6 => ⟨S131072x512, .f32⟩
  | 7 => ⟨S131072x512, .f32⟩
  | 8 => ⟨S131072x256, .f32⟩
  | 9 => ⟨S1x256, .f32⟩
  | 10 => ⟨S131072x256, .f32⟩
  | 11 => ⟨S131072x256, .f32⟩
  | 12 => ⟨S_, .f32⟩
  | 13 => ⟨S131072x256, .f32⟩
  | 14 => ⟨S131072x256, .f32⟩
  | 15 => ⟨S131072x128, .f32⟩
  | 16 => ⟨S1x128, .f32⟩
  | 17 => ⟨S131072x128, .f32⟩
  | 18 => ⟨S131072x128, .f32⟩
  | 19 => ⟨S_, .f32⟩
  | 20 => ⟨S131072x128, .f32⟩
  | 21 => ⟨S131072x128, .f32⟩
  | 22 => ⟨S131072x256, .f32⟩
  | 23 => ⟨S1x256, .f32⟩
  | 24 => ⟨S131072x256, .f32⟩
  | 25 => ⟨S131072x256, .f32⟩
  | 26 => ⟨S_, .f32⟩
  | 27 => ⟨S131072x256, .f32⟩
  | 28 => ⟨S131072x256, .f32⟩
  | 29 => ⟨S131072x1, .f32⟩
  | 30 => ⟨S1x1, .f32⟩
  | 31 => ⟨S131072x1, .f32⟩
  | 32 => ⟨S131072x1, .f32⟩
  | 33 => ⟨S512x256, .f32⟩
  | 34 => ⟨S512x256, .f32⟩
  | 35 => ⟨S512x256, .f32⟩
  | _ => ⟨S512x128x4, .f32⟩

abbrev hbmTy (i : Nat) : BufTy := match i / 128 with
  | 0 => hbmTy0_0 i
  | 1 => hbmTy0_1 i
  | _ => ⟨S512x128x4, .f32⟩

abbrev bufTy : (tb : Table) → Fin (tcTables nBuf tb) → BufTy
  | .hbm, ⟨i, _⟩ => hbmTy i
  | _, _ => ⟨S512x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call2_cst : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call3_cst : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call4_cst : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call5_cst : Ref sig .tc := ⟨.hbm, 56, rfl⟩
abbrev main_call5_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_0 : Ref sig .tc := ⟨.hbm, 80, rfl⟩
abbrev main_call6_v0 : Ref sig .tc := ⟨.hbm, 81, rfl⟩
abbrev main_call6_c : Ref sig .tc := ⟨.hbm, 82, rfl⟩
abbrev main_call6_v1 : Ref sig .tc := ⟨.hbm, 83, rfl⟩
abbrev main_call6_c_0 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_c_1 : Ref sig .tc := ⟨.hbm, 88, rfl⟩
abbrev main_call6_v5 : Ref sig .tc := ⟨.hbm, 89, rfl⟩
abbrev main_call6_v6 : Ref sig .tc := ⟨.hbm, 90, rfl⟩
abbrev main_call6_c_2 : Ref sig .tc := ⟨.hbm, 91, rfl⟩
abbrev main_call6_v7 : Ref sig .tc := ⟨.hbm, 92, rfl⟩
abbrev main_call6_v8 : Ref sig .tc := ⟨.hbm, 93, rfl⟩
abbrev main_call6_c_3 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_v12 : Ref sig .tc := ⟨.hbm, 98, rfl⟩
abbrev main_call6_v13 : Ref sig .tc := ⟨.hbm, 99, rfl⟩
abbrev main_call6_v14 : Ref sig .tc := ⟨.hbm, 100, rfl⟩
abbrev main_v51 : Ref sig .tc := ⟨.hbm, 101, rfl⟩
abbrev main_c_1 : Ref sig .tc := ⟨.hbm, 102, rfl⟩
abbrev main_v52 : Ref sig .tc := ⟨.hbm, 103, rfl⟩
abbrev main_v53 : Ref sig .tc := ⟨.hbm, 104, rfl⟩
abbrev main_cst : Ref sig .tc := ⟨.hbm, 105, rfl⟩
abbrev main_cst_2 : Ref sig .tc := ⟨.hbm, 106, rfl⟩
abbrev main_call7_v0 : Ref sig .tc := ⟨.hbm, 107, rfl⟩
abbrev main_call7_v1 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_call8_cst : Ref sig .tc := ⟨.hbm, 119, rfl⟩
abbrev main_call8_v0 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_call9_cst : Ref sig .tc := ⟨.hbm, 126, rfl⟩
abbrev main_call9_v0 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_call10_cst : Ref sig .tc := ⟨.hbm, 133, rfl⟩
abbrev main_call10_v0 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_call11_cst : Ref sig .tc := ⟨.hbm, 140, rfl⟩
abbrev main_call11_v0 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_call12_cst : Ref sig .tc := ⟨.hbm, 147, rfl⟩
abbrev main_call12_v0 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_call13_cst : Ref sig .tc := ⟨.hbm, 154, rfl⟩
abbrev main_call13_v0 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩

abbrev nD : Nat := 1
abbrev τ : Topo := Topo.v7x

variable {F : FTy → Type} [FloatOps F]

class Facts₀ : Prop where
  shapeCasts_S512x128x4_S512x512 : S512x128x4.ShapeCasts S512x512
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S128x128 : S_.BroadcastsInDim S128x128 (![] : Fin 0 → Fin S128x128.rank)
  bcast_S128x128_S1x128x1x128x1_1_3 : S128x128.BroadcastsInDim S1x128x1x128x1 (![1, 3] : Fin 2 → Fin S1x128x1x128x1.rank)
  bcast_S512x2x4_S512x1x2x1x4_0_2_4 : S512x2x4.BroadcastsInDim S512x1x2x1x4 (![0, 2, 4] : Fin 3 → Fin S512x1x2x1x4.rank)
  bcast_S1x128x1x128x1_S512x128x2x128x4_0_1_2_3_4 : S1x128x1x128x1.BroadcastsInDim S512x128x2x128x4 (![0, 1, 2, 3, 4] : Fin 5 → Fin S512x128x2x128x4.rank)
  bcast_S512x1x2x1x4_S512x128x2x128x4_0_1_2_3_4 : S512x1x2x1x4.BroadcastsInDim S512x128x2x128x4 (![0, 1, 2, 3, 4] : Fin 5 → Fin S512x128x2x128x4.rank)
  bcast_S512x128x4_S512x1x1x128x4_0_3_4 : S512x128x4.BroadcastsInDim S512x1x1x128x4 (![0, 3, 4] : Fin 3 → Fin S512x1x1x128x4.rank)
  bcast_S512x1x1x128x4_S512x128x2x128x4_0_1_2_3_4 : S512x1x1x128x4.BroadcastsInDim S512x128x2x128x4 (![0, 1, 2, 3, 4] : Fin 5 → Fin S512x128x2x128x4.rank)
  shapeCasts_S512x128x2x128x4_S512x256x512 : S512x128x2x128x4.ShapeCasts S512x256x512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S512x256x512_0_1_2 : S1x1x512.BroadcastsInDim S512x256x512 (![0, 1, 2] : Fin 3 → Fin S512x256x512.rank)
  shapeCasts_S512x256x512_S131072x512 : S512x256x512.ShapeCasts S131072x512
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S1x1_S131072x1_0_1 : S1x1.BroadcastsInDim S131072x1 (![0, 1] : Fin 2 → Fin S131072x1.rank)
  shapeCasts_S131072x1_S512x256 : S131072x1.ShapeCasts S512x256
  bcast_S512x1_S512x256_0_1 : S512x1.BroadcastsInDim S512x256 (![0, 1] : Fin 2 → Fin S512x256.rank)
  dot_S512x512_S512x256_S512x256_1_0_0_1_n_n_wf : DotDims.WF S512x512 S512x256 S512x256 [1] [0] [0] [1] [] []
  dot_S512x256_S256x512_S512x512_1_0_0_1_n_n_wf : DotDims.WF S512x256 S256x512 S512x512 [1] [0] [0] [1] [] []
  dot_S512x512_S512x512_S512x512_1_0_0_1_n_n_wf : DotDims.WF S512x512 S512x512 S512x512 [1] [0] [0] [1] [] []
  dot_S512x256_S256x128_S512x128_1_0_0_1_n_n_wf : DotDims.WF S512x256 S256x128 S512x128 [1] [0] [0] [1] [] []
  dot_S512x128_S128x256_S512x256_1_0_0_1_n_n_wf : DotDims.WF S512x128 S128x256 S512x256 [1] [0] [0] [1] [] []
  dot_S512x256_S256x1_S512x1_1_0_0_1_n_n_wf : DotDims.WF S512x256 S256x1 S512x1 [1] [0] [0] [1] [] []
  dot_S131072x512_S512x256_S131072x256_1_0_0_1_n_n_wf : DotDims.WF S131072x512 S512x256 S131072x256 [1] [0] [0] [1] [] []
  dot_S131072x256_S256x512_S131072x512_1_0_0_1_n_n_wf : DotDims.WF S131072x256 S256x512 S131072x512 [1] [0] [0] [1] [] []
  dot_S131072x512_S512x512_S131072x512_1_0_0_1_n_n_wf : DotDims.WF S131072x512 S512x512 S131072x512 [1] [0] [0] [1] [] []
  dot_S131072x256_S256x128_S131072x128_1_0_0_1_n_n_wf : DotDims.WF S131072x256 S256x128 S131072x128 [1] [0] [0] [1] [] []
  dot_S131072x128_S128x256_S131072x256_1_0_0_1_n_n_wf : DotDims.WF S131072x128 S128x256 S131072x256 [1] [0] [0] [1] [] []
  dot_S131072x256_S256x1_S131072x1_1_0_0_1_n_n_wf : DotDims.WF S131072x256 S256x1 S131072x1 [1] [0] [0] [1] [] []

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x1_S131072x1_1_0_0_1_n_n : DotDims S131072x256 S256x1 S131072x1 where
  lhsContracting := [1]
  rhsContracting := [0]
  lhsNonContracting := [0]
  rhsNonContracting := [1]
  lhsBatch := []
  rhsBatch := []
  wf := dot_S131072x256_S256x1_S131072x1_1_0_0_1_n_n_wf

class Facts : Prop extends Facts₀ where

variable [Facts]
-- ==== Proof.KernelRun.lean ====
/-
  The idealized kernel's program, run to its end with EVERY buffer named.

  The program is eight segments in a row: five stretches of host operations (the reshape of the observations, the
  construction of the perturbed and normalised inputs, the weights' changes of float format), the two launches of the
  perceptron kernel, and a last stretch of three host operations (a reshape, a broadcast, the subtraction). The contents
  of every buffer at each segment boundary are a fold from the launch memory: a host stretch rewrites the buffers its
  operations write, a launch leaves each of its arrays at what its write-backs leave and every other buffer alone. Every
  weakly fair execution terminates, and at the end every unscoped buffer holds the last boundary's contents.
-/
import proofs.«134839_j7241314861638_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.RunValue

end
-- ==== Proof.KernelValue.lean ====
/-
  What the idealized kernel's program leaves in its result buffer, read back through the segment boundaries: the last
  stretch subtracts the first launch's column, repeated over 256 columns, from the second launch's column regrouped as
  [512, 256]; each launch reads the weights (their change of float format is the identity on extended reals), the biases
  (arguments, written by nothing) and its input matrix: the observations regrouped as [512, 512] for the first, the
  perturbed and normalised inputs for the second.
-/
import proofs.«134839_j7241314861638_1_alg».proof.Proof.KernelRun
import Idealize.ShloMosaic.Lib.StableHlo.Run
import Idealize.ShloMosaic.PureOps.Ideal

set_option maxRecDepth 16384

noncomputable section

namespace Cert.KernelIdeal.RunValue

open Idealize.ShloMosaic Idealize.ShloMosaic.TcCoe Idealize.ShloMosaic.StableHlo
open Idealize.SL.Sem
open Cert.KernelIdeal Cert.KernelIdeal.Gen

/-! ## The perturbed and normalised inputs, as the host operations write them -/

/-- The identity matrix of order 128 as floats: entry (i, m) is 1 when i = m and 0 otherwise (two index grids compared, the
    comparison converted to a float). -/
def onehot : FVec Ideal S128x128 .f32 :=
  uitofp .f32 (cmpi .eq (addi (iotaInDim S128x128 32 0) (broadcastInDim S128x128 ![] bcast_S_S128x128 (constantI S_ 32 0#32)))
    (iotaInDim S128x128 32 1))

/-- The perturbed observations before normalisation, as a [512, 256, 512] array. -/
def pert (obs : FVec Ideal S512x128x4 .f32) (feat : FVec Ideal S512x2x4 .f32) : FVec Ideal S512x256x512 .f32 :=
  shapeCast S512x256x512
    (subf
      (broadcastInDim S512x128x2x128x4 ![0, 1, 2, 3, 4] bcast_S512x1x1x128x4_S512x128x2x128x4_0_1_2_3_4
        (broadcastInDim S512x1x1x128x4 ![0, 3, 4] bcast_S512x128x4_S512x1x1x128x4_0_3_4 obs))
      (mulf
        (broadcastInDim S512x128x2x128x4 ![0, 1, 2, 3, 4] bcast_S1x128x1x128x1_S512x128x2x128x4_0_1_2_3_4
          (broadcastInDim S1x128x1x128x1 ![1, 3] bcast_S128x128_S1x128x1x128x1_1_3 onehot))
        (broadcastInDim S512x128x2x128x4 ![0, 1, 2, 3, 4] bcast_S512x1x2x1x4_S512x128x2x128x4_0_1_2_3_4
          (broadcastInDim S512x1x2x1x4 ![0, 2, 4] bcast_S512x2x4_S512x1x2x1x4_0_2_4 feat))))
    shapeCasts_S512x128x2x128x4_S512x256x512

/-- The divisor of the remainder below: 2, guarded against a zero divisor (a zero would be replaced by 1). -/
def divisorWord : IVec S_ 32 :=
  select (cmpi .eq (id (constantI S_ 32 2#32) : IVec S_ 32) (constantI S_ 32 0#32)) (constantI S_ 32 1#32)
    (id (constantI S_ 32 2#32) : IVec S_ 32)

/-- The truncated remainder of the column number 0 … 511 by the divisor. -/
def truncRem : IVec S512 32 :=
  Host.remsi (iotaInDim S512 32 0) (broadcastInDim S512 ![] bcast_S_S512 divisorWord)

/-- The floored remainder: the truncated one, plus the divisor where its sign differs from the divisor's and it is not
    zero. -/
def parity : IVec S512 32 :=
  select
    (andi
      (cmpi .ne (cmpi .slt truncRem (broadcastInDim S512 ![] bcast_S_S512 (constantI S_ 32 0#32)))
        (broadcastInDim S512 ![] bcast_S_S512 (cmpi .slt divisorWord (constantI S_ 32 0#32))))
      (cmpi .ne truncRem (broadcastInDim S512 ![] bcast_S_S512 (constantI S_ 32 0#32))))
    (addi truncRem (broadcastInDim S512 ![] bcast_S_S512 divisorWord))
    truncRem

/-- Column j's divisor: 42 when j is even, 160 when it is odd. -/
def norm : FVec Ideal S512 .f32 :=
  id (select (cmpi .eq parity (broadcastInDim S512 ![] bcast_S_S512 (constantI S_ 32 0#32)))
    (broadcastInDim S512 ![] bcast_S_S512 (constant (F := Ideal) S_ .f32 0x42280000#32))
    (broadcastInDim S512 ![] bcast_S_S512 (constant (F := Ideal) S_ .f32 0x43200000#32)))

/-- The perturbed and normalised inputs, laid as a [131072, 512] matrix: every column of the perturbed observations
    divided by its divisor, the [512, 256, 512] array regrouped row after row. -/
def glue (obs : FVec Ideal S512x128x4 .f32) (feat : FVec Ideal S512x2x4 .f32) : FVec Ideal S131072x512 .f32 :=
  shapeCast S131072x512
    (Host.divf (pert obs feat)
      (broadcastInDim S512x256x512 ![0, 1, 2] bcast_S1x1x512_S512x256x512_0_1_2
        (broadcastInDim S1x1x512 ![2] bcast_S512_S1x1x512_2 norm)))
    shapeCasts_S512x256x512_S131072x512

variable (m : (ℓ : Loc nD τ sig) → Buf (Elt Ideal) ℓ) (ρ : Dev nD → PrngReg)

/-! ## The last stretch -/

/-- The second launch's column regrouped as [512, 256], minus the first launch's column repeated over the 256 columns. -/
theorem W8_result (c : Dev nD) :
    @Eq (FVec Ideal S512x256 .f32) (W8 m ρ c (Proc.devRef .tc main_v37))
      (subf (shapeCast S512x256 (W7 m ρ c (Proc.devRef .tc main_v34) : FVec Ideal S131072x1 .f32) shapeCasts_S131072x1_S512x256)
          (broadcastInDim S512x256 ![0, 1] bcast_S512x1_S512x256_0_1 (W7 m ρ c (Proc.devRef .tc main_v33) : FVec Ideal S512x1 .f32))) := by
  show StableHlo.after hostOps2 (W7 m ρ c) (Proc.devRef .tc main_v37) = _
  after_results
  rfl

/-! ## The buffers the launches read, when the first launch is entered -/

/-- The first launch's input: the observations regrouped as [512, 512]. -/
theorem W5_v0 (c : Dev nD) :
    @Eq (FVec Ideal S512x512 .f32) (W5 m ρ c (Proc.devRef .tc main_v0))
      (shapeCast S512x512 (m ((c : Thread nD τ).loc main_arg0)) shapeCasts_S512x128x4_S512x512) := by
  show StableHlo.after hostOps0_4 (StableHlo.after hostOps0_3 (StableHlo.after hostOps0_2 (StableHlo.after hostOps0_1
    (StableHlo.after hostOps0 (W0 m ρ c))))) (Proc.devRef .tc main_v0) = _
  after_results
  rfl

set_option maxHeartbeats 2000000 in
/-- The second launch's input: the perturbed and normalised inputs. -/
theorem W5_v25 (c : Dev nD) :
    @Eq (FVec Ideal S131072x512 .f32) (W5 m ρ c (Proc.devRef .tc main_v25))
      (glue (m ((c : Thread nD τ).loc main_arg0)) (m ((c : Thread nD τ).loc main_arg1))) := by
  show StableHlo.after hostOps0_4 (StableHlo.after hostOps0_3 (StableHlo.after hostOps0_2 (StableHlo.after hostOps0_1
    (StableHlo.after hostOps0 (W0 m ρ c))))) (Proc.devRef .tc main_v25) = _
  after_results_simp
  rfl

/-- A weight matrix after its change of float format, which is the identity on extended reals. -/
theorem W5_main_v26 (c : Dev nD) :
    @Eq (FVec Ideal S512x256 .bf16) (W5 m ρ c (Proc.devRef .tc main_v26)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v26) = _
  after_results
  first | done | rfl

/-- A bias vector: an argument, written by nothing. -/
theorem W5_main_arg3 (c : Dev nD) :
    @Eq (FVec Ideal S256 .f32) (W5 m ρ c (Proc.devRef .tc main_arg3)) (m ((c : Thread nD τ).loc main_arg3)) := by
  show StableHlo.after hostOps0_4 (StableHlo.after hostOps0_3 (StableHlo.after hostOps0_2 (StableHlo.after hostOps0_1
    (StableHlo.after hostOps0 (W0 m ρ c))))) (Proc.devRef .tc main_arg3) = _
  after_results
  first | done | rfl

/-- A weight matrix after its change of float format, which is the identity on extended reals. -/
theorem W5_main_v27 (c : Dev nD) :
    @Eq (FVec Ideal S256x512 .bf16) (W5 m ρ c (Proc.devRef .tc main_v27)) (m ((c : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_v27) = _
  after_results
  first | done | rfl

/-- A bias vector: an argument, written by nothing. -/
theorem W5_main_arg5 (c : Dev nD) :
    @Eq (FVec Ideal S512 .f32) (W5 m ρ c (Proc.devRef .tc main_arg5)) (m ((c : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_arg5) = _
  after_results
  first | done | rfl

/-- A weight matrix after its change of float format, which is the identity on extended reals. -/
theorem W5_main_v28 (c : Dev nD) :
    @Eq (FVec Ideal S512x512 .bf16) (W5 m ρ c (Proc.devRef .tc main_v28)) (m ((c : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_v28) = _
  after_results
  first | done | rfl

/-- A bias vector: an argument, written by nothing. -/
theorem W5_main_arg7 (c : Dev nD) :
    @Eq (FVec Ideal S512 .f32) (W5 m ρ c (Proc.devRef .tc main_arg7)) (m ((c : Thread nD τ).loc main_arg7)) := by
  show StableHlo.after hostOps0_4 (StableHlo.after hostOps0_3 (StableHlo.after hostOps0_2 (StableHlo.after hostOps0_1
    (StableHlo.after hostOps0 (W0 m ρ c))))) (Proc.devRef .tc main_arg7) = _
  after_results
  first | done | rfl

/-- A weight matrix after its change of float format, which is the identity on extended reals. -/
theorem W5_main_v29 (c : Dev nD) :
    @Eq (FVec Ideal S512x256 .bf16) (W5 m ρ c (Proc.devRef .tc main_v29)) (m ((c : Thread nD τ).loc main_arg8)) := by
  show StableHlo.after hostOps0_4 (StableHlo.after hostOps0_3 (StableHlo.after hostOps0_2 (StableHlo.after hostOps0_1
    (StableHlo.after hostOps0 (W0 m ρ c))))) (Proc.devRef .tc main_v29) = _
  after_results
  first | done | rfl

/-- A bias vector: an argument, written by nothing. -/
theorem W5_main_arg9 (c : Dev nD) :
    @Eq (FVec Ideal S256 .f32) (W5 m ρ c (Proc.devRef .tc main_arg9)) (m ((c : Thread nD τ).loc main_arg9)) := by
  show StableHlo.after hostOps0_4 (StableHlo.after hostOps0_3 (StableHlo.after hostOps0_2 (StableHlo.after hostOps0_1
    (StableHlo.after hostOps0 (W0 m ρ c))))) (Proc.devRef .tc main_arg9) = _
  after_results
  first | done | rfl

/-- A weight matrix after its change of float format, which is the identity on extended reals. -/
theorem W5_main_v30 (c : Dev nD) :
    @Eq (FVec Ideal S256x128 .bf16) (W5 m ρ c (Proc.devRef .tc main_v30)) (m ((c : Thread nD τ).loc main_arg10)) := by
  show StableHlo.after hostOps0_4 (StableHlo.after hostOps0_3 (StableHlo.after hostOps0_2 (StableHlo.after hostOps0_1
    (StableHlo.after hostOps0 (W0 m ρ c))))) (Proc.devRef .tc main_v30) = _
  after_results
  first | done | rfl

/-- A bias vector: an argument, written by nothing. -/
theorem W5_main_arg11 (c : Dev nD) :
    @Eq (FVec Ideal S128 .f32) (W5 m ρ c (Proc.devRef .tc main_arg11)) (m ((c : Thread nD τ).loc main_arg11)) := by
  show StableHlo.after hostOps0_4 (StableHlo.after hostOps0_3 (StableHlo.after hostOps0_2 (StableHlo.after hostOps0_1
    (StableHlo.after hostOps0 (W0 m ρ c))))) (Proc.devRef .tc main_arg11) = _
  after_results
  first | done | rfl

/-- A weight matrix after its change of float format, which is the identity on extended reals. -/
theorem W5_main_v31 (c : Dev nD) :
    @Eq (FVec Ideal S128x256 .bf16) (W5 m ρ c (Proc.devRef .tc main_v31)) (m ((c : Thread nD τ).loc main_arg12)) := by
  show StableHlo.after hostOps0_4 (StableHlo.after hostOps0_3 (StableHlo.after hostOps0_2 (StableHlo.after hostOps0_1
    (StableHlo.after hostOps0 (W0 m ρ c))))) (Proc.devRef .tc main_v31) = _
  after_results
  first | done | rfl

/-- A bias vector: an argument, written by nothing. -/
theorem W5_main_arg13 (c : Dev nD) :
    @Eq (FVec Ideal S256 .f32) (W5 m ρ c (Proc.devRef .tc main_arg13)) (m ((c : Thread nD τ).loc main_arg13)) := by
  show StableHlo.after hostOps0_4 (StableHlo.after hostOps0_3 (StableHlo.after hostOps0_2 (StableHlo.after hostOps0_1
    (StableHlo.after hostOps0 (W0 m ρ c))))) (Proc.devRef .tc main_arg13) = _
  after_results
  first | done | rfl

/-- A weight matrix after its change of float format, which is the identity on extended reals. -/
theorem W5_main_v32 (c : Dev nD) :
    @Eq (FVec Ideal S256x1 .bf16) (W5 m ρ c (Proc.devRef .tc main_v32)) (m ((c : Thread nD τ).loc main_arg14)) := by
  show StableHlo.after hostOps0_4 (StableHlo.after hostOps0_3 (StableHlo.after hostOps0_2 (StableHlo.after hostOps0_1
    (StableHlo.after hostOps0 (W0 m ρ c))))) (Proc.devRef .tc main_v32) = _
  after_results
  first | done | rfl

/-- A bias vector: an argument, written by nothing. -/
theorem W5_main_arg15 (c : Dev nD) :
    @Eq (FVec Ideal S1 .f32) (W5 m ρ c (Proc.devRef .tc main_arg15)) (m ((c : Thread nD τ).loc main_arg15)) := by
  show StableHlo.after hostOps0_4 (StableHlo.after hostOps0_3 (StableHlo.after hostOps0_2 (StableHlo.after hostOps0_1
    (StableHlo.after hostOps0 (W0 m ρ c))))) (Proc.devRef .tc main_arg15) = _
  after_results
  first | done | rfl

/-! ## The same buffers when the second launch is entered: the first launch reads them and writes none of them -/

theorem W6_v25 (c : Dev nD) : W6 m ρ c (Proc.devRef .tc main_v25) = W5 m ρ c (Proc.devRef .tc main_v25) :=
  W6_of_ne m ρ c main_v25 (by decide)
theorem W6_main_v26 (c : Dev nD) : W6 m ρ c (Proc.devRef .tc main_v26) = W5 m ρ c (Proc.devRef .tc main_v26) :=
  (W6_arr m ρ c 1).trans (((dat0 (V5 m ρ) c).arrAt_in 1 rfl _).trans (A_eq0 (V5 m ρ) c 1))
theorem W6_main_arg3 (c : Dev nD) : W6 m ρ c (Proc.devRef .tc main_arg3) = W5 m ρ c (Proc.devRef .tc main_arg3) :=
  (W6_arr m ρ c 2).trans (((dat0 (V5 m ρ) c).arrAt_in 2 rfl _).trans (A_eq0 (V5 m ρ) c 2))
theorem W6_main_v27 (c : Dev nD) : W6 m ρ c (Proc.devRef .tc main_v27) = W5 m ρ c (Proc.devRef .tc main_v27) :=
  (W6_arr m ρ c 3).trans (((dat0 (V5 m ρ) c).arrAt_in 3 rfl _).trans (A_eq0 (V5 m ρ) c 3))
theorem W6_main_arg5 (c : Dev nD) : W6 m ρ c (Proc.devRef .tc main_arg5) = W5 m ρ c (Proc.devRef .tc main_arg5) :=
  (W6_arr m ρ c 4).trans (((dat0 (V5 m ρ) c).arrAt_in 4 rfl _).trans (A_eq0 (V5 m ρ) c 4))
theorem W6_main_v28 (c : Dev nD) : W6 m ρ c (Proc.devRef .tc main_v28) = W5 m ρ c (Proc.devRef .tc main_v28) :=
  (W6_arr m ρ c 5).trans (((dat0 (V5 m ρ) c).arrAt_in 5 rfl _).trans (A_eq0 (V5 m ρ) c 5))
theorem W6_main_arg7 (c : Dev nD) : W6 m ρ c (Proc.devRef .tc main_arg7) = W5 m ρ c (Proc.devRef .tc main_arg7) :=
  (W6_arr m ρ c 6).trans (((dat0 (V5 m ρ) c).arrAt_in 6 rfl _).trans (A_eq0 (V5 m ρ) c 6))
theorem W6_main_v29 (c : Dev nD) : W6 m ρ c (Proc.devRef .tc main_v29) = W5 m ρ c (Proc.devRef .tc main_v29) :=
  (W6_arr m ρ c 7).trans (((dat0 (V5 m ρ) c).arrAt_in 7 rfl _).trans (A_eq0 (V5 m ρ) c 7))
theorem W6_main_arg9 (c : Dev nD) : W6 m ρ c (Proc.devRef .tc main_arg9) = W5 m ρ c (Proc.devRef .tc main_arg9) :=
  (W6_arr m ρ c 8).trans (((dat0 (V5 m ρ) c).arrAt_in 8 rfl _).trans (A_eq0 (V5 m ρ) c 8))
theorem W6_main_v30 (c : Dev nD) : W6 m ρ c (Proc.devRef .tc main_v30) = W5 m ρ c (Proc.devRef .tc main_v30) :=
  (W6_arr m ρ c 9).trans (((dat0 (V5 m ρ) c).arrAt_in 9 rfl _).trans (A_eq0 (V5 m ρ) c 9))
theorem W6_main_arg11 (c : Dev nD) : W6 m ρ c (Proc.devRef .tc main_arg11) = W5 m ρ c (Proc.devRef .tc main_arg11) :=
  (W6_arr m ρ c 10).trans (((dat0 (V5 m ρ) c).arrAt_in 10 rfl _).trans (A_eq0 (V5 m ρ) c 10))
theorem W6_main_v31 (c : Dev nD) : W6 m ρ c (Proc.devRef .tc main_v31) = W5 m ρ c (Proc.devRef .tc main_v31) :=
  (W6_arr m ρ c 11).trans (((dat0 (V5 m ρ) c).arrAt_in 11 rfl _).trans (A_eq0 (V5 m ρ) c 11))
theorem W6_main_arg13 (c : Dev nD) : W6 m ρ c (Proc.devRef .tc main_arg13) = W5 m ρ c (Proc.devRef .tc main_arg13) :=
  (W6_arr m ρ c 12).trans (((dat0 (V5 m ρ) c).arrAt_in 12 rfl _).trans (A_eq0 (V5 m ρ) c 12))
theorem W6_main_v32 (c : Dev nD) : W6 m ρ c (Proc.devRef .tc main_v32) = W5 m ρ c (Proc.devRef .tc main_v32) :=
  (W6_arr m ρ c 13).trans (((dat0 (V5 m ρ) c).arrAt_in 13 rfl _).trans (A_eq0 (V5 m ρ) c 13))
theorem W6_main_arg15 (c : Dev nD) : W6 m ρ c (Proc.devRef .tc main_arg15) = W5 m ρ c (Proc.devRef .tc main_arg15) :=
  (W6_arr m ρ c 14).trans (((dat0 (V5 m ρ) c).arrAt_in 14 rfl _).trans (A_eq0 (V5 m ρ) c 14))

/-! ## The launches' output columns at the last stretch -/

theorem W7_v34 (c : Dev nD) : W7 m ρ c (Proc.devRef .tc main_v34) = (dat1 (V6 m ρ) c).arrAt 15 cfg1.N :=
  W7_arr m ρ c 15

theorem W7_v33 (c : Dev nD) : W7 m ρ c (Proc.devRef .tc main_v33) = (dat0 (V5 m ρ) c).arrAt 15 cfg0.N :=
  (W7_of_ne m ρ c main_v33 (by decide)).trans (W6_arr m ρ c 15)

end Cert.KernelIdeal.RunValue

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.Spec.lean ====
/-
  A seven-layer perceptron applied to every row of a matrix.

  One layer sends a row `h` of `K` extended reals to the row `q ↦ max (∑ k, h k · W (k, q) + b q) 0` of `M` extended reals
  (an affine map followed by the positive part); the last layer is affine only and has one output. The value of the
  network on a row is the composition of the seven layers. Applied to an `[n, 512]` matrix it gives the `[n, 1]` column
  whose entry at row `r` is the network's value on row `r`: no entry depends on any other row.

  The same layer is written in two ways: by the matrix unit (a product accumulated into zeros, the bias laid as one row
  and repeated down the rows, a maximum with a splat zero; the operands pass through changes of float format, which are
  the identity on extended reals) and by host operations (a general dot product, the bias broadcast along axis 1 and
  then over the rows, a maximum with a broadcast zero constant). Read at `(p, q)` both are the layer applied to row `p`.
-/
import Idealize.ShloMosaic.Lib.ValueIdx
import Idealize.ShloMosaic.Lib.ValueLayout
import Idealize.ShloMosaic.Lib.Pipeline.Value
import Idealize.ShloMosaic.PureOps.Ideal.Laws
import proofs.«134839_j7241314861638_1_alg».proof.Proof.LibMatmulPlain
import proofs.«134839_j7241314861638_1_alg».proof.Proof.LibKeepdims

noncomputable section

namespace Cert.Mlp

open Idealize.ShloMosaic Idealize.ShloMosaic.ValueIdx Cert.Lib.MatmulPlain Cert.Lib.Keepdims

/-- An `[a, b]` matrix of extended reals. -/
abbrev Mat (a b : ℕ) : Type := (⟨2, ![a, b]⟩ : Shape).Idx → EReal
/-- An `[a]` vector of extended reals. -/
abbrev Vect (a : ℕ) : Type := (⟨1, ![a]⟩ : Shape).Idx → EReal

/-- The affine map `h ↦ h · W + b` on a row. -/
def affine {K M : ℕ} (W : Mat K M) (b : Vect M) (h : Fin K → EReal) : Fin M → EReal :=
  fun q => ∑ k : Fin K, h k * W (ix2 k q) + b (ix1 q)

/-- One layer: the affine map followed by the positive part. -/
def dense {K M : ℕ} (W : Mat K M) (b : Vect M) (h : Fin K → EReal) : Fin M → EReal :=
  fun q => max (affine W b h q) 0

/-- The network's weights and biases. -/
structure Params where
  W0 : Mat 512 256
  b0 : Vect 256
  W1 : Mat 256 512
  b1 : Vect 512
  W2 : Mat 512 512
  b2 : Vect 512
  W3 : Mat 512 256
  b3 : Vect 256
  W4 : Mat 256 128
  b4 : Vect 128
  W5 : Mat 128 256
  b5 : Vect 256
  W6 : Mat 256 1
  b6 : Vect 1

/-- The network's value on one row of 512 entries. -/
def rowMlp (P : Params) (x : Fin 512 → EReal) : EReal :=
  affine P.W6 P.b6 (dense P.W5 P.b5 (dense P.W4 P.b4 (dense P.W3 P.b3 (dense P.W2 P.b2 (dense P.W1 P.b1
    (dense P.W0 P.b0 x)))))) (0 : Fin 1)

/-- The network applied to every row of an `[n, 512]` matrix: an `[n, 1]` column. -/
def rows (n : ℕ) (P : Params) (X : Mat n 512) : Mat n 1 :=
  fun j => rowMlp P (fun k => X (ix2 (j 0) k))

theorem rows_apply (n : ℕ) (P : Params) (X : Mat n 512) (p : Fin n) (u : Fin 1) :
    rows n P X (ix2 p u) = rowMlp P (fun k => X (ix2 p k)) := rfl

section Layers

variable {n K M : ℕ} (wf : DotDims.WF ⟨2, ![n, K]⟩ ⟨2, ![K, M]⟩ ⟨2, ![n, M]⟩ [1] [0] [0] [1] [] [])

/-- The affine part as the matrix unit writes it, read at `(p, q)`. -/
theorem kAffine_apply (h : FVec Ideal ⟨2, ![n, K]⟩ .f32) (W : FVec Ideal ⟨2, ![K, M]⟩ .bf16) (b : FVec Ideal ⟨1, ![M]⟩ .f32)
    (hlt : FTy.bits .bf16 < FTy.bits .f32) (hW : (⟨2, ![K, M]⟩ : Shape).ShapeCasts ⟨2, ![K, M]⟩)
    (hb : (⟨1, ![M]⟩ : Shape).ShapeCasts ⟨2, ![1, M]⟩) (hbc : (⟨2, ![1, M]⟩ : Shape).Broadcasts ⟨2, ![n, M]⟩)
    (p : Fin n) (q : Fin M) :
    addf (matmul (plainDims n K M wf) none (truncf .bf16 h hlt) (shapeCast ⟨2, ![K, M]⟩ W hW)
        (constant ⟨2, ![n, M]⟩ .f32 0x00000000#32))
      (broadcastTo ⟨2, ![n, M]⟩ (shapeCast ⟨2, ![1, M]⟩ b hb) hbc) (ix2 p q)
      = affine W b (fun k => h (ix2 p k)) q := by
  rw [addf_apply, broadcastTo_1b_ab_apply, shapeCast_a_1a_apply, shapeCast_self]
  simp only [matmul]
  rw [matmul_zero_apply wf]
  rfl

/-- A whole layer as the matrix unit writes it, read at `(p, q)`. -/
theorem kDense_apply (h : FVec Ideal ⟨2, ![n, K]⟩ .f32) (W : FVec Ideal ⟨2, ![K, M]⟩ .bf16) (b : FVec Ideal ⟨1, ![M]⟩ .f32)
    (hlt : FTy.bits .bf16 < FTy.bits .f32) (hW : (⟨2, ![K, M]⟩ : Shape).ShapeCasts ⟨2, ![K, M]⟩)
    (hb : (⟨1, ![M]⟩ : Shape).ShapeCasts ⟨2, ![1, M]⟩) (hbc : (⟨2, ![1, M]⟩ : Shape).Broadcasts ⟨2, ![n, M]⟩)
    (p : Fin n) (q : Fin M) :
    maximumf (addf (matmul (plainDims n K M wf) none (truncf .bf16 h hlt) (shapeCast ⟨2, ![K, M]⟩ W hW)
          (constant ⟨2, ![n, M]⟩ .f32 0x00000000#32))
        (broadcastTo ⟨2, ![n, M]⟩ (shapeCast ⟨2, ![1, M]⟩ b hb) hbc))
      (broadcast ⟨2, ![n, M]⟩ (Scalar.ofBits (F := Ideal) .f32 0x00000000#32)) (ix2 p q)
      = dense W b (fun k => h (ix2 p k)) q := by
  rw [maximumf_apply, kAffine_apply wf, broadcast_apply]
  show max _ (Ideal.ofBits .f32 0x00000000#32) = _
  rw [Ideal.ofBits_zero_f32]
  rfl

/-- The affine part as host operations write it, read at `(p, q)`. -/
theorem hAffine_apply (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) (p : Fin n) (q : Fin M) :
    addf (Host.dotGeneral (plainDims n K M wf) none h W)
      (broadcastInDim ⟨2, ![n, M]⟩ ![0, 1] h2 (broadcastInDim ⟨2, ![1, M]⟩ ![1] h1 b)) (ix2 p q)
      = affine W b (fun k => h (ix2 p k)) q := by
  rw [addf_apply, broadcastInDim_1b_ab_apply, broadcastInDim_b_1b_apply, dotGeneral_apply wf]
  rfl

/-- A whole layer as host operations write it, read at `(p, q)`. -/
theorem hDense_apply (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) (p : Fin n) (q : Fin M) :
    maximumf (addf (Host.dotGeneral (plainDims n K M wf) none h W)
        (broadcastInDim ⟨2, ![n, M]⟩ ![0, 1] h2 (broadcastInDim ⟨2, ![1, M]⟩ ![1] h1 b)))
      (broadcastInDim ⟨2, ![n, M]⟩ ![] h0 (constant (F := Ideal) ⟨0, ![]⟩ .f32 0x00000000#32)) (ix2 p q)
      = dense W b (fun k => h (ix2 p k)) q := by
  rw [maximumf_apply, hAffine_apply wf, broadcastInDim_scalar_apply, constant_apply, Ideal.ofBits_zero_f32]
  rfl

end Layers

end Cert.Mlp

end
-- ==== Proof.KernelPayload.lean ====
/-
  The perceptron kernel's stored value, read at one row.

  The body of each launch of the kernel computes, from the block of rows it loaded and the fourteen weight and bias
  arrays, a column with one entry per row of the block. That column is a nest of seven products accumulated into zeros,
  each followed by the bias laid as a row and repeated down the rows and (for the first six) the maximum with zero; the
  changes of float format between the layers are the identity on extended reals. Read at row `p`, every product is a sum
  over its contraction coordinate that mentions row `p` of its left operand only, so the entry at row `p` is the seven
  layers applied one after another to row `p` of the block: the network's value on that row. The dimension records of
  the seven products are the plain ones of a `[n, K]` by `[K, M]` product, which is what the layer lemmas are stated over.
  The two launches differ in the block's number of rows only (512 and 2048).
-/
import proofs.«134839_j7241314861638_1_alg».proof.Proof.Spec
import proofs.«134839_j7241314861638_1_alg».proof.Proof.Gen.KernelIdeal.Skeleton

noncomputable section

namespace Cert.KernelIdeal.RegionValue

open Idealize.ShloMosaic Idealize.ShloMosaic.ValueIdx Cert.KernelIdeal Cert.KernelIdeal.Gen Cert.Lib.MatmulPlain

/-! ## The products' dimension records are the plain ones -/

theorem dot_S512x512_S512x256_S512x256_1_0_0_1_n_n_eq :
    dot_S512x512_S512x256_S512x256_1_0_0_1_n_n = plainDims 512 512 256 Facts₀.dot_S512x512_S512x256_S512x256_1_0_0_1_n_n_wf := rfl
theorem dot_S512x256_S256x512_S512x512_1_0_0_1_n_n_eq :
    dot_S512x256_S256x512_S512x512_1_0_0_1_n_n = plainDims 512 256 512 Facts₀.dot_S512x256_S256x512_S512x512_1_0_0_1_n_n_wf := rfl
theorem dot_S512x512_S512x512_S512x512_1_0_0_1_n_n_eq :
    dot_S512x512_S512x512_S512x512_1_0_0_1_n_n = plainDims 512 512 512 Facts₀.dot_S512x512_S512x512_S512x512_1_0_0_1_n_n_wf := rfl
theorem dot_S512x256_S256x128_S512x128_1_0_0_1_n_n_eq :
    dot_S512x256_S256x128_S512x128_1_0_0_1_n_n = plainDims 512 256 128 Facts₀.dot_S512x256_S256x128_S512x128_1_0_0_1_n_n_wf := rfl
theorem dot_S512x128_S128x256_S512x256_1_0_0_1_n_n_eq :
    dot_S512x128_S128x256_S512x256_1_0_0_1_n_n = plainDims 512 128 256 Facts₀.dot_S512x128_S128x256_S512x256_1_0_0_1_n_n_wf := rfl
theorem dot_S512x256_S256x1_S512x1_1_0_0_1_n_n_eq :
    dot_S512x256_S256x1_S512x1_1_0_0_1_n_n = plainDims 512 256 1 Facts₀.dot_S512x256_S256x1_S512x1_1_0_0_1_n_n_wf := rfl
theorem dot_S2048x512_S512x256_S2048x256_1_0_0_1_n_n_eq :
    dot_S2048x512_S512x256_S2048x256_1_0_0_1_n_n = plainDims 2048 512 256 Facts₀.dot_S2048x512_S512x256_S2048x256_1_0_0_1_n_n_wf := rfl
theorem dot_S2048x256_S256x512_S2048x512_1_0_0_1_n_n_eq :
    dot_S2048x256_S256x512_S2048x512_1_0_0_1_n_n = plainDims 2048 256 512 Facts₀.dot_S2048x256_S256x512_S2048x512_1_0_0_1_n_n_wf := rfl
theorem dot_S2048x512_S512x512_S2048x512_1_0_0_1_n_n_eq :
    dot_S2048x512_S512x512_S2048x512_1_0_0_1_n_n = plainDims 2048 512 512 Facts₀.dot_S2048x512_S512x512_S2048x512_1_0_0_1_n_n_wf := rfl
theorem dot_S2048x256_S256x128_S2048x128_1_0_0_1_n_n_eq :
    dot_S2048x256_S256x128_S2048x128_1_0_0_1_n_n = plainDims 2048 256 128 Facts₀.dot_S2048x256_S256x128_S2048x128_1_0_0_1_n_n_wf := rfl
theorem dot_S2048x128_S128x256_S2048x256_1_0_0_1_n_n_eq :
    dot_S2048x128_S128x256_S2048x256_1_0_0_1_n_n = plainDims 2048 128 256 Facts₀.dot_S2048x128_S128x256_S2048x256_1_0_0_1_n_n_wf := rfl
theorem dot_S2048x256_S256x1_S2048x1_1_0_0_1_n_n_eq :
    dot_S2048x256_S256x1_S2048x1_1_0_0_1_n_n = plainDims 2048 256 1 Facts₀.dot_S2048x256_S256x1_S2048x1_1_0_0_1_n_n_wf := rfl

/-! ## The stored column at a row -/

/-- Blocks of 512 rows: the stored column's entry at row `p` is the network's value on row `p` of the block. -/
theorem pay0_apply (x0 : Vec Ideal S512x512 .f32) (x1 : Vec Ideal S512x256 .bf16) (x2 : Vec Ideal S256 .f32)
    (x3 : Vec Ideal S256x512 .bf16) (x4 : Vec Ideal S512 .f32) (x5 : Vec Ideal S512x512 .bf16) (x6 : Vec Ideal S512 .f32)
    (x7 : Vec Ideal S512x256 .bf16) (x8 : Vec Ideal S256 .f32) (x9 : Vec Ideal S256x128 .bf16) (x10 : Vec Ideal S128 .f32)
    (x11 : Vec Ideal S128x256 .bf16) (x12 : Vec Ideal S256 .f32) (x13 : Vec Ideal S256x1 .bf16) (x14 : Vec Ideal S1 .f32)
    (p : Fin 512) (u : Fin 1) :
    k0_pay1 (F := Ideal) (k0_pay2 x0 x1 x2 x3 x4 x5 x6 x7) (k0_pay3 x8) x9 x10 x11 x12 x13 x14 (ix2 p u)
      = Cert.Mlp.rowMlp ⟨x1, x2, x3, x4, x5, x6, x7, x8, x9, x10, x11, x12, x13, x14⟩ (fun k => x0 (ix2 p k)) := by
  obtain rfl : u = 0 := Subsingleton.elim u 0
  unfold k0_pay1 k0_pay2 k0_pay3
  dsimp only
  rw [dot_S512x512_S512x256_S512x256_1_0_0_1_n_n_eq,
    dot_S512x256_S256x512_S512x512_1_0_0_1_n_n_eq,
    dot_S512x512_S512x512_S512x512_1_0_0_1_n_n_eq,
    dot_S512x256_S256x128_S512x128_1_0_0_1_n_n_eq,
    dot_S512x128_S128x256_S512x256_1_0_0_1_n_n_eq,
    dot_S512x256_S256x1_S512x1_1_0_0_1_n_n_eq]
  simp only [Cert.Mlp.kDense_apply, Cert.Mlp.kAffine_apply]
  simp only [shapeCast_self]
  rfl

/-- Blocks of 2048 rows: the stored column's entry at row `p` is the network's value on row `p` of the block. -/
theorem pay1_apply (x0 : Vec Ideal S2048x512 .f32) (x1 : Vec Ideal S512x256 .bf16) (x2 : Vec Ideal S256 .f32)
    (x3 : Vec Ideal S256x512 .bf16) (x4 : Vec Ideal S512 .f32) (x5 : Vec Ideal S512x512 .bf16) (x6 : Vec Ideal S512 .f32)
    (x7 : Vec Ideal S512x256 .bf16) (x8 : Vec Ideal S256 .f32) (x9 : Vec Ideal S256x128 .bf16) (x10 : Vec Ideal S128 .f32)
    (x11 : Vec Ideal S128x256 .bf16) (x12 : Vec Ideal S256 .f32) (x13 : Vec Ideal S256x1 .bf16) (x14 : Vec Ideal S1 .f32)
    (p : Fin 2048) (u : Fin 1) :
    k1_pay1 (F := Ideal) (k1_pay2 x0 x1 x2 x3 x4 x5 x6 x7) (k1_pay3 x8) x9 x10 x11 x12 x13 x14 (ix2 p u)
      = Cert.Mlp.rowMlp ⟨x1, x2, x3, x4, x5, x6, x7, x8, x9, x10, x11, x12, x13, x14⟩ (fun k => x0 (ix2 p k)) := by
  obtain rfl : u = 0 := Subsingleton.elim u 0
  unfold k1_pay1 k1_pay2 k1_pay3
  dsimp only
  rw [dot_S2048x512_S512x256_S2048x256_1_0_0_1_n_n_eq,
    dot_S2048x256_S256x512_S2048x512_1_0_0_1_n_n_eq,
    dot_S2048x512_S512x512_S2048x512_1_0_0_1_n_n_eq,
    dot_S2048x256_S256x128_S2048x128_1_0_0_1_n_n_eq,
    dot_S2048x128_S128x256_S2048x256_1_0_0_1_n_n_eq,
    dot_S2048x256_S256x1_S2048x1_1_0_0_1_n_n_eq]
  simp only [Cert.Mlp.kDense_apply, Cert.Mlp.kAffine_apply]
  simp only [shapeCast_self]
  rfl

/-! ## The network's parameters as a launch finds them -/

open Idealize.ShloMosaic.TcCoe Idealize.SL.Sem

/-- The fourteen weight and bias arrays, read off the buffer contents `V` a launch is entered with, in the order the
    kernel takes them: the weights in the narrow float format, the biases as they were given. On extended reals the
    format is not seen. -/
def params (V : (c : Dev nD) → (b : Ref sig .tc) → Buf (Elt Ideal) ((c : Thread nD τ).loc b)) (c : Dev nD) :
    Cert.Mlp.Params :=
  ⟨V c main_v26, V c main_arg3, V c main_v27, V c main_arg5, V c main_v28, V c main_arg7, V c main_v29, V c main_arg9,
   V c main_v30, V c main_arg11, V c main_v31, V c main_arg13, V c main_v32, V c main_arg15⟩

/-- The zero offsets of a rank-2 buffer read or written whole. -/
theorem hz2 : (![0, 0] : Fin 2 → Nat) = fun _ => 0 := funext fun a => by fin_cases a <;> rfl
/-- The zero offset of a rank-1 buffer read whole. -/
theorem hz1 : (![0] : Fin 1 → Nat) = fun _ => 0 := funext fun a => by fin_cases a; rfl

end Cert.KernelIdeal.RegionValue

end
-- ==== Proof.Region0.lean ====
/-
  The first launch of the perceptron kernel: one grid point on one block of 512 rows.

  The input array has 512 rows of 512 entries and the output array 512 rows of one entry; the one point is handed the
  input and the fourteen weight and bias arrays whole and writes the whole output back. The column it stores has at row
  `p` the network's value on row `p` of the input, so what the point writes back is the network applied to every row of
  the input array, its one block covers the output array, and after the write-back the output array is that function.
-/
import proofs.«134839_j7241314861638_1_alg».proof.Proof.KernelPayload
import proofs.«134839_j7241314861638_1_alg».proof.Proof.Gen.KernelIdeal.Frame
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0: blocks of 512 rows -/

/-- The two moving windows' block indices: the input's and the output's block at point `t` is block `t` along the rows. -/
theorem idx0 : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Window 1's block index is zero at every point: its block is its whole array. -/
theorem idx0_1 : ∀ t : Fin cfg0.N, win0_1.index t (0 : Fin 2) = 0 ∧ win0_1.index t (1 : Fin 2) = 0 :=
  (by decide +kernel : ∀ t : Fin grid0.N, _)
/-- Window 2's block index is zero at every point: its block is its whole array. -/
theorem idx0_2 : ∀ t : Fin cfg0.N, win0_2.index t (0 : Fin 1) = 0 :=
  (by decide +kernel : ∀ t : Fin grid0.N, _)
/-- Window 3's block index is zero at every point: its block is its whole array. -/
theorem idx0_3 : ∀ t : Fin cfg0.N, win0_3.index t (0 : Fin 2) = 0 ∧ win0_3.index t (1 : Fin 2) = 0 :=
  (by decide +kernel : ∀ t : Fin grid0.N, _)
/-- Window 4's block index is zero at every point: its block is its whole array. -/
theorem idx0_4 : ∀ t : Fin cfg0.N, win0_4.index t (0 : Fin 1) = 0 :=
  (by decide +kernel : ∀ t : Fin grid0.N, _)
/-- Window 5's block index is zero at every point: its block is its whole array. -/
theorem idx0_5 : ∀ t : Fin cfg0.N, win0_5.index t (0 : Fin 2) = 0 ∧ win0_5.index t (1 : Fin 2) = 0 :=
  (by decide +kernel : ∀ t : Fin grid0.N, _)
/-- Window 6's block index is zero at every point: its block is its whole array. -/
theorem idx0_6 : ∀ t : Fin cfg0.N, win0_6.index t (0 : Fin 1) = 0 :=
  (by decide +kernel : ∀ t : Fin grid0.N, _)
/-- Window 7's block index is zero at every point: its block is its whole array. -/
theorem idx0_7 : ∀ t : Fin cfg0.N, win0_7.index t (0 : Fin 2) = 0 ∧ win0_7.index t (1 : Fin 2) = 0 :=
  (by decide +kernel : ∀ t : Fin grid0.N, _)
/-- Window 8's block index is zero at every point: its block is its whole array. -/
theorem idx0_8 : ∀ t : Fin cfg0.N, win0_8.index t (0 : Fin 1) = 0 :=
  (by decide +kernel : ∀ t : Fin grid0.N, _)
/-- Window 9's block index is zero at every point: its block is its whole array. -/
theorem idx0_9 : ∀ t : Fin cfg0.N, win0_9.index t (0 : Fin 2) = 0 ∧ win0_9.index t (1 : Fin 2) = 0 :=
  (by decide +kernel : ∀ t : Fin grid0.N, _)
/-- Window 10's block index is zero at every point: its block is its whole array. -/
theorem idx0_10 : ∀ t : Fin cfg0.N, win0_10.index t (0 : Fin 1) = 0 :=
  (by decide +kernel : ∀ t : Fin grid0.N, _)
/-- Window 11's block index is zero at every point: its block is its whole array. -/
theorem idx0_11 : ∀ t : Fin cfg0.N, win0_11.index t (0 : Fin 2) = 0 ∧ win0_11.index t (1 : Fin 2) = 0 :=
  (by decide +kernel : ∀ t : Fin grid0.N, _)
/-- Window 12's block index is zero at every point: its block is its whole array. -/
theorem idx0_12 : ∀ t : Fin cfg0.N, win0_12.index t (0 : Fin 1) = 0 :=
  (by decide +kernel : ∀ t : Fin grid0.N, _)
/-- Window 13's block index is zero at every point: its block is its whole array. -/
theorem idx0_13 : ∀ t : Fin cfg0.N, win0_13.index t (0 : Fin 2) = 0 ∧ win0_13.index t (1 : Fin 2) = 0 :=
  (by decide +kernel : ∀ t : Fin grid0.N, _)
/-- Window 14's block index is zero at every point: its block is its whole array. -/
theorem idx0_14 : ∀ t : Fin cfg0.N, win0_14.index t (0 : Fin 1) = 0 :=
  (by decide +kernel : ∀ t : Fin grid0.N, _)

/-- What the body leaves in the output's buffer, at row `p`: the network's value on row `p` of the input block. -/
theorem out0_apply (x0 : Vec Ideal S512x512 .f32) (x1 : Vec Ideal S512x256 .bf16) (x2 : Vec Ideal S256 .f32)
    (x3 : Vec Ideal S256x512 .bf16) (x4 : Vec Ideal S512 .f32) (x5 : Vec Ideal S512x512 .bf16) (x6 : Vec Ideal S512 .f32)
    (x7 : Vec Ideal S512x256 .bf16) (x8 : Vec Ideal S256 .f32) (x9 : Vec Ideal S256x128 .bf16) (x10 : Vec Ideal S128 .f32)
    (x11 : Vec Ideal S128x256 .bf16) (x12 : Vec Ideal S256 .f32) (x13 : Vec Ideal S256x1 .bf16) (x14 : Vec Ideal S1 .f32)
    (p : Fin 512) (u : Fin 1) :
    out0_15 (F := Ideal) x0 x1 x2 x3 x4 x5 x6 x7 x8 x9 x10 x11 x12 x13 x14 (ix2 p u)
      = Cert.Mlp.rowMlp ⟨x1, x2, x3, x4, x5, x6, x7, x8, x9, x10, x11, x12, x13, x14⟩ (fun k => x0 (ix2 p k)) := by
  unfold out0_15
  rw [View.canon_unit_zero hz2]
  simp only [View.ld_unit_zero (S := S512x512) hz2,
    View.ld_unit_zero (S := S512x256) hz2,
    View.ld_unit_zero (S := S256x512) hz2,
    View.ld_unit_zero (S := S512x512) hz2,
    View.ld_unit_zero (S := S256x128) hz2,
    View.ld_unit_zero (S := S128x256) hz2,
    View.ld_unit_zero (S := S256x1) hz2,
    View.ld_unit_zero (S := S512x1) hz2,
    View.ld_unit_zero (S := S256) hz1,
    View.ld_unit_zero (S := S512) hz1,
    View.ld_unit_zero (S := S128) hz1,
    View.ld_unit_zero (S := S1) hz1]
  exact pay0_apply x0 x1 x2 x3 x4 x5 x6 x7 x8 x9 x10 x11 x12 x13 x14 p u

/-- The input window's block at point `t`, at row `x 0` and column `x 1`, is the array at row `512·t + x 0`, column `x 1`. -/
theorem blk0_0_apply (c : Dev nD) (t : Fin cfg0.N) (x : S512x512.Idx) (i : S512x512.Idx)
    (h0 : (i 0).val = 512 * t.val + (x 0).val) (h1 : (i 1).val = (x 1).val) :
    (iblk0 V c 0 t : Vec Ideal S512x512 .f32) x = (V c main_v0 : S512x512.Idx → EReal) i := by
  obtain ⟨e0, e1, -, -⟩ := idx0 t
  unfold iblk0
  rw [View.read_apply]
  show V c main_v0 _ = V c main_v0 i
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 512 + 1 * (x 1).val = (i 1).val; rw [e1, h1]; omega

/-- Window 1's block at any point is the whole array. -/
theorem blk0_1 (c : Dev nD) (t : Fin cfg0.N) : (iblk0 V c 1 t : Vec Ideal S512x256 .bf16) = V c main_v26 := by
  have e := idx0_1 t
  funext x
  unfold iblk0
  rw [View.read_apply]
  show V c main_v26 _ = V c main_v26 x
  congr 1
  funext a
  apply Fin.ext
  match a with
  | ⟨0, _⟩ => show win0_1.index t (0 : Fin 2) * 512 + 1 * (x 0).val = (x 0).val; rw [e.1]; omega
  | ⟨1, _⟩ => show win0_1.index t (1 : Fin 2) * 256 + 1 * (x 1).val = (x 1).val; rw [e.2]; omega

/-- Window 2's block at any point is the whole array. -/
theorem blk0_2 (c : Dev nD) (t : Fin cfg0.N) : (iblk0 V c 2 t : Vec Ideal S256 .f32) = V c main_arg3 := by
  have e := idx0_2 t
  funext x
  unfold iblk0
  rw [View.read_apply]
  show V c main_arg3 _ = V c main_arg3 x
  congr 1
  funext a
  apply Fin.ext
  match a with
  | ⟨0, _⟩ => show win0_2.index t (0 : Fin 1) * 256 + 1 * (x 0).val = (x 0).val; rw [e]; omega

/-- Window 3's block at any point is the whole array. -/
theorem blk0_3 (c : Dev nD) (t : Fin cfg0.N) : (iblk0 V c 3 t : Vec Ideal S256x512 .bf16) = V c main_v27 := by
  have e := idx0_3 t
  funext x
  unfold iblk0
  rw [View.read_apply]
  show V c main_v27 _ = V c main_v27 x
  congr 1
  funext a
  apply Fin.ext
  match a with
  | ⟨0, _⟩ => show win0_3.index t (0 : Fin 2) * 256 + 1 * (x 0).val = (x 0).val; rw [e.1]; omega
  | ⟨1, _⟩ => show win0_3.index t (1 : Fin 2) * 512 + 1 * (x 1).val = (x 1).val; rw [e.2]; omega

/-- Window 4's block at any point is the whole array. -/
theorem blk0_4 (c : Dev nD) (t : Fin cfg0.N) : (iblk0 V c 4 t : Vec Ideal S512 .f32) = V c main_arg5 := by
  have e := idx0_4 t
  funext x
  unfold iblk0
  rw [View.read_apply]
  show V c main_arg5 _ = V c main_arg5 x
  congr 1
  funext a
  apply Fin.ext
  match a with
  | ⟨0, _⟩ => show win0_4.index t (0 : Fin 1) * 512 + 1 * (x 0).val = (x 0).val; rw [e]; omega

/-- Window 5's block at any point is the whole array. -/
theorem blk0_5 (c : Dev nD) (t : Fin cfg0.N) : (iblk0 V c 5 t : Vec Ideal S512x512 .bf16) = V c main_v28 := by
  have e := idx0_5 t
  funext x
  unfold iblk0
  rw [View.read_apply]
  show V c main_v28 _ = V c main_v28 x
  congr 1
  funext a
  apply Fin.ext
  match a with
  | ⟨0, _⟩ => show win0_5.index t (0 : Fin 2) * 512 + 1 * (x 0).val = (x 0).val; rw [e.1]; omega
  | ⟨1, _⟩ => show win0_5.index t (1 : Fin 2) * 512 + 1 * (x 1).val = (x 1).val; rw [e.2]; omega

/-- Window 6's block at any point is the whole array. -/
theorem blk0_6 (c : Dev nD) (t : Fin cfg0.N) : (iblk0 V c 6 t : Vec Ideal S512 .f32) = V c main_arg7 := by
  have e := idx0_6 t
  funext x
  unfold iblk0
  rw [View.read_apply]
  show V c main_arg7 _ = V c main_arg7 x
  congr 1
  funext a
  apply Fin.ext
  match a with
  | ⟨0, _⟩ => show win0_6.index t (0 : Fin 1) * 512 + 1 * (x 0).val = (x 0).val; rw [e]; omega

/-- Window 7's block at any point is the whole array. -/
theorem blk0_7 (c : Dev nD) (t : Fin cfg0.N) : (iblk0 V c 7 t : Vec Ideal S512x256 .bf16) = V c main_v29 := by
  have e := idx0_7 t
  funext x
  unfold iblk0
  rw [View.read_apply]
  show V c main_v29 _ = V c main_v29 x
  congr 1
  funext a
  apply Fin.ext
  match a with
  | ⟨0, _⟩ => show win0_7.index t (0 : Fin 2) * 512 + 1 * (x 0).val = (x 0).val; rw [e.1]; omega
  | ⟨1, _⟩ => show win0_7.index t (1 : Fin 2) * 256 + 1 * (x 1).val = (x 1).val; rw [e.2]; omega

/-- Window 8's block at any point is the whole array. -/
theorem blk0_8 (c : Dev nD) (t : Fin cfg0.N) : (iblk0 V c 8 t : Vec Ideal S256 .f32) = V c main_arg9 := by
  have e := idx0_8 t
  funext x
  unfold iblk0
  rw [View.read_apply]
  show V c main_arg9 _ = V c main_arg9 x
  congr 1
  funext a
  apply Fin.ext
  match a with
  | ⟨0, _⟩ => show win0_8.index t (0 : Fin 1) * 256 + 1 * (x 0).val = (x 0).val; rw [e]; omega

/-- Window 9's block at any point is the whole array. -/
theorem blk0_9 (c : Dev nD) (t : Fin cfg0.N) : (iblk0 V c 9 t : Vec Ideal S256x128 .bf16) = V c main_v30 := by
  have e := idx0_9 t
  funext x
  unfold iblk0
  rw [View.read_apply]
  show V c main_v30 _ = V c main_v30 x
  congr 1
  funext a
  apply Fin.ext
  match a with
  | ⟨0, _⟩ => show win0_9.index t (0 : Fin 2) * 256 + 1 * (x 0).val = (x 0).val; rw [e.1]; omega
  | ⟨1, _⟩ => show win0_9.index t (1 : Fin 2) * 128 + 1 * (x 1).val = (x 1).val; rw [e.2]; omega

/-- Window 10's block at any point is the whole array. -/
theorem blk0_10 (c : Dev nD) (t : Fin cfg0.N) : (iblk0 V c 10 t : Vec Ideal S128 .f32) = V c main_arg11 := by
  have e := idx0_10 t
  funext x
  unfold iblk0
  rw [View.read_apply]
  show V c main_arg11 _ = V c main_arg11 x
  congr 1
  funext a
  apply Fin.ext
  match a with
  | ⟨0, _⟩ => show win0_10.index t (0 : Fin 1) * 128 + 1 * (x 0).val = (x 0).val; rw [e]; omega

/-- Window 11's block at any point is the whole array. -/
theorem blk0_11 (c : Dev nD) (t : Fin cfg0.N) : (iblk0 V c 11 t : Vec Ideal S128x256 .bf16) = V c main_v31 := by
  have e := idx0_11 t
  funext x
  unfold iblk0
  rw [View.read_apply]
  show V c main_v31 _ = V c main_v31 x
  congr 1
  funext a
  apply Fin.ext
  match a with
  | ⟨0, _⟩ => show win0_11.index t (0 : Fin 2) * 128 + 1 * (x 0).val = (x 0).val; rw [e.1]; omega
  | ⟨1, _⟩ => show win0_11.index t (1 : Fin 2) * 256 + 1 * (x 1).val = (x 1).val; rw [e.2]; omega

/-- Window 12's block at any point is the whole array. -/
theorem blk0_12 (c : Dev nD) (t : Fin cfg0.N) : (iblk0 V c 12 t : Vec Ideal S256 .f32) = V c main_arg13 := by
  have e := idx0_12 t
  funext x
  unfold iblk0
  rw [View.read_apply]
  show V c main_arg13 _ = V c main_arg13 x
  congr 1
  funext a
  apply Fin.ext
  match a with
  | ⟨0, _⟩ => show win0_12.index t (0 : Fin 1) * 256 + 1 * (x 0).val = (x 0).val; rw [e]; omega

/-- Window 13's block at any point is the whole array. -/
theorem blk0_13 (c : Dev nD) (t : Fin cfg0.N) : (iblk0 V c 13 t : Vec Ideal S256x1 .bf16) = V c main_v32 := by
  have e := idx0_13 t
  funext x
  unfold iblk0
  rw [View.read_apply]
  show V c main_v32 _ = V c main_v32 x
  congr 1
  funext a
  apply Fin.ext
  match a with
  | ⟨0, _⟩ => show win0_13.index t (0 : Fin 2) * 256 + 1 * (x 0).val = (x 0).val; rw [e.1]; omega
  | ⟨1, _⟩ => show win0_13.index t (1 : Fin 2) * 1 + 1 * (x 1).val = (x 1).val; rw [e.2]; omega

/-- Window 14's block at any point is the whole array. -/
theorem blk0_14 (c : Dev nD) (t : Fin cfg0.N) : (iblk0 V c 14 t : Vec Ideal S1 .f32) = V c main_arg15 := by
  have e := idx0_14 t
  funext x
  unfold iblk0
  rw [View.read_apply]
  show V c main_arg15 _ = V c main_arg15 x
  congr 1
  funext a
  apply Fin.ext
  match a with
  | ⟨0, _⟩ => show win0_14.index t (0 : Fin 1) * 1 + 1 * (x 0).val = (x 0).val; rw [e]; omega

/-- What point `t` writes back is block `t` of the network applied to every row of the input array. -/
theorem flushed0_eq (c : Dev nD) (t : Fin cfg0.N) :
    (dat0 V c).flushed 15 t
      = ((cfg0.win 15).blk t).view.read (Elt Ideal) (Cert.Mlp.rows 512 (params V c) (V c main_v0)) := by
  show (cfg0.win 15).cut (grid0.coords t) ((dat0 V c).after 15 t) = _
  rw [after0_15]
  funext j
  obtain ⟨p, u, rfl⟩ : ∃ (p : Fin 512) (u : Fin 1), j = ix2 p u := ⟨j 0, j 1, eq_ix2 j⟩
  rw [View.read_apply]
  refine (out0_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (iblk0 V c 13 t) (iblk0 V c 14 t) p u).trans ?_
  rw [blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t]
  show Cert.Mlp.rowMlp (params V c) _ = Cert.Mlp.rowMlp (params V c) _
  refine congrArg _ (funext fun k => ?_)
  obtain ⟨-, -, e0, -⟩ := idx0 t
  refine blk0_0_apply V c t (ix2 p k) _ ?_ rfl
  show win0_15.index t (0 : Fin 2) * 512 + 1 * p.val = 512 * t.val + p.val
  rw [e0]; omega

/-- An index of the output array is in point `t`'s block iff each coordinate is in the block's range on its axis. -/
theorem mem_blk0 (t : Fin cfg0.N) (i : S512x1.Idx) :
    i ∈ ((cfg0.win 15).blk t).view.set ↔ ∀ a : Fin 2, win0_15.index t a * S512x1.size a ≤ (i a).val
      ∧ (i a).val < win0_15.index t a * S512x1.size a + S512x1.size a := by
  show i ∈ ((View.whole main_v33).slice (win0_15.rect t)).set ↔ _
  rw [View.set_slice_whole, Rect.mem_set_unit]
  exact Iff.rfl

/-- Row `r` of the output array is in the block of point `r / 512`. -/
theorem cover0 (i : S512x1.Idx) :
    ∃ t : Fin cfg0.N, (cfg0.win 15).flush t = true ∧ i ∈ ((cfg0.win 15).blk t).view.set := by
  have hN : grid0.N = 1 := N_0
  have hi0 : (i 0).val < 512 := (i 0).isLt
  have hi1 : (i 1).val < 1 := (i 1).isLt
  have ht : (i 0).val / 512 < cfg0.N := by show (i 0).val / 512 < grid0.N; omega
  obtain ⟨-, -, e0, e1⟩ := idx0 ⟨(i 0).val / 512, ht⟩
  refine ⟨⟨(i 0).val / 512, ht⟩, flush0_15 _, ?_⟩
  rw [mem_blk0]
  intro a
  match a with
  | ⟨0, _⟩ =>
    show win0_15.index ⟨(i 0).val / 512, ht⟩ (0 : Fin 2) * 512 ≤ (i 0).val
      ∧ (i 0).val < win0_15.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_15.index ⟨(i 0).val / 512, ht⟩ (1 : Fin 2) * 1 ≤ (i 1).val
      ∧ (i 1).val < win0_15.index ⟨(i 0).val / 512, ht⟩ (1 : Fin 2) * 1 + 1
    rw [e1]; omega

/-- THE OUTPUT ARRAY after the region: the network applied to every row of the input array. -/
theorem final0 (c : Dev nD) :
    (dat0 V c).arrAt 15 cfg0.N = Cert.Mlp.rows 512 (params V c) (V c main_v0) :=
  (dat0 V c).arrAt_eq_of_cover 15 _ (fun t _ => flushed0_eq V c t) (cover0)

end Cert.KernelIdeal.RegionValue

end
-- ==== Proof.Region1.lean ====
/-
  The second launch of the perceptron kernel: 64 grid points, each on a block of 2048 rows.

  The input array has 131072 rows of 512 entries and the output array 131072 rows of one entry. At point `t` the kernel
  is handed rows `2048·t … 2048·t + 2047` of the input and the fourteen weight and bias arrays whole, and writes back rows
  `2048·t … 2048·t + 2047` of the output. The column it stores has at row `p` the network's value on row `p` of the block,
  that is on row `2048·t + p` of the input array: so what point `t` writes back is block `t` of ONE whole-array function,
  the network applied to every row of the input array. Row `r` of the output lies in the block of point `r / 2048`, so
  the blocks cover the array, and after the last write-back the output array is that function.
-/
import proofs.«134839_j7241314861638_1_alg».proof.Proof.KernelPayload
import proofs.«134839_j7241314861638_1_alg».proof.Proof.Gen.KernelIdeal.Frame
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 1: blocks of 2048 rows -/

/-- The two moving windows' block indices: the input's and the output's block at point `t` is block `t` along the rows. -/
theorem idx1 : ∀ t : Fin cfg1.N, win1_0.index t (0 : Fin 2) = t.val ∧ win1_0.index t (1 : Fin 2) = 0
    ∧ win1_15.index t (0 : Fin 2) = t.val ∧ win1_15.index t (1 : Fin 2) = 0 :=
  (by decide +kernel : ∀ t : Fin grid1.N, _)

/-- Window 1's block index is zero at every point: its block is its whole array. -/
theorem idx1_1 : ∀ t : Fin cfg1.N, win1_1.index t (0 : Fin 2) = 0 ∧ win1_1.index t (1 : Fin 2) = 0 :=
  (by decide +kernel : ∀ t : Fin grid1.N, _)
/-- Window 2's block index is zero at every point: its block is its whole array. -/
theorem idx1_2 : ∀ t : Fin cfg1.N, win1_2.index t (0 : Fin 1) = 0 :=
  (by decide +kernel : ∀ t : Fin grid1.N, _)
/-- Window 3's block index is zero at every point: its block is its whole array. -/
theorem idx1_3 : ∀ t : Fin cfg1.N, win1_3.index t (0 : Fin 2) = 0 ∧ win1_3.index t (1 : Fin 2) = 0 :=
  (by decide +kernel : ∀ t : Fin grid1.N, _)
/-- Window 4's block index is zero at every point: its block is its whole array. -/
theorem idx1_4 : ∀ t : Fin cfg1.N, win1_4.index t (0 : Fin 1) = 0 :=
  (by decide +kernel : ∀ t : Fin grid1.N, _)
/-- Window 5's block index is zero at every point: its block is its whole array. -/
theorem idx1_5 : ∀ t : Fin cfg1.N, win1_5.index t (0 : Fin 2) = 0 ∧ win1_5.index t (1 : Fin 2) = 0 :=
  (by decide +kernel : ∀ t : Fin grid1.N, _)
/-- Window 6's block index is zero at every point: its block is its whole array. -/
theorem idx1_6 : ∀ t : Fin cfg1.N, win1_6.index t (0 : Fin 1) = 0 :=
  (by decide +kernel : ∀ t : Fin grid1.N, _)
/-- Window 7's block index is zero at every point: its block is its whole array. -/
theorem idx1_7 : ∀ t : Fin cfg1.N, win1_7.index t (0 : Fin 2) = 0 ∧ win1_7.index t (1 : Fin 2) = 0 :=
  (by decide +kernel : ∀ t : Fin grid1.N, _)
/-- Window 8's block index is zero at every point: its block is its whole array. -/
theorem idx1_8 : ∀ t : Fin cfg1.N, win1_8.index t (0 : Fin 1) = 0 :=
  (by decide +kernel : ∀ t : Fin grid1.N, _)
/-- Window 9's block index is zero at every point: its block is its whole array. -/
theorem idx1_9 : ∀ t : Fin cfg1.N, win1_9.index t (0 : Fin 2) = 0 ∧ win1_9.index t (1 : Fin 2) = 0 :=
  (by decide +kernel : ∀ t : Fin grid1.N, _)
/-- Window 10's block index is zero at every point: its block is its whole array. -/
theorem idx1_10 : ∀ t : Fin cfg1.N, win1_10.index t (0 : Fin 1) = 0 :=
  (by decide +kernel : ∀ t : Fin grid1.N, _)
/-- Window 11's block index is zero at every point: its block is its whole array. -/
theorem idx1_11 : ∀ t : Fin cfg1.N, win1_11.index t (0 : Fin 2) = 0 ∧ win1_11.index t (1 : Fin 2) = 0 :=
  (by decide +kernel : ∀ t : Fin grid1.N, _)
/-- Window 12's block index is zero at every point: its block is its whole array. -/
theorem idx1_12 : ∀ t : Fin cfg1.N, win1_12.index t (0 : Fin 1) = 0 :=
  (by decide +kernel : ∀ t : Fin grid1.N, _)
/-- Window 13's block index is zero at every point: its block is its whole array. -/
theorem idx1_13 : ∀ t : Fin cfg1.N, win1_13.index t (0 : Fin 2) = 0 ∧ win1_13.index t (1 : Fin 2) = 0 :=
  (by decide +kernel : ∀ t : Fin grid1.N, _)
/-- Window 14's block index is zero at every point: its block is its whole array. -/
theorem idx1_14 : ∀ t : Fin cfg1.N, win1_14.index t (0 : Fin 1) = 0 :=
  (by decide +kernel : ∀ t : Fin grid1.N, _)

/-- What the body leaves in the output's buffer, at row `p`: the network's value on row `p` of the input block. -/
theorem out1_apply (x0 : Vec Ideal S2048x512 .f32) (x1 : Vec Ideal S512x256 .bf16) (x2 : Vec Ideal S256 .f32)
    (x3 : Vec Ideal S256x512 .bf16) (x4 : Vec Ideal S512 .f32) (x5 : Vec Ideal S512x512 .bf16) (x6 : Vec Ideal S512 .f32)
    (x7 : Vec Ideal S512x256 .bf16) (x8 : Vec Ideal S256 .f32) (x9 : Vec Ideal S256x128 .bf16) (x10 : Vec Ideal S128 .f32)
    (x11 : Vec Ideal S128x256 .bf16) (x12 : Vec Ideal S256 .f32) (x13 : Vec Ideal S256x1 .bf16) (x14 : Vec Ideal S1 .f32)
    (p : Fin 2048) (u : Fin 1) :
    out1_15 (F := Ideal) x0 x1 x2 x3 x4 x5 x6 x7 x8 x9 x10 x11 x12 x13 x14 (ix2 p u)
      = Cert.Mlp.rowMlp ⟨x1, x2, x3, x4, x5, x6, x7, x8, x9, x10, x11, x12, x13, x14⟩ (fun k => x0 (ix2 p k)) := by
  unfold out1_15
  rw [View.canon_unit_zero hz2]
  simp only [View.ld_unit_zero (S := S2048x512) hz2,
    View.ld_unit_zero (S := S512x256) hz2,
    View.ld_unit_zero (S := S256x512) hz2,
    View.ld_unit_zero (S := S512x512) hz2,
    View.ld_unit_zero (S := S256x128) hz2,
    View.ld_unit_zero (S := S128x256) hz2,
    View.ld_unit_zero (S := S256x1) hz2,
    View.ld_unit_zero (S := S2048x1) hz2,
    View.ld_unit_zero (S := S256) hz1,
    View.ld_unit_zero (S := S512) hz1,
    View.ld_unit_zero (S := S128) hz1,
    View.ld_unit_zero (S := S1) hz1]
  exact pay1_apply x0 x1 x2 x3 x4 x5 x6 x7 x8 x9 x10 x11 x12 x13 x14 p u

/-- The input window's block at point `t`, at row `x 0` and column `x 1`, is the array at row `2048·t + x 0`, column `x 1`. -/
theorem blk1_0_apply (c : Dev nD) (t : Fin cfg1.N) (x : S2048x512.Idx) (i : S131072x512.Idx)
    (h0 : (i 0).val = 2048 * t.val + (x 0).val) (h1 : (i 1).val = (x 1).val) :
    (iblk1 V c 0 t : Vec Ideal S2048x512 .f32) x = (V c main_v25 : S131072x512.Idx → EReal) i := by
  obtain ⟨e0, e1, -, -⟩ := idx1 t
  unfold iblk1
  rw [View.read_apply]
  show V c main_v25 _ = V c main_v25 i
  congr 1
  funext a
  apply Fin.ext
  match a with
  | ⟨0, _⟩ => show win1_0.index t (0 : Fin 2) * 2048 + 1 * (x 0).val = (i 0).val; rw [e0, h0]; omega
  | ⟨1, _⟩ => show win1_0.index t (1 : Fin 2) * 512 + 1 * (x 1).val = (i 1).val; rw [e1, h1]; omega

/-- Window 1's block at any point is the whole array. -/
theorem blk1_1 (c : Dev nD) (t : Fin cfg1.N) : (iblk1 V c 1 t : Vec Ideal S512x256 .bf16) = V c main_v26 := by
  have e := idx1_1 t
  funext x
  unfold iblk1
  rw [View.read_apply]
  show V c main_v26 _ = V c main_v26 x
  congr 1
  funext a
  apply Fin.ext
  match a with
  | ⟨0, _⟩ => show win1_1.index t (0 : Fin 2) * 512 + 1 * (x 0).val = (x 0).val; rw [e.1]; omega
  | ⟨1, _⟩ => show win1_1.index t (1 : Fin 2) * 256 + 1 * (x 1).val = (x 1).val; rw [e.2]; omega

/-- Window 2's block at any point is the whole array. -/
theorem blk1_2 (c : Dev nD) (t : Fin cfg1.N) : (iblk1 V c 2 t : Vec Ideal S256 .f32) = V c main_arg3 := by
  have e := idx1_2 t
  funext x
  unfold iblk1
  rw [View.read_apply]
  show V c main_arg3 _ = V c main_arg3 x
  congr 1
  funext a
  apply Fin.ext
  match a with
  | ⟨0, _⟩ => show win1_2.index t (0 : Fin 1) * 256 + 1 * (x 0).val = (x 0).val; rw [e]; omega

/-- Window 3's block at any point is the whole array. -/
theorem blk1_3 (c : Dev nD) (t : Fin cfg1.N) : (iblk1 V c 3 t : Vec Ideal S256x512 .bf16) = V c main_v27 := by
  have e := idx1_3 t
  funext x
  unfold iblk1
  rw [View.read_apply]
  show V c main_v27 _ = V c main_v27 x
  congr 1
  funext a
  apply Fin.ext
  match a with
  | ⟨0, _⟩ => show win1_3.index t (0 : Fin 2) * 256 + 1 * (x 0).val = (x 0).val; rw [e.1]; omega
  | ⟨1, _⟩ => show win1_3.index t (1 : Fin 2) * 512 + 1 * (x 1).val = (x 1).val; rw [e.2]; omega

/-- Window 4's block at any point is the whole array. -/
theorem blk1_4 (c : Dev nD) (t : Fin cfg1.N) : (iblk1 V c 4 t : Vec Ideal S512 .f32) = V c main_arg5 := by
  have e := idx1_4 t
  funext x
  unfold iblk1
  rw [View.read_apply]
  show V c main_arg5 _ = V c main_arg5 x
  congr 1
  funext a
  apply Fin.ext
  match a with
  | ⟨0, _⟩ => show win1_4.index t (0 : Fin 1) * 512 + 1 * (x 0).val = (x 0).val; rw [e]; omega

/-- Window 5's block at any point is the whole array. -/
theorem blk1_5 (c : Dev nD) (t : Fin cfg1.N) : (iblk1 V c 5 t : Vec Ideal S512x512 .bf16) = V c main_v28 := by
  have e := idx1_5 t
  funext x
  unfold iblk1
  rw [View.read_apply]
  show V c main_v28 _ = V c main_v28 x
  congr 1
  funext a
  apply Fin.ext
  match a with
  | ⟨0, _⟩ => show win1_5.index t (0 : Fin 2) * 512 + 1 * (x 0).val = (x 0).val; rw [e.1]; omega
  | ⟨1, _⟩ => show win1_5.index t (1 : Fin 2) * 512 + 1 * (x 1).val = (x 1).val; rw [e.2]; omega

/-- Window 6's block at any point is the whole array. -/
theorem blk1_6 (c : Dev nD) (t : Fin cfg1.N) : (iblk1 V c 6 t : Vec Ideal S512 .f32) = V c main_arg7 := by
  have e := idx1_6 t
  funext x
  unfold iblk1
  rw [View.read_apply]
  show V c main_arg7 _ = V c main_arg7 x
  congr 1
  funext a
  apply Fin.ext
  match a with
  | ⟨0, _⟩ => show win1_6.index t (0 : Fin 1) * 512 + 1 * (x 0).val = (x 0).val; rw [e]; omega

/-- Window 7's block at any point is the whole array. -/
theorem blk1_7 (c : Dev nD) (t : Fin cfg1.N) : (iblk1 V c 7 t : Vec Ideal S512x256 .bf16) = V c main_v29 := by
  have e := idx1_7 t
  funext x
  unfold iblk1
  rw [View.read_apply]
  show V c main_v29 _ = V c main_v29 x
  congr 1
  funext a
  apply Fin.ext
  match a with
  | ⟨0, _⟩ => show win1_7.index t (0 : Fin 2) * 512 + 1 * (x 0).val = (x 0).val; rw [e.1]; omega
  | ⟨1, _⟩ => show win1_7.index t (1 : Fin 2) * 256 + 1 * (x 1).val = (x 1).val; rw [e.2]; omega

/-- Window 8's block at any point is the whole array. -/
theorem blk1_8 (c : Dev nD) (t : Fin cfg1.N) : (iblk1 V c 8 t : Vec Ideal S256 .f32) = V c main_arg9 := by
  have e := idx1_8 t
  funext x
  unfold iblk1
  rw [View.read_apply]
  show V c main_arg9 _ = V c main_arg9 x
  congr 1
  funext a
  apply Fin.ext
  match a with
  | ⟨0, _⟩ => show win1_8.index t (0 : Fin 1) * 256 + 1 * (x 0).val = (x 0).val; rw [e]; omega

/-- Window 9's block at any point is the whole array. -/
theorem blk1_9 (c : Dev nD) (t : Fin cfg1.N) : (iblk1 V c 9 t : Vec Ideal S256x128 .bf16) = V c main_v30 := by
  have e := idx1_9 t
  funext x
  unfold iblk1
  rw [View.read_apply]
  show V c main_v30 _ = V c main_v30 x
  congr 1
  funext a
  apply Fin.ext
  match a with
  | ⟨0, _⟩ => show win1_9.index t (0 : Fin 2) * 256 + 1 * (x 0).val = (x 0).val; rw [e.1]; omega
  | ⟨1, _⟩ => show win1_9.index t (1 : Fin 2) * 128 + 1 * (x 1).val = (x 1).val; rw [e.2]; omega

/-- Window 10's block at any point is the whole array. -/
theorem blk1_10 (c : Dev nD) (t : Fin cfg1.N) : (iblk1 V c 10 t : Vec Ideal S128 .f32) = V c main_arg11 := by
  have e := idx1_10 t
  funext x
  unfold iblk1
  rw [View.read_apply]
  show V c main_arg11 _ = V c main_arg11 x
  congr 1
  funext a
  apply Fin.ext
  match a with
  | ⟨0, _⟩ => show win1_10.index t (0 : Fin 1) * 128 + 1 * (x 0).val = (x 0).val; rw [e]; omega

/-- Window 11's block at any point is the whole array. -/
theorem blk1_11 (c : Dev nD) (t : Fin cfg1.N) : (iblk1 V c 11 t : Vec Ideal S128x256 .bf16) = V c main_v31 := by
  have e := idx1_11 t
  funext x
  unfold iblk1
  rw [View.read_apply]
  show V c main_v31 _ = V c main_v31 x
  congr 1
  funext a
  apply Fin.ext
  match a with
  | ⟨0, _⟩ => show win1_11.index t (0 : Fin 2) * 128 + 1 * (x 0).val = (x 0).val; rw [e.1]; omega
  | ⟨1, _⟩ => show win1_11.index t (1 : Fin 2) * 256 + 1 * (x 1).val = (x 1).val; rw [e.2]; omega

/-- Window 12's block at any point is the whole array. -/
theorem blk1_12 (c : Dev nD) (t : Fin cfg1.N) : (iblk1 V c 12 t : Vec Ideal S256 .f32) = V c main_arg13 := by
  have e := idx1_12 t
  funext x
  unfold iblk1
  rw [View.read_apply]
  show V c main_arg13 _ = V c main_arg13 x
  congr 1
  funext a
  apply Fin.ext
  match a with
  | ⟨0, _⟩ => show win1_12.index t (0 : Fin 1) * 256 + 1 * (x 0).val = (x 0).val; rw [e]; omega

/-- Window 13's block at any point is the whole array. -/
theorem blk1_13 (c : Dev nD) (t : Fin cfg1.N) : (iblk1 V c 13 t : Vec Ideal S256x1 .bf16) = V c main_v32 := by
  have e := idx1_13 t
  funext x
  unfold iblk1
  rw [View.read_apply]
  show V c main_v32 _ = V c main_v32 x
  congr 1
  funext a
  apply Fin.ext
  match a with
  | ⟨0, _⟩ => show win1_13.index t (0 : Fin 2) * 256 + 1 * (x 0).val = (x 0).val; rw [e.1]; omega
  | ⟨1, _⟩ => show win1_13.index t (1 : Fin 2) * 1 + 1 * (x 1).val = (x 1).val; rw [e.2]; omega

/-- Window 14's block at any point is the whole array. -/
theorem blk1_14 (c : Dev nD) (t : Fin cfg1.N) : (iblk1 V c 14 t : Vec Ideal S1 .f32) = V c main_arg15 := by
  have e := idx1_14 t
  funext x
  unfold iblk1
  rw [View.read_apply]
  show V c main_arg15 _ = V c main_arg15 x
  congr 1
  funext a
  apply Fin.ext
  match a with
  | ⟨0, _⟩ => show win1_14.index t (0 : Fin 1) * 1 + 1 * (x 0).val = (x 0).val; rw [e]; omega

/-- What point `t` writes back is block `t` of the network applied to every row of the input array. -/
theorem flushed1_eq (c : Dev nD) (t : Fin cfg1.N) :
    (dat1 V c).flushed 15 t
      = ((cfg1.win 15).blk t).view.read (Elt Ideal) (Cert.Mlp.rows 131072 (params V c) (V c main_v25)) := by
  show (cfg1.win 15).cut (grid1.coords t) ((dat1 V c).after 15 t) = _
  rw [after1_15]
  funext j
  obtain ⟨p, u, rfl⟩ : ∃ (p : Fin 2048) (u : Fin 1), j = ix2 p u := ⟨j 0, j 1, eq_ix2 j⟩
  rw [View.read_apply]
  refine (out1_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t) (iblk1 V c 14 t) p u).trans ?_
  rw [blk1_1 V c t, blk1_2 V c t, blk1_3 V c t, blk1_4 V c t, blk1_5 V c t, blk1_6 V c t, blk1_7 V c t, blk1_8 V c t, blk1_9 V c t, blk1_10 V c t, blk1_11 V c t, blk1_12 V c t, blk1_13 V c t, blk1_14 V c t]
  show Cert.Mlp.rowMlp (params V c) _ = Cert.Mlp.rowMlp (params V c) _
  refine congrArg _ (funext fun k => ?_)
  obtain ⟨-, -, e0, -⟩ := idx1 t
  refine blk1_0_apply V c t (ix2 p k) _ ?_ rfl
  show win1_15.index t (0 : Fin 2) * 2048 + 1 * p.val = 2048 * t.val + p.val
  rw [e0]; omega

/-- An index of the output array is in point `t`'s block iff each coordinate is in the block's range on its axis. -/
theorem mem_blk1 (t : Fin cfg1.N) (i : S131072x1.Idx) :
    i ∈ ((cfg1.win 15).blk t).view.set ↔ ∀ a : Fin 2, win1_15.index t a * S2048x1.size a ≤ (i a).val
      ∧ (i a).val < win1_15.index t a * S2048x1.size a + S2048x1.size a := by
  show i ∈ ((View.whole main_v34).slice (win1_15.rect t)).set ↔ _
  rw [View.set_slice_whole, Rect.mem_set_unit]
  exact Iff.rfl

/-- Row `r` of the output array is in the block of point `r / 2048`. -/
theorem cover1 (i : S131072x1.Idx) :
    ∃ t : Fin cfg1.N, (cfg1.win 15).flush t = true ∧ i ∈ ((cfg1.win 15).blk t).view.set := by
  have hN : grid1.N = 64 := N_1
  have hi0 : (i 0).val < 131072 := (i 0).isLt
  have hi1 : (i 1).val < 1 := (i 1).isLt
  have ht : (i 0).val / 2048 < cfg1.N := by show (i 0).val / 2048 < grid1.N; omega
  obtain ⟨-, -, e0, e1⟩ := idx1 ⟨(i 0).val / 2048, ht⟩
  refine ⟨⟨(i 0).val / 2048, ht⟩, flush1_15 _, ?_⟩
  rw [mem_blk1]
  intro a
  match a with
  | ⟨0, _⟩ =>
    show win1_15.index ⟨(i 0).val / 2048, ht⟩ (0 : Fin 2) * 2048 ≤ (i 0).val
      ∧ (i 0).val < win1_15.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win1_15.index ⟨(i 0).val / 2048, ht⟩ (1 : Fin 2) * 1 ≤ (i 1).val
      ∧ (i 1).val < win1_15.index ⟨(i 0).val / 2048, ht⟩ (1 : Fin 2) * 1 + 1
    rw [e1]; omega

/-- THE OUTPUT ARRAY after the region: the network applied to every row of the input array. -/
theorem final1 (c : Dev nD) :
    (dat1 V c).arrAt 15 cfg1.N = Cert.Mlp.rows 131072 (params V c) (V c main_v25) :=
  (dat1 V c).arrAt_eq_of_cover 15 _ (fun t _ => flushed1_eq V c t) (cover1)

end Cert.KernelIdeal.RegionValue

end
-- ==== Proof.KernelResult.lean ====
/-
  The idealized kernel's result as one function of its arguments.

  Each launch leaves in its output column, at row r, the network's value on row r of its input matrix (the regions'
  value theorems); the weights and biases both launches read are the arguments themselves; the first launch's input is
  the observations regrouped as [512, 512], the second's the perturbed and normalised inputs. The last stretch regroups
  the second column as [512, 256] and subtracts the first column repeated over the 256 columns.
-/
import proofs.«134839_j7241314861638_1_alg».proof.Proof.KernelValue
import proofs.«134839_j7241314861638_1_alg».proof.Proof.Region0
import proofs.«134839_j7241314861638_1_alg».proof.Proof.Region1

set_option maxRecDepth 16384

noncomputable section

namespace Cert.KernelIdeal.RunValue

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-- The network's weights and biases: the arguments after the observations and the features, in order. -/
def kparams (c : Dev nD) : Cert.Mlp.Params :=
  ⟨m ((c.tc : Thread nD τ).loc main_arg2), m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8), m ((c.tc : Thread nD τ).loc main_arg9),
   m ((c.tc : Thread nD τ).loc main_arg10), m ((c.tc : Thread nD τ).loc main_arg11), m ((c.tc : Thread nD τ).loc main_arg12), m ((c.tc : Thread nD τ).loc main_arg13),
   m ((c.tc : Thread nD τ).loc main_arg14), m ((c.tc : Thread nD τ).loc main_arg15)⟩

/-- Two families of weights and biases that agree entry by entry are one family. -/
theorem params_congr {W0 W0' : Cert.Mlp.Mat 512 256} {b0 b0' : Cert.Mlp.Vect 256} {W1 W1' : Cert.Mlp.Mat 256 512} {b1 b1' : Cert.Mlp.Vect 512} {W2 W2' : Cert.Mlp.Mat 512 512} {b2 b2' : Cert.Mlp.Vect 512} {W3 W3' : Cert.Mlp.Mat 512 256} {b3 b3' : Cert.Mlp.Vect 256} {W4 W4' : Cert.Mlp.Mat 256 128} {b4 b4' : Cert.Mlp.Vect 128} {W5 W5' : Cert.Mlp.Mat 128 256} {b5 b5' : Cert.Mlp.Vect 256} {W6 W6' : Cert.Mlp.Mat 256 1} {b6 b6' : Cert.Mlp.Vect 1}
    (hW0 : W0 = W0') (hb0 : b0 = b0') (hW1 : W1 = W1') (hb1 : b1 = b1') (hW2 : W2 = W2') (hb2 : b2 = b2') (hW3 : W3 = W3') (hb3 : b3 = b3') (hW4 : W4 = W4') (hb4 : b4 = b4') (hW5 : W5 = W5') (hb5 : b5 = b5') (hW6 : W6 = W6') (hb6 : b6 = b6') :
    (⟨W0, b0, W1, b1, W2, b2, W3, b3, W4, b4, W5, b5, W6, b6⟩ : Cert.Mlp.Params) = ⟨W0', b0', W1', b1', W2', b2', W3', b3', W4', b4', W5', b5', W6', b6'⟩ := by
  subst hW0 hb0 hW1 hb1 hW2 hb2 hW3 hb3 hW4 hb4 hW5 hb5 hW6 hb6
  rfl

/-- The weights and biases the first launch finds are the arguments. -/
theorem params_V5 (c : Dev nD) : RegionValue.params (V5 m ρ) c = kparams m c :=
  params_congr (W5_main_v26 m ρ c) (W5_main_arg3 m ρ c) (W5_main_v27 m ρ c) (W5_main_arg5 m ρ c) (W5_main_v28 m ρ c) (W5_main_arg7 m ρ c) (W5_main_v29 m ρ c) (W5_main_arg9 m ρ c) (W5_main_v30 m ρ c) (W5_main_arg11 m ρ c) (W5_main_v31 m ρ c) (W5_main_arg13 m ρ c) (W5_main_v32 m ρ c) (W5_main_arg15 m ρ c)

/-- The weights and biases the second launch finds are the arguments too. -/
theorem params_V6 (c : Dev nD) : RegionValue.params (V6 m ρ) c = kparams m c :=
  params_congr ((W6_main_v26 m ρ c).trans (W5_main_v26 m ρ c))
    ((W6_main_arg3 m ρ c).trans (W5_main_arg3 m ρ c))
    ((W6_main_v27 m ρ c).trans (W5_main_v27 m ρ c))
    ((W6_main_arg5 m ρ c).trans (W5_main_arg5 m ρ c))
    ((W6_main_v28 m ρ c).trans (W5_main_v28 m ρ c))
    ((W6_main_arg7 m ρ c).trans (W5_main_arg7 m ρ c))
    ((W6_main_v29 m ρ c).trans (W5_main_v29 m ρ c))
    ((W6_main_arg9 m ρ c).trans (W5_main_arg9 m ρ c))
    ((W6_main_v30 m ρ c).trans (W5_main_v30 m ρ c))
    ((W6_main_arg11 m ρ c).trans (W5_main_arg11 m ρ c))
    ((W6_main_v31 m ρ c).trans (W5_main_v31 m ρ c))
    ((W6_main_arg13 m ρ c).trans (W5_main_arg13 m ρ c))
    ((W6_main_v32 m ρ c).trans (W5_main_v32 m ρ c))
    ((W6_main_arg15 m ρ c).trans (W5_main_arg15 m ρ c))

/-- The result as a function of the arguments. -/
def kresult (c : Dev nD) : FVec Ideal S512x256 .f32 :=
  subf
    (shapeCast S512x256
      (Cert.Mlp.rows 131072 (kparams m c) (glue (m ((c.tc : Thread nD τ).loc main_arg0)) (m ((c.tc : Thread nD τ).loc main_arg1))))
      shapeCasts_S131072x1_S512x256)
    (broadcastInDim S512x256 ![0, 1] bcast_S512x1_S512x256_0_1
      (Cert.Mlp.rows 512 (kparams m c) (shapeCast S512x512 (m ((c.tc : Thread nD τ).loc main_arg0)) shapeCasts_S512x128x4_S512x512)))

/-- The last boundary's contents at the result buffer. -/
theorem W8_value (c : Dev nD) : @Eq (FVec Ideal S512x256 .f32) (W8 m ρ c (Proc.devRef .tc main_v37)) (kresult m c) := by
  have h1 : @Eq (FVec Ideal S131072x1 .f32) (W7 m ρ c (Proc.devRef .tc main_v34))
      (Cert.Mlp.rows 131072 (kparams m c) (glue (m ((c.tc : Thread nD τ).loc main_arg0)) (m ((c.tc : Thread nD τ).loc main_arg1)))) := by
    refine (W7_v34 m ρ c).trans ((RegionValue.final1 (V6 m ρ) c).trans ?_)
    rw [params_V6]
    exact congrArg (Cert.Mlp.rows 131072 (kparams m c)) ((W6_v25 m ρ c).trans (W5_v25 m ρ c))
  have h0 : @Eq (FVec Ideal S512x1 .f32) (W7 m ρ c (Proc.devRef .tc main_v33))
      (Cert.Mlp.rows 512 (kparams m c) (shapeCast S512x512 (m ((c.tc : Thread nD τ).loc main_arg0)) shapeCasts_S512x128x4_S512x512)) := by
    refine (W7_v33 m ρ c).trans ((RegionValue.final0 (V5 m ρ) c).trans ?_)
    rw [params_V5]
    exact congrArg (Cert.Mlp.rows 512 (kparams m c)) (W5_v0 m ρ c)
  refine (W8_result m ρ c).trans ?_
  rw [h1, h0]
  rfl

/-- Every weakly fair execution of the idealized kernel's program terminates, nothing faulting, with the result buffer
    at that function of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v37) = kresult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v37 (by decide))).trans (W8_value m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.KernelIdeal.RunValue

end
-- ==== Proof.LibSsaFold.lean ====
/-
  A straight line of host operations in which every buffer is written once: the final contents satisfy every operation's
  own equation.
  The contents after a list of operations are a fold: each operation rewrites the buffer it writes from the contents
  before it. When the operations after a given one write neither its operands nor its result, and its operands are not
  its result, nothing that matters changes after it ran: the FINAL contents of its result buffer are its function of
  the FINAL contents of its operand buffers. So a long host program can be read one operation at a time, every
  intermediate named by its buffer, without ever composing the operations into one term.
-/
import Idealize.ShloMosaic.Lib.StableHlo.Run

namespace Cert.Lib.SsaFold

open Idealize.ShloMosaic Idealize.ShloMosaic.StableHlo

variable {τ : Topo} {sig : RefSig} {Val : EltTy → Type}

/-- The fold over two lists one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- At a buffer the operations after `op` do not write, the final contents are what `op` left. -/
theorem after_mid (pre post : List (HloOp τ sig Val)) (op : HloOp τ sig Val) (V : Valuation τ sig Val)
    (b : DevRef τ sig) (hb : ∀ o ∈ post, b ∉ o.writes) :
    after (pre ++ op :: post) V b = op.result (after pre V) b := by
  rw [after_append, after_cons, after_of_forall_not_mem post _ hb]

section Builders

variable {x a b c y : Ref sig .tc}

/-- `%y = f %x` in the middle of a line: finally `y` holds `f` of what `x` finally holds. -/
theorem after_unary (pre post : List (HloOp τ sig Val)) (f : x.ty.Contents Val → y.ty.Contents Val) (hx hy)
    (V : Valuation τ sig Val) (hxy : x ≠ y)
    (hpost : ∀ o ∈ post, Proc.devRef (τ := τ) .tc x ∉ o.writes ∧ Proc.devRef (τ := τ) .tc y ∉ o.writes) :
    after (pre ++ unary (τ := τ) x y f hx hy :: post) V (Proc.devRef .tc y)
      = f (after (pre ++ unary (τ := τ) x y f hx hy :: post) V (Proc.devRef .tc x)) := by
  rw [after_mid pre post _ V _ (fun o ho => (hpost o ho).2), after_mid pre post _ V _ (fun o ho => (hpost o ho).1),
    unary_result', HloOp.result_of_not_mem _ _ (by
      rw [unary_writes]; exact fun h => devRef_ne_of_ne hxy (Finset.mem_singleton.mp h))]

/-- `%y = f %a %b` in the middle of a line. -/
theorem after_binary (pre post : List (HloOp τ sig Val)) (f : a.ty.Contents Val → b.ty.Contents Val → y.ty.Contents Val)
    (ha hb hy) (V : Valuation τ sig Val) (hay : a ≠ y) (hby : b ≠ y)
    (hpost : ∀ o ∈ post, Proc.devRef (τ := τ) .tc a ∉ o.writes ∧ Proc.devRef (τ := τ) .tc b ∉ o.writes
      ∧ Proc.devRef (τ := τ) .tc y ∉ o.writes) :
    after (pre ++ binary (τ := τ) a b y f ha hb hy :: post) V (Proc.devRef .tc y)
      = f (after (pre ++ binary (τ := τ) a b y f ha hb hy :: post) V (Proc.devRef .tc a))
          (after (pre ++ binary (τ := τ) a b y f ha hb hy :: post) V (Proc.devRef .tc b)) := by
  rw [after_mid pre post _ V _ (fun o ho => (hpost o ho).2.2), after_mid pre post _ V _ (fun o ho => (hpost o ho).1),
    after_mid pre post _ V _ (fun o ho => (hpost o ho).2.1), binary_result',
    HloOp.result_of_not_mem _ _ (by
      rw [binary_writes]; exact fun h => devRef_ne_of_ne hay (Finset.mem_singleton.mp h)),
    HloOp.result_of_not_mem _ _ (by
      rw [binary_writes]; exact fun h => devRef_ne_of_ne hby (Finset.mem_singleton.mp h))]

/-- `%y = f %c %a %b` in the middle of a line. -/
theorem after_ternary (pre post : List (HloOp τ sig Val))
    (f : c.ty.Contents Val → a.ty.Contents Val → b.ty.Contents Val → y.ty.Contents Val)
    (hc ha hb hy) (V : Valuation τ sig Val) (hcy : c ≠ y) (hay : a ≠ y) (hby : b ≠ y)
    (hpost : ∀ o ∈ post, Proc.devRef (τ := τ) .tc c ∉ o.writes ∧ Proc.devRef (τ := τ) .tc a ∉ o.writes
      ∧ Proc.devRef (τ := τ) .tc b ∉ o.writes ∧ Proc.devRef (τ := τ) .tc y ∉ o.writes) :
    after (pre ++ ternary (τ := τ) c a b y f hc ha hb hy :: post) V (Proc.devRef .tc y)
      = f (after (pre ++ ternary (τ := τ) c a b y f hc ha hb hy :: post) V (Proc.devRef .tc c))
          (after (pre ++ ternary (τ := τ) c a b y f hc ha hb hy :: post) V (Proc.devRef .tc a))
          (after (pre ++ ternary (τ := τ) c a b y f hc ha hb hy :: post) V (Proc.devRef .tc b)) := by
  rw [after_mid pre post _ V _ (fun o ho => (hpost o ho).2.2.2), after_mid pre post _ V _ (fun o ho => (hpost o ho).1),
    after_mid pre post _ V _ (fun o ho => (hpost o ho).2.1), after_mid pre post _ V _ (fun o ho => (hpost o ho).2.2.1),
    ternary_result',
    HloOp.result_of_not_mem _ _ (by
      rw [ternary_writes]; exact fun h => devRef_ne_of_ne hcy (Finset.mem_singleton.mp h)),
    HloOp.result_of_not_mem _ _ (by
      rw [ternary_writes]; exact fun h => devRef_ne_of_ne hay (Finset.mem_singleton.mp h)),
    HloOp.result_of_not_mem _ _ (by
      rw [ternary_writes]; exact fun h => devRef_ne_of_ne hby (Finset.mem_singleton.mp h))]

/-- A constant in the middle of a line: finally `y` holds it. -/
theorem after_nullary (pre post : List (HloOp τ sig Val)) (v : y.ty.Contents Val) (hy) (V : Valuation τ sig Val)
    (hpost : ∀ o ∈ post, Proc.devRef (τ := τ) .tc y ∉ o.writes) :
    after (pre ++ nullary (τ := τ) y v hy :: post) V (Proc.devRef .tc y) = v := by
  rw [after_mid pre post _ V _ hpost, nullary_result']

end Builders

end Cert.Lib.SsaFold
-- ==== Proof.LibSsaFold2.lean ====
/-
  A straight line of host operations whose k-th operation writes the reference numbered n + k, read one operation at a
  time.

  When the operations of a line write, in order, the references numbered n, n + 1, n + 2, … (every buffer written
  once, in the order of the numbering), an operation at position k whose operands are numbered below n + k reads only
  buffers that nothing at or after position k writes, and nothing after it writes its result. So the FINAL contents of
  its result buffer are its function of the FINAL contents of its operand buffers — the equation of that one
  operation, stated over the contents after the whole line — and a reference numbered below n is never written.
  The side conditions are a position in the list and comparisons of numbers.
-/
import Idealize.ShloMosaic.Lib.StableHlo.Run
import proofs.«134839_j7241314861638_1_alg».proof.Proof.LibSsaFold

namespace Cert.Lib.SsaFold2

open Idealize.ShloMosaic Idealize.ShloMosaic.StableHlo Cert.Lib.SsaFold

variable {τ : Topo} {sig : RefSig} {Val : EltTy → Type}

/-- The operations write, in order, exactly the references numbered `n`, `n + 1`, …: one reference each; each touches
    TensorCore references only and determines what it writes. -/
inductive Numbered : Nat → List (HloOp τ sig Val) → Prop
  | nil (n : Nat) : Numbered n []
  | cons {n : Nat} {op : HloOp τ sig Val} {ops : List (HloOp τ sig Val)} (y : Ref sig .tc)
      (hw : op.writes = {Proc.devRef (τ := τ) .tc y}) (hy : y.idx.val = n) (hs : op.bufs ⊆ tcRefs τ sig)
      (hf : op.fresh = ∅) (h : Numbered (n + 1) ops) : Numbered n (op :: ops)

namespace Numbered

/-- Two numbered lines one after the other, the second starting where the first ends. -/
theorem append {n m : Nat} {l₁ l₂ : List (HloOp τ sig Val)} (h₁ : Numbered n l₁) (hm : n + l₁.length = m)
    (h₂ : Numbered m l₂) : Numbered n (l₁ ++ l₂) := by
  induction h₁ generalizing m with
  | nil n => simp only [List.length_nil, Nat.add_zero] at hm; subst hm; exact h₂
  | cons y hw hy hs hf _ ih =>
    rw [List.cons_append]
    exact .cons y hw hy hs hf (ih (by simp only [List.length_cons] at hm; omega) h₂)

/-- No operation of a line numbered from `n` writes a reference numbered below `n`. -/
theorem not_mem_writes {n : Nat} {ops : List (HloOp τ sig Val)} (h : Numbered n ops) :
    ∀ o ∈ ops, ∀ r : Ref sig .tc, r.idx.val < n → Proc.devRef (τ := τ) .tc r ∉ o.writes := by
  induction h with
  | nil n => intro o ho; cases ho
  | cons y hw hy _ _ _ ih =>
    intro o ho r hr
    rcases List.mem_cons.mp ho with rfl | ho
    · rw [hw, Finset.mem_singleton]
      intro e
      have : r = y := Proc.devRef_injective _ e
      subst this; omega
    · exact ih o ho r (by omega)

/-- The line from position `k` on is numbered from `n + k`. -/
theorem drop {n : Nat} {ops : List (HloOp τ sig Val)} (h : Numbered n ops) : ∀ k, Numbered (n + k) (ops.drop k) := by
  induction h with
  | nil n => intro k; rw [List.drop_nil]; exact .nil _
  | @cons n op ops y hw hy hs hf h ih =>
    intro k
    cases k with
    | zero => exact .cons y hw hy hs hf h
    | succ k =>
      rw [List.drop_succ_cons, show n + (k + 1) = n + 1 + k by omega]
      exact ih k

/-- Every operation of a numbered line touches TensorCore references only. -/
theorem bufs_sub {n : Nat} {ops : List (HloOp τ sig Val)} (h : Numbered n ops) :
    ops.Forall fun op => op.bufs ⊆ tcRefs τ sig := by
  rw [List.forall_iff_forall_mem]
  induction h with
  | nil n => intro o ho; cases ho
  | cons y _ _ hs _ _ ih =>
    intro o ho
    rcases List.mem_cons.mp ho with rfl | ho
    · exact hs
    · exact ih o ho

/-- Every operation of a numbered line determines what it writes. -/
theorem fresh {n : Nat} {ops : List (HloOp τ sig Val)} (h : Numbered n ops) : ∀ op ∈ ops, op.fresh = ∅ := by
  induction h with
  | nil n => intro o ho; cases ho
  | cons y _ _ _ hf _ ih =>
    intro o ho
    rcases List.mem_cons.mp ho with rfl | ho
    · exact hf
    · exact ih o ho

end Numbered

/-- A list with an element at position `k` is what precedes it, it, and what follows. -/
theorem eq_take_cons_drop {α : Type _} : ∀ (l : List α) (k : Nat) (a : α), l[k]? = some a → l = l.take k ++ a :: l.drop (k + 1)
  | [], _, _, h => by simp at h
  | b :: l, 0, a, h => by
    simp only [List.getElem?_cons_zero, Option.some.injEq] at h
    subst h; rfl
  | b :: l, k + 1, a, h => by
    have := eq_take_cons_drop l k a (by simpa using h)
    simp only [List.take_succ_cons, List.drop_succ_cons, List.cons_append]
    exact congrArg (List.cons b) this

variable {n : Nat} {ops : List (HloOp τ sig Val)}

/-- A reference numbered below `n + k` holds finally what it held before position `k`. -/
theorem after_eq_take (hN : Numbered n ops) (k : Nat) (r : Ref sig .tc) (hr : r.idx.val < n + k) (V : Valuation τ sig Val) :
    after ops V (Proc.devRef .tc r) = after (ops.take k) V (Proc.devRef .tc r) := by
  have h : after (ops.take k ++ ops.drop k) V (Proc.devRef .tc r) = after (ops.take k) V (Proc.devRef .tc r) := by
    rw [after_append, after_of_forall_not_mem _ _ fun o ho => (hN.drop k).not_mem_writes o ho r hr]
  rwa [List.take_append_drop] at h

/-- A reference numbered below `n` is never written: finally it holds what it held at the start. -/
theorem after_arg (hN : Numbered n ops) (r : Ref sig .tc) (hr : r.idx.val < n) (V : Valuation τ sig Val) :
    after ops V (Proc.devRef .tc r) = V (Proc.devRef .tc r) :=
  after_of_forall_not_mem ops V fun o ho => hN.not_mem_writes o ho r hr

/-- The result of the operation at position `k`, numbered `n + k`, is finally what that operation left. -/
theorem after_eq_result (hN : Numbered n ops) (k : Nat) (op : HloOp τ sig Val) (hk : ops[k]? = some op)
    (y : Ref sig .tc) (hy : y.idx.val = n + k) (V : Valuation τ sig Val) :
    after ops V (Proc.devRef .tc y) = op.result (after (ops.take k) V) (Proc.devRef .tc y) := by
  have h := after_mid (ops.take k) (ops.drop (k + 1)) op V (Proc.devRef .tc y)
    fun o ho => (hN.drop (k + 1)).not_mem_writes o ho y (by omega)
  rwa [← eq_take_cons_drop ops k op hk] at h

section Builders

variable {x a b c y : Ref sig .tc}

/-- A constant at position `k`. -/
theorem at_nullary (hN : Numbered n ops) (k : Nat) {v : y.ty.Contents Val} {hy}
    (hk : ops[k]? = some (nullary (τ := τ) y v hy)) (hy' : y.idx.val = n + k) (V : Valuation τ sig Val) :
    after ops V (Proc.devRef .tc y) = v := by
  rw [after_eq_result hN k _ hk y hy' V, nullary_result']

/-- `%y = f %x` at position `k`, `x` numbered below it. -/
theorem at_unary (hN : Numbered n ops) (k : Nat) {f : x.ty.Contents Val → y.ty.Contents Val} {hx hy}
    (hk : ops[k]? = some (unary (τ := τ) x y f hx hy)) (hx' : x.idx.val < n + k) (hy' : y.idx.val = n + k)
    (V : Valuation τ sig Val) :
    after ops V (Proc.devRef .tc y) = f (after ops V (Proc.devRef .tc x)) := by
  rw [after_eq_result hN k _ hk y hy' V, unary_result', after_eq_take hN k x hx' V]

/-- `%y = f %a %b` at position `k`, the operands numbered below it. -/
theorem at_binary (hN : Numbered n ops) (k : Nat) {f : a.ty.Contents Val → b.ty.Contents Val → y.ty.Contents Val} {ha hb hy}
    (hk : ops[k]? = some (binary (τ := τ) a b y f ha hb hy)) (ha' : a.idx.val < n + k) (hb' : b.idx.val < n + k)
    (hy' : y.idx.val = n + k) (V : Valuation τ sig Val) :
    after ops V (Proc.devRef .tc y) = f (after ops V (Proc.devRef .tc a)) (after ops V (Proc.devRef .tc b)) := by
  rw [after_eq_result hN k _ hk y hy' V, binary_result', after_eq_take hN k a ha' V, after_eq_take hN k b hb' V]

/-- `%y = f %c %a %b` at position `k`, the operands numbered below it. -/
theorem at_ternary (hN : Numbered n ops) (k : Nat)
    {f : c.ty.Contents Val → a.ty.Contents Val → b.ty.Contents Val → y.ty.Contents Val} {hc ha hb hy}
    (hk : ops[k]? = some (ternary (τ := τ) c a b y f hc ha hb hy)) (hc' : c.idx.val < n + k) (ha' : a.idx.val < n + k)
    (hb' : b.idx.val < n + k) (hy' : y.idx.val = n + k) (V : Valuation τ sig Val) :
    after ops V (Proc.devRef .tc y)
      = f (after ops V (Proc.devRef .tc c)) (after ops V (Proc.devRef .tc a)) (after ops V (Proc.devRef .tc b)) := by
  rw [after_eq_result hN k _ hk y hy' V, ternary_result', after_eq_take hN k c hc' V, after_eq_take hN k a ha' V,
    after_eq_take hN k b hb' V]

/-- `%y = reshape %x` at position `k`, `x` numbered below it. -/
theorem at_reshape (hN : Numbered n ops) (k : Nat) {he : x.ty.elt = y.ty.elt} {hn : x.ty.shape.ShapeCasts y.ty.shape} {hx hy}
    (hk : ops[k]? = some (reshape (τ := τ) (Val := Val) x y he hn hx hy)) (hx' : x.idx.val < n + k)
    (hy' : y.idx.val = n + k) (V : Valuation τ sig Val) :
    after ops V (Proc.devRef .tc y) = fun i => he ▸ shapeCast y.ty.shape (after ops V (Proc.devRef .tc x)) hn i := by
  rw [after_eq_result hN k _ hk y hy' V, reshape_result', after_eq_take hN k x hx' V]

end Builders

end Cert.Lib.SsaFold2
-- ==== Proof.RefRun.lean ====
/-
  The reference program as one straight line of host operations.

  The program computes, with host operations only, a seven-layer perceptron on the rows of two matrices and subtracts
  the two results. Its text calls small functions (the positive part of a matrix, the remainder of a division, a
  choice between two values); a call runs the function's body on the caller's buffers, so with the bodies written at
  their call sites the program is a single line of 148 operations: 94 up to the choice of the divisor, 54 after it.
  Every operation writes a buffer of its own, and the buffers are numbered in the order they are written, from 16 on
  (the sixteen arguments come first). Every weakly fair execution terminates, and each buffer then holds what the
  fold of the operations over the launch contents gives it.
-/
import proofs.«134839_j7241314861638_1_alg».proof.Proof.Gen.ReferenceIdeal
import Idealize.ShloMosaic.Lib.StableHlo.Run
import Idealize.ShloMosaic.Lib.Pipeline.Regions
import proofs.«134839_j7241314861638_1_alg».proof.Proof.LibSsaFold2

noncomputable section

namespace Cert.ReferenceIdeal.RefValue

open Cert.ReferenceIdeal Cert.ReferenceIdeal.Facts₀ Idealize.ShloMosaic Idealize.ShloMosaic.TcCoe Idealize.SL.Sem
open Idealize.ShloMosaic.StableHlo Cert.Lib.SsaFold2

variable {F : FTy → Type} [FloatOps F]

/-- The first 94 operations: the network on the 512 given rows (six layers of a product, a bias laid over the rows,
    a sum and a positive part, then the affine last layer), the perturbed inputs before their division, and the
    divisor of each column (42 for the even columns, 160 for the odd ones). -/
abbrev ops0 : List (HloOp τ sig (Elt F)) :=
  [ StableHlo.reshape main_arg0 main_v0 rfl shapeCasts_S512x128x4_S512x512,
    StableHlo.binary main_v0 main_arg2 main_v1 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg3 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S512x256 ![0, 1] bcast_S1x256_S512x256_0_1 : (⟨S1x256, .f32⟩ : BufTy).Contents (Elt F) → (⟨S512x256, .f32⟩ : BufTy).Contents (Elt F)),
    StableHlo.binary main_v1 main_v3 main_v4 (addf : (⟨S512x256, .f32⟩ : BufTy).Contents (Elt F) → (⟨S512x256, .f32⟩ : BufTy).Contents (Elt F) → (⟨S512x256, .f32⟩ : BufTy).Contents (Elt F)),
    StableHlo.TRef.nullary main_call0.cst (constant S_ .f32 0x00000000#32),
    StableHlo.TRef.unary main_call0.cst main_call0.v0 (broadcastInDim S512x256 ![] bcast_S_S512x256),
    StableHlo.TRef.binary (.of main_v4 : StableHlo.TRef sig ⟨S512x256, .f32⟩) main_call0.v0 main_call0.v1 maximumf,
    StableHlo.binary main_v5 main_arg4 main_v6 ((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)),
    StableHlo.unary main_arg5 main_v7 (broadcastInDim S1x512 ![1] bcast_S512_S1x512_1 : (⟨S512, .f32⟩ : BufTy).Contents (Elt F) → (⟨S1x512, .f32⟩ : BufTy).Contents (Elt F)),
    StableHlo.unary main_v7 main_v8 (broadcastInDim S512x512 ![0, 1] bcast_S1x512_S512x512_0_1 : (⟨S1x512, .f32⟩ : BufTy).Contents (Elt F) → (⟨S512x512, .f32⟩ : BufTy).Contents (Elt F)),
    StableHlo.binary main_v6 main_v8 main_v9 (addf : (⟨S512x512, .f32⟩ : BufTy).Contents (Elt F) → (⟨S512x512, .f32⟩ : BufTy).Contents (Elt F) → (⟨S512x512, .f32⟩ : BufTy).Contents (Elt F)),
    StableHlo.TRef.nullary main_call1.cst (constant S_ .f32 0x00000000#32),
    StableHlo.TRef.unary main_call1.cst main_call1.v0 (broadcastInDim S512x512 ![] bcast_S_S512x512),
    StableHlo.TRef.binary (.of main_v9 : StableHlo.TRef sig ⟨S512x512, .f32⟩) main_call1.v0 main_call1.v1 maximumf,
    StableHlo.binary main_v10 main_arg6 main_v11 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_arg7 main_v12 (broadcastInDim S1x512 ![1] bcast_S512_S1x512_1 : (⟨S512, .f32⟩ : BufTy).Contents (Elt F) → (⟨S1x512, .f32⟩ : BufTy).Contents (Elt F)),
    StableHlo.unary main_v12 main_v13 (broadcastInDim S512x512 ![0, 1] bcast_S1x512_S512x512_0_1 : (⟨S1x512, .f32⟩ : BufTy).Contents (Elt F) → (⟨S512x512, .f32⟩ : BufTy).Contents (Elt F)),
    StableHlo.binary main_v11 main_v13 main_v14 (addf : (⟨S512x512, .f32⟩ : BufTy).Contents (Elt F) → (⟨S512x512, .f32⟩ : BufTy).Contents (Elt F) → (⟨S512x512, .f32⟩ : BufTy).Contents (Elt F)),
    StableHlo.TRef.nullary main_call2.cst (constant S_ .f32 0x00000000#32),
    StableHlo.TRef.unary main_call2.cst main_call2.v0 (broadcastInDim S512x512 ![] bcast_S_S512x512),
    StableHlo.TRef.binary (.of main_v14 : StableHlo.TRef sig ⟨S512x512, .f32⟩) main_call2.v0 main_call2.v1 maximumf,
    StableHlo.binary main_v15 main_arg8 main_v16 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg9 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S512x256 ![0, 1] bcast_S1x256_S512x256_0_1 : (⟨S1x256, .f32⟩ : BufTy).Contents (Elt F) → (⟨S512x256, .f32⟩ : BufTy).Contents (Elt F)),
    StableHlo.binary main_v16 main_v18 main_v19 (addf : (⟨S512x256, .f32⟩ : BufTy).Contents (Elt F) → (⟨S512x256, .f32⟩ : BufTy).Contents (Elt F) → (⟨S512x256, .f32⟩ : BufTy).Contents (Elt F)),
    StableHlo.TRef.nullary main_call3.cst (constant S_ .f32 0x00000000#32),
    StableHlo.TRef.unary main_call3.cst main_call3.v0 (broadcastInDim S512x256 ![] bcast_S_S512x256),
    StableHlo.TRef.binary (.of main_v19 : StableHlo.TRef sig ⟨S512x256, .f32⟩) main_call3.v0 main_call3.v1 maximumf,
    StableHlo.binary main_v20 main_arg10 main_v21 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    StableHlo.unary main_arg11 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S512x128 ![0, 1] bcast_S1x128_S512x128_0_1 : (⟨S1x128, .f32⟩ : BufTy).Contents (Elt F) → (⟨S512x128, .f32⟩ : BufTy).Contents (Elt F)),
    StableHlo.binary main_v21 main_v23 main_v24 (addf : (⟨S512x128, .f32⟩ : BufTy).Contents (Elt F) → (⟨S512x128, .f32⟩ : BufTy).Contents (Elt F) → (⟨S512x128, .f32⟩ : BufTy).Contents (Elt F)),
    StableHlo.TRef.nullary main_call4.cst (constant S_ .f32 0x00000000#32),
    StableHlo.TRef.unary main_call4.cst main_call4.v0 (broadcastInDim S512x128 ![] bcast_S_S512x128),
    StableHlo.TRef.binary (.of main_v24 : StableHlo.TRef sig ⟨S512x128, .f32⟩) main_call4.v0 main_call4.v1 maximumf,
    StableHlo.binary main_v25 main_arg12 main_v26 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    StableHlo.unary main_arg13 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S512x256 ![0, 1] bcast_S1x256_S512x256_0_1 : (⟨S1x256, .f32⟩ : BufTy).Contents (Elt F) → (⟨S512x256, .f32⟩ : BufTy).Contents (Elt F)),
    StableHlo.binary main_v26 main_v28 main_v29 (addf : (⟨S512x256, .f32⟩ : BufTy).Contents (Elt F) → (⟨S512x256, .f32⟩ : BufTy).Contents (Elt F) → (⟨S512x256, .f32⟩ : BufTy).Contents (Elt F)),
    StableHlo.TRef.nullary main_call5.cst (constant S_ .f32 0x00000000#32),
    StableHlo.TRef.unary main_call5.cst main_call5.v0 (broadcastInDim S512x256 ![] bcast_S_S512x256),
    StableHlo.TRef.binary (.of main_v29 : StableHlo.TRef sig ⟨S512x256, .f32⟩) main_call5.v0 main_call5.v1 maximumf,
    StableHlo.binary main_v30 main_arg14 main_v31 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    StableHlo.unary main_arg15 main_v32 (broadcastInDim S1x1 ![1] bcast_S1_S1x1_1 : (⟨S1, .f32⟩ : BufTy).Contents (Elt F) → (⟨S1x1, .f32⟩ : BufTy).Contents (Elt F)),
    StableHlo.unary main_v32 main_v33 (broadcastInDim S512x1 ![0, 1] bcast_S1x1_S512x1_0_1 : (⟨S1x1, .f32⟩ : BufTy).Contents (Elt F) → (⟨S512x1, .f32⟩ : BufTy).Contents (Elt F)),
    StableHlo.binary main_v31 main_v33 main_v34 (addf : (⟨S512x1, .f32⟩ : BufTy).Contents (Elt F) → (⟨S512x1, .f32⟩ : BufTy).Contents (Elt F) → (⟨S512x1, .f32⟩ : BufTy).Contents (Elt F)),
    StableHlo.nullary main_v35 (iotaInDim S128x128 32 0),
    StableHlo.nullary main_v36 (iotaInDim S128x128 32 1),
    StableHlo.nullary main_c (constantI S_ 32 0#32),
    StableHlo.unary main_c main_v37 (broadcastInDim S128x128 ![] bcast_S_S128x128 : (⟨S_, .i32⟩ : BufTy).Contents (Elt F) → (⟨S128x128, .i32⟩ : BufTy).Contents (Elt F)),
    StableHlo.binary main_v35 main_v37 main_v38 (addi : (⟨S128x128, .i32⟩ : BufTy).Contents (Elt F) → (⟨S128x128, .i32⟩ : BufTy).Contents (Elt F) → (⟨S128x128, .i32⟩ : BufTy).Contents (Elt F)),
    StableHlo.binary main_v38 main_v36 main_v39 (cmpi .eq : (⟨S128x128, .i32⟩ : BufTy).Contents (Elt F) → (⟨S128x128, .i32⟩ : BufTy).Contents (Elt F) → (⟨S128x128, .i1⟩ : BufTy).Contents (Elt F)),
    StableHlo.unary main_v39 main_v40 (uitofp .f32 : (⟨S128x128, .i1⟩ : BufTy).Contents (Elt F) → (⟨S128x128, .f32⟩ : BufTy).Contents (Elt F)),
    StableHlo.unary main_v40 main_v41 (broadcastInDim S1x128x1x128x1 ![1, 3] bcast_S128x128_S1x128x1x128x1_1_3 : (⟨S128x128, .f32⟩ : BufTy).Contents (Elt F) → (⟨S1x128x1x128x1, .f32⟩ : BufTy).Contents (Elt F)),
    StableHlo.unary main_arg1 main_v42 (broadcastInDim S512x1x2x1x4 ![0, 2, 4] bcast_S512x2x4_S512x1x2x1x4_0_2_4 : (⟨S512x2x4, .f32⟩ : BufTy).Contents (Elt F) → (⟨S512x1x2x1x4, .f32⟩ : BufTy).Contents (Elt F)),
    StableHlo.unary main_v41 main_v43 (broadcastInDim S512x128x2x128x4 ![0, 1, 2, 3, 4] bcast_S1x128x1x128x1_S512x128x2x128x4_0_1_2_3_4 : (⟨S1x128x1x128x1, .f32⟩ : BufTy).Contents (Elt F) → (⟨S512x128x2x128x4, .f32⟩ : BufTy).Contents (Elt F)),
    StableHlo.unary main_v42 main_v44 (broadcastInDim S512x128x2x128x4 ![0, 1, 2, 3, 4] bcast_S512x1x2x1x4_S512x128x2x128x4_0_1_2_3_4 : (⟨S512x1x2x1x4, .f32⟩ : BufTy).Contents (Elt F) → (⟨S512x128x2x128x4, .f32⟩ : BufTy).Contents (Elt F)),
    StableHlo.binary main_v43 main_v44 main_v45 (mulf : (⟨S512x128x2x128x4, .f32⟩ : BufTy).Contents (Elt F) → (⟨S512x128x2x128x4, .f32⟩ : BufTy).Contents (Elt F) → (⟨S512x128x2x128x4, .f32⟩ : BufTy).Contents (Elt F)),
    StableHlo.unary main_arg0 main_v46 (broadcastInDim S512x1x1x128x4 ![0, 3, 4] bcast_S512x128x4_S512x1x1x128x4_0_3_4 : (⟨S512x128x4, .f32⟩ : BufTy).Contents (Elt F) → (⟨S512x1x1x128x4, .f32⟩ : BufTy).Contents (Elt F)),
    StableHlo.unary main_v46 main_v47 (broadcastInDim S512x128x2x128x4 ![0, 1, 2, 3, 4] bcast_S512x1x1x128x4_S512x128x2x128x4_0_1_2_3_4 : (⟨S512x1x1x128x4, .f32⟩ : BufTy).Contents (Elt F) → (⟨S512x128x2x128x4, .f32⟩ : BufTy).Contents (Elt F)),
    StableHlo.binary main_v47 main_v45 main_v48 (subf : (⟨S512x128x2x128x4, .f32⟩ : BufTy).Contents (Elt F) → (⟨S512x128x2x128x4, .f32⟩ : BufTy).Contents (Elt F) → (⟨S512x128x2x128x4, .f32⟩ : BufTy).Contents (Elt F)),
    StableHlo.reshape main_v48 main_v49 rfl shapeCasts_S512x128x2x128x4_S512x256x512,
    StableHlo.nullary main_v50 (iotaInDim S512 32 0),
    StableHlo.nullary main_c_0 (constantI S_ 32 2#32),
    StableHlo.TRef.unary (.of main_c_0 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S512 ![] bcast_S_S512),
    StableHlo.TRef.binary (.of main_v50 : StableHlo.TRef sig ⟨S512, .i32⟩) main_call6.v3 main_call6.v4 Host.remsi,
    StableHlo.TRef.nullary main_call6.c_1 (constantI S_ 32 0#32),
    StableHlo.TRef.unary main_call6.c_1 main_call6.v5 (broadcastInDim S512 ![] bcast_S_S512),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S512 ![] bcast_S_S512),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S512 ![] bcast_S_S512),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S512 ![] bcast_S_S512),
    StableHlo.TRef.binary main_call6.v4 main_call6.v13 main_call6.v14 addi,
    StableHlo.TRef.ternary main_call6.v12 main_call6.v14 main_call6.v4 main_call6.v15 select,
    StableHlo.nullary main_c_1 (constantI S_ 32 0#32),
    StableHlo.unary main_c_1 main_v52 (broadcastInDim S512 ![] bcast_S_S512 : (⟨S_, .i32⟩ : BufTy).Contents (Elt F) → (⟨S512, .i32⟩ : BufTy).Contents (Elt F)),
    StableHlo.binary main_v51 main_v52 main_v53 (cmpi .eq : (⟨S512, .i32⟩ : BufTy).Contents (Elt F) → (⟨S512, .i32⟩ : BufTy).Contents (Elt F) → (⟨S512, .i1⟩ : BufTy).Contents (Elt F)),
    StableHlo.nullary main_cst (constant S_ .f32 0x42280000#32),
    StableHlo.nullary main_cst_2 (constant S_ .f32 0x43200000#32),
    StableHlo.TRef.unary (.of main_cst : StableHlo.TRef sig ⟨S_, .f32⟩) main_call7.v0 (broadcastInDim S512 ![] bcast_S_S512),
    StableHlo.TRef.unary (.of main_cst_2 : StableHlo.TRef sig ⟨S_, .f32⟩) main_call7.v1 (broadcastInDim S512 ![] bcast_S_S512),
    StableHlo.TRef.ternary (.of main_v53 : StableHlo.TRef sig ⟨S512, .i1⟩) main_call7.v0 main_call7.v1 main_call7.v2 select ]

/-- The last 54 operations: the division, the network on the 131072 perturbed rows, and the difference. -/
abbrev ops1 : List (HloOp τ sig (Elt F)) :=
  [ StableHlo.unary main_v54 main_v55 (id : (⟨S512, .f32⟩ : BufTy).Contents (Elt F) → (⟨S512, .f32⟩ : BufTy).Contents (Elt F)),
    StableHlo.unary main_v55 main_v56 (broadcastInDim S1x1x512 ![2] bcast_S512_S1x1x512_2 : (⟨S512, .f32⟩ : BufTy).Contents (Elt F) → (⟨S1x1x512, .f32⟩ : BufTy).Contents (Elt F)),
    StableHlo.unary main_v56 main_v57 (broadcastInDim S512x256x512 ![0, 1, 2] bcast_S1x1x512_S512x256x512_0_1_2 : (⟨S1x1x512, .f32⟩ : BufTy).Contents (Elt F) → (⟨S512x256x512, .f32⟩ : BufTy).Contents (Elt F)),
    StableHlo.binary main_v49 main_v57 main_v58 (Host.divf : (⟨S512x256x512, .f32⟩ : BufTy).Contents (Elt F) → (⟨S512x256x512, .f32⟩ : BufTy).Contents (Elt F) → (⟨S512x256x512, .f32⟩ : BufTy).Contents (Elt F)),
    StableHlo.reshape main_v58 main_v59 rfl shapeCasts_S512x256x512_S131072x512,
    StableHlo.binary main_v59 main_arg2 main_v60 ((fun l r => Host.dotGeneral dot_S131072x512_S512x256_S131072x256_1_0_0_1_n_n none l r) : (⟨S131072x512, .f32⟩ : BufTy).Contents (Elt F) → (⟨S512x256, .f32⟩ : BufTy).Contents (Elt F) → (⟨S131072x256, .f32⟩ : BufTy).Contents (Elt F)),
    StableHlo.unary main_arg3 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S131072x256 ![0, 1] bcast_S1x256_S131072x256_0_1 : (⟨S1x256, .f32⟩ : BufTy).Contents (Elt F) → (⟨S131072x256, .f32⟩ : BufTy).Contents (Elt F)),
    StableHlo.binary main_v60 main_v62 main_v63 (addf : (⟨S131072x256, .f32⟩ : BufTy).Contents (Elt F) → (⟨S131072x256, .f32⟩ : BufTy).Contents (Elt F) → (⟨S131072x256, .f32⟩ : BufTy).Contents (Elt F)),
    StableHlo.TRef.nullary main_call8.cst (constant S_ .f32 0x00000000#32),
    StableHlo.TRef.unary main_call8.cst main_call8.v0 (broadcastInDim S131072x256 ![] bcast_S_S131072x256),
    StableHlo.TRef.binary (.of main_v63 : StableHlo.TRef sig ⟨S131072x256, .f32⟩) main_call8.v0 main_call8.v1 maximumf,
    StableHlo.binary main_v64 main_arg4 main_v65 ((fun l r => Host.dotGeneral dot_S131072x256_S256x512_S131072x512_1_0_0_1_n_n none l r) : (⟨S131072x256, .f32⟩ : BufTy).Contents (Elt F) → (⟨S256x512, .f32⟩ : BufTy).Contents (Elt F) → (⟨S131072x512, .f32⟩ : BufTy).Contents (Elt F)),
    StableHlo.unary main_arg5 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S131072x512 ![0, 1] bcast_S1x512_S131072x512_0_1 : (⟨S1x512, .f32⟩ : BufTy).Contents (Elt F) → (⟨S131072x512, .f32⟩ : BufTy).Contents (Elt F)),
    StableHlo.binary main_v65 main_v67 main_v68 (addf : (⟨S131072x512, .f32⟩ : BufTy).Contents (Elt F) → (⟨S131072x512, .f32⟩ : BufTy).Contents (Elt F) → (⟨S131072x512, .f32⟩ : BufTy).Contents (Elt F)),
    StableHlo.TRef.nullary main_call9.cst (constant S_ .f32 0x00000000#32),
    StableHlo.TRef.unary main_call9.cst main_call9.v0 (broadcastInDim S131072x512 ![] bcast_S_S131072x512),
    StableHlo.TRef.binary (.of main_v68 : StableHlo.TRef sig ⟨S131072x512, .f32⟩) main_call9.v0 main_call9.v1 maximumf,
    StableHlo.binary main_v69 main_arg6 main_v70 ((fun l r => Host.dotGeneral dot_S131072x512_S512x512_S131072x512_1_0_0_1_n_n none l r) : (⟨S131072x512, .f32⟩ : BufTy).Contents (Elt F) → (⟨S512x512, .f32⟩ : BufTy).Contents (Elt F) → (⟨S131072x512, .f32⟩ : BufTy).Contents (Elt F)),
    StableHlo.unary main_arg7 main_v71 (broadcastInDim S1x512 ![1] bcast_S512_S1x512_1 : (⟨S512, .f32⟩ : BufTy).Contents (Elt F) → (⟨S1x512, .f32⟩ : BufTy).Contents (Elt F)),
    StableHlo.unary main_v71 main_v72 (broadcastInDim S131072x512 ![0, 1] bcast_S1x512_S131072x512_0_1 : (⟨S1x512, .f32⟩ : BufTy).Contents (Elt F) → (⟨S131072x512, .f32⟩ : BufTy).Contents (Elt F)),
    StableHlo.binary main_v70 main_v72 main_v73 (addf : (⟨S131072x512, .f32⟩ : BufTy).Contents (Elt F) → (⟨S131072x512, .f32⟩ : BufTy).Contents (Elt F) → (⟨S131072x512, .f32⟩ : BufTy).Contents (Elt F)),
    StableHlo.TRef.nullary main_call10.cst (constant S_ .f32 0x00000000#32),
    StableHlo.TRef.unary main_call10.cst main_call10.v0 (broadcastInDim S131072x512 ![] bcast_S_S131072x512),
    StableHlo.TRef.binary (.of main_v73 : StableHlo.TRef sig ⟨S131072x512, .f32⟩) main_call10.v0 main_call10.v1 maximumf,
    StableHlo.binary main_v74 main_arg8 main_v75 ((fun l r => Host.dotGeneral dot_S131072x512_S512x256_S131072x256_1_0_0_1_n_n none l r) : (⟨S131072x512, .f32⟩ : BufTy).Contents (Elt F) → (⟨S512x256, .f32⟩ : BufTy).Contents (Elt F) → (⟨S131072x256, .f32⟩ : BufTy).Contents (Elt F)),
    StableHlo.unary main_arg9 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S131072x256 ![0, 1] bcast_S1x256_S131072x256_0_1 : (⟨S1x256, .f32⟩ : BufTy).Contents (Elt F) → (⟨S131072x256, .f32⟩ : BufTy).Contents (Elt F)),
    StableHlo.binary main_v75 main_v77 main_v78 (addf : (⟨S131072x256, .f32⟩ : BufTy).Contents (Elt F) → (⟨S131072x256, .f32⟩ : BufTy).Contents (Elt F) → (⟨S131072x256, .f32⟩ : BufTy).Contents (Elt F)),
    StableHlo.TRef.nullary main_call11.cst (constant S_ .f32 0x00000000#32),
    StableHlo.TRef.unary main_call11.cst main_call11.v0 (broadcastInDim S131072x256 ![] bcast_S_S131072x256),
    StableHlo.TRef.binary (.of main_v78 : StableHlo.TRef sig ⟨S131072x256, .f32⟩) main_call11.v0 main_call11.v1 maximumf,
    StableHlo.binary main_v79 main_arg10 main_v80 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    StableHlo.unary main_arg11 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S131072x128 ![0, 1] bcast_S1x128_S131072x128_0_1 : (⟨S1x128, .f32⟩ : BufTy).Contents (Elt F) → (⟨S131072x128, .f32⟩ : BufTy).Contents (Elt F)),
    StableHlo.binary main_v80 main_v82 main_v83 (addf : (⟨S131072x128, .f32⟩ : BufTy).Contents (Elt F) → (⟨S131072x128, .f32⟩ : BufTy).Contents (Elt F) → (⟨S131072x128, .f32⟩ : BufTy).Contents (Elt F)),
    StableHlo.TRef.nullary main_call12.cst (constant S_ .f32 0x00000000#32),
    StableHlo.TRef.unary main_call12.cst main_call12.v0 (broadcastInDim S131072x128 ![] bcast_S_S131072x128),
    StableHlo.TRef.binary (.of main_v83 : StableHlo.TRef sig ⟨S131072x128, .f32⟩) main_call12.v0 main_call12.v1 maximumf,
    StableHlo.binary main_v84 main_arg12 main_v85 ((fun l r => Host.dotGeneral dot_S131072x128_S128x256_S131072x256_1_0_0_1_n_n none l r) : (⟨S131072x128, .f32⟩ : BufTy).Contents (Elt F) → (⟨S128x256, .f32⟩ : BufTy).Contents (Elt F) → (⟨S131072x256, .f32⟩ : BufTy).Contents (Elt F)),
    StableHlo.unary main_arg13 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S131072x256 ![0, 1] bcast_S1x256_S131072x256_0_1 : (⟨S1x256, .f32⟩ : BufTy).Contents (Elt F) → (⟨S131072x256, .f32⟩ : BufTy).Contents (Elt F)),
    StableHlo.binary main_v85 main_v87 main_v88 (addf : (⟨S131072x256, .f32⟩ : BufTy).Contents (Elt F) → (⟨S131072x256, .f32⟩ : BufTy).Contents (Elt F) → (⟨S131072x256, .f32⟩ : BufTy).Contents (Elt F)),
    StableHlo.TRef.nullary main_call13.cst (constant S_ .f32 0x00000000#32),
    StableHlo.TRef.unary main_call13.cst main_call13.v0 (broadcastInDim S131072x256 ![] bcast_S_S131072x256),
    StableHlo.TRef.binary (.of main_v88 : StableHlo.TRef sig ⟨S131072x256, .f32⟩) main_call13.v0 main_call13.v1 maximumf,
    StableHlo.binary main_v89 main_arg14 main_v90 ((fun l r => Host.dotGeneral dot_S131072x256_S256x1_S131072x1_1_0_0_1_n_n none l r) : (⟨S131072x256, .f32⟩ : BufTy).Contents (Elt F) → (⟨S256x1, .f32⟩ : BufTy).Contents (Elt F) → (⟨S131072x1, .f32⟩ : BufTy).Contents (Elt F)),
    StableHlo.unary main_arg15 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S131072x1 ![0, 1] bcast_S1x1_S131072x1_0_1 : (⟨S1x1, .f32⟩ : BufTy).Contents (Elt F) → (⟨S131072x1, .f32⟩ : BufTy).Contents (Elt F)),
    StableHlo.binary main_v90 main_v92 main_v93 (addf : (⟨S131072x1, .f32⟩ : BufTy).Contents (Elt F) → (⟨S131072x1, .f32⟩ : BufTy).Contents (Elt F) → (⟨S131072x1, .f32⟩ : BufTy).Contents (Elt F)),
    StableHlo.reshape main_v93 main_v94 rfl shapeCasts_S131072x1_S512x256,
    StableHlo.unary main_v34 main_v95 (broadcastInDim S512x256 ![0, 1] bcast_S512x1_S512x256_0_1 : (⟨S512x1, .f32⟩ : BufTy).Contents (Elt F) → (⟨S512x256, .f32⟩ : BufTy).Contents (Elt F)),
    StableHlo.binary main_v94 main_v95 main_v96 (subf : (⟨S512x256, .f32⟩ : BufTy).Contents (Elt F) → (⟨S512x256, .f32⟩ : BufTy).Contents (Elt F) → (⟨S512x256, .f32⟩ : BufTy).Contents (Elt F)) ]

/-- The whole line. -/
abbrev ops : List (HloOp τ sig (Elt F)) := ops0 ++ ops1

/-- The first part of the program is the first 94 operations: the called functions' bodies stand at their calls. -/
theorem main_part0_eq (d : Dev nD) : main_part0 (F := F) d = seq ops0 := by
  chain_rfl

/-- The second part of the program is the last 54 operations. -/
theorem main_part1_eq (d : Dev nD) : main_part1 (F := F) d = seq ops1 := by
  chain_rfl

/-- The program is the whole line. -/
theorem main_eq (d : Dev nD) : main (F := F) d = seq ops := by
  rw [show (ops : List (HloOp τ sig (Elt F))) = ops0 ++ ops1 from rfl, seq_append, ← main_part0_eq d, ← main_part1_eq d]
  rfl

/-- The first 94 operations write the buffers numbered 16, 17, …, 109, in this order. -/
theorem numbered0 : Numbered 16 (ops0 : List (HloOp τ sig (Elt F))) :=
  .cons main_v0 rfl rfl (reshape_bufs_sub ..) rfl <|
  .cons main_v1 rfl rfl (binary_bufs_sub ..) rfl <|
  .cons main_v2 rfl rfl (unary_bufs_sub ..) rfl <|
  .cons main_v3 rfl rfl (unary_bufs_sub ..) rfl <|
  .cons main_v4 rfl rfl (binary_bufs_sub ..) rfl <|
  .cons main_call0.cst.ref rfl rfl (nullary_bufs_sub ..) rfl <|
  .cons main_call0.v0.ref rfl rfl (unary_bufs_sub ..) rfl <|
  .cons main_call0.v1.ref rfl rfl (binary_bufs_sub ..) rfl <|
  .cons main_v6 rfl rfl (binary_bufs_sub ..) rfl <|
  .cons main_v7 rfl rfl (unary_bufs_sub ..) rfl <|
  .cons main_v8 rfl rfl (unary_bufs_sub ..) rfl <|
  .cons main_v9 rfl rfl (binary_bufs_sub ..) rfl <|
  .cons main_call1.cst.ref rfl rfl (nullary_bufs_sub ..) rfl <|
  .cons main_call1.v0.ref rfl rfl (unary_bufs_sub ..) rfl <|
  .cons main_call1.v1.ref rfl rfl (binary_bufs_sub ..) rfl <|
  .cons main_v11 rfl rfl (binary_bufs_sub ..) rfl <|
  .cons main_v12 rfl rfl (unary_bufs_sub ..) rfl <|
  .cons main_v13 rfl rfl (unary_bufs_sub ..) rfl <|
  .cons main_v14 rfl rfl (binary_bufs_sub ..) rfl <|
  .cons main_call2.cst.ref rfl rfl (nullary_bufs_sub ..) rfl <|
  .cons main_call2.v0.ref rfl rfl (unary_bufs_sub ..) rfl <|
  .cons main_call2.v1.ref rfl rfl (binary_bufs_sub ..) rfl <|
  .cons main_v16 rfl rfl (binary_bufs_sub ..) rfl <|
  .cons main_v17 rfl rfl (unary_bufs_sub ..) rfl <|
  .cons main_v18 rfl rfl (unary_bufs_sub ..) rfl <|
  .cons main_v19 rfl rfl (binary_bufs_sub ..) rfl <|
  .cons main_call3.cst.ref rfl rfl (nullary_bufs_sub ..) rfl <|
  .cons main_call3.v0.ref rfl rfl (unary_bufs_sub ..) rfl <|
  .cons main_call3.v1.ref rfl rfl (binary_bufs_sub ..) rfl <|
  .cons main_v21 rfl rfl (binary_bufs_sub ..) rfl <|
  .cons main_v22 rfl rfl (unary_bufs_sub ..) rfl <|
  .cons main_v23 rfl rfl (unary_bufs_sub ..) rfl <|
  .cons main_v24 rfl rfl (binary_bufs_sub ..) rfl <|
  .cons main_call4.cst.ref rfl rfl (nullary_bufs_sub ..) rfl <|
  .cons main_call4.v0.ref rfl rfl (unary_bufs_sub ..) rfl <|
  .cons main_call4.v1.ref rfl rfl (binary_bufs_sub ..) rfl <|
  .cons main_v26 rfl rfl (binary_bufs_sub ..) rfl <|
  .cons main_v27 rfl rfl (unary_bufs_sub ..) rfl <|
  .cons main_v28 rfl rfl (unary_bufs_sub ..) rfl <|
  .cons main_v29 rfl rfl (binary_bufs_sub ..) rfl <|
  .cons main_call5.cst.ref rfl rfl (nullary_bufs_sub ..) rfl <|
  .cons main_call5.v0.ref rfl rfl (unary_bufs_sub ..) rfl <|
  .cons main_call5.v1.ref rfl rfl (binary_bufs_sub ..) rfl <|
  .cons main_v31 rfl rfl (binary_bufs_sub ..) rfl <|
  .cons main_v32 rfl rfl (unary_bufs_sub ..) rfl <|
  .cons main_v33 rfl rfl (unary_bufs_sub ..) rfl <|
  .cons main_v34 rfl rfl (binary_bufs_sub ..) rfl <|
  .cons main_v35 rfl rfl (nullary_bufs_sub ..) rfl <|
  .cons main_v36 rfl rfl (nullary_bufs_sub ..) rfl <|
  .cons main_c rfl rfl (nullary_bufs_sub ..) rfl <|
  .cons main_v37 rfl rfl (unary_bufs_sub ..) rfl <|
  .cons main_v38 rfl rfl (binary_bufs_sub ..) rfl <|
  .cons main_v39 rfl rfl (binary_bufs_sub ..) rfl <|
  .cons main_v40 rfl rfl (unary_bufs_sub ..) rfl <|
  .cons main_v41 rfl rfl (unary_bufs_sub ..) rfl <|
  .cons main_v42 rfl rfl (unary_bufs_sub ..) rfl <|
  .cons main_v43 rfl rfl (unary_bufs_sub ..) rfl <|
  .cons main_v44 rfl rfl (unary_bufs_sub ..) rfl <|
  .cons main_v45 rfl rfl (binary_bufs_sub ..) rfl <|
  .cons main_v46 rfl rfl (unary_bufs_sub ..) rfl <|
  .cons main_v47 rfl rfl (unary_bufs_sub ..) rfl <|
  .cons main_v48 rfl rfl (binary_bufs_sub ..) rfl <|
  .cons main_v49 rfl rfl (reshape_bufs_sub ..) rfl <|
  .cons main_v50 rfl rfl (nullary_bufs_sub ..) rfl <|
  .cons main_c_0 rfl rfl (nullary_bufs_sub ..) rfl <|
  .cons main_call6.v0.ref rfl rfl (unary_bufs_sub ..) rfl <|
  .cons main_call6.c.ref rfl rfl (nullary_bufs_sub ..) rfl <|
  .cons main_call6.v1.ref rfl rfl (binary_bufs_sub ..) rfl <|
  .cons main_call6.c_0.ref rfl rfl (nullary_bufs_sub ..) rfl <|
  .cons main_call6.call0.v0.ref rfl rfl (ternary_bufs_sub ..) rfl <|
  .cons main_call6.v3.ref rfl rfl (unary_bufs_sub ..) rfl <|
  .cons main_call6.v4.ref rfl rfl (binary_bufs_sub ..) rfl <|
  .cons main_call6.c_1.ref rfl rfl (nullary_bufs_sub ..) rfl <|
  .cons main_call6.v5.ref rfl rfl (unary_bufs_sub ..) rfl <|
  .cons main_call6.v6.ref rfl rfl (binary_bufs_sub ..) rfl <|
  .cons main_call6.c_2.ref rfl rfl (nullary_bufs_sub ..) rfl <|
  .cons main_call6.v7.ref rfl rfl (unary_bufs_sub ..) rfl <|
  .cons main_call6.v8.ref rfl rfl (binary_bufs_sub ..) rfl <|
  .cons main_call6.c_3.ref rfl rfl (nullary_bufs_sub ..) rfl <|
  .cons main_call6.v9.ref rfl rfl (binary_bufs_sub ..) rfl <|
  .cons main_call6.v10.ref rfl rfl (unary_bufs_sub ..) rfl <|
  .cons main_call6.v11.ref rfl rfl (binary_bufs_sub ..) rfl <|
  .cons main_call6.v12.ref rfl rfl (binary_bufs_sub ..) rfl <|
  .cons main_call6.v13.ref rfl rfl (unary_bufs_sub ..) rfl <|
  .cons main_call6.v14.ref rfl rfl (binary_bufs_sub ..) rfl <|
  .cons main_call6.v15.ref rfl rfl (ternary_bufs_sub ..) rfl <|
  .cons main_c_1 rfl rfl (nullary_bufs_sub ..) rfl <|
  .cons main_v52 rfl rfl (unary_bufs_sub ..) rfl <|
  .cons main_v53 rfl rfl (binary_bufs_sub ..) rfl <|
  .cons main_cst rfl rfl (nullary_bufs_sub ..) rfl <|
  .cons main_cst_2 rfl rfl (nullary_bufs_sub ..) rfl <|
  .cons main_call7.v0.ref rfl rfl (unary_bufs_sub ..) rfl <|
  .cons main_call7.v1.ref rfl rfl (unary_bufs_sub ..) rfl <|
  .cons main_call7.v2.ref rfl rfl (ternary_bufs_sub ..) rfl <|
  .nil _

/-- The last 54 operations write the buffers numbered 110, …, 163, in this order. -/
theorem numbered1 : Numbered 110 (ops1 : List (HloOp τ sig (Elt F))) :=
  .cons main_v55 rfl rfl (unary_bufs_sub ..) rfl <|
  .cons main_v56 rfl rfl (unary_bufs_sub ..) rfl <|
  .cons main_v57 rfl rfl (unary_bufs_sub ..) rfl <|
  .cons main_v58 rfl rfl (binary_bufs_sub ..) rfl <|
  .cons main_v59 rfl rfl (reshape_bufs_sub ..) rfl <|
  .cons main_v60 rfl rfl (binary_bufs_sub ..) rfl <|
  .cons main_v61 rfl rfl (unary_bufs_sub ..) rfl <|
  .cons main_v62 rfl rfl (unary_bufs_sub ..) rfl <|
  .cons main_v63 rfl rfl (binary_bufs_sub ..) rfl <|
  .cons main_call8.cst.ref rfl rfl (nullary_bufs_sub ..) rfl <|
  .cons main_call8.v0.ref rfl rfl (unary_bufs_sub ..) rfl <|
  .cons main_call8.v1.ref rfl rfl (binary_bufs_sub ..) rfl <|
  .cons main_v65 rfl rfl (binary_bufs_sub ..) rfl <|
  .cons main_v66 rfl rfl (unary_bufs_sub ..) rfl <|
  .cons main_v67 rfl rfl (unary_bufs_sub ..) rfl <|
  .cons main_v68 rfl rfl (binary_bufs_sub ..) rfl <|
  .cons main_call9.cst.ref rfl rfl (nullary_bufs_sub ..) rfl <|
  .cons main_call9.v0.ref rfl rfl (unary_bufs_sub ..) rfl <|
  .cons main_call9.v1.ref rfl rfl (binary_bufs_sub ..) rfl <|
  .cons main_v70 rfl rfl (binary_bufs_sub ..) rfl <|
  .cons main_v71 rfl rfl (unary_bufs_sub ..) rfl <|
  .cons main_v72 rfl rfl (unary_bufs_sub ..) rfl <|
  .cons main_v73 rfl rfl (binary_bufs_sub ..) rfl <|
  .cons main_call10.cst.ref rfl rfl (nullary_bufs_sub ..) rfl <|
  .cons main_call10.v0.ref rfl rfl (unary_bufs_sub ..) rfl <|
  .cons main_call10.v1.ref rfl rfl (binary_bufs_sub ..) rfl <|
  .cons main_v75 rfl rfl (binary_bufs_sub ..) rfl <|
  .cons main_v76 rfl rfl (unary_bufs_sub ..) rfl <|
  .cons main_v77 rfl rfl (unary_bufs_sub ..) rfl <|
  .cons main_v78 rfl rfl (binary_bufs_sub ..) rfl <|
  .cons main_call11.cst.ref rfl rfl (nullary_bufs_sub ..) rfl <|
  .cons main_call11.v0.ref rfl rfl (unary_bufs_sub ..) rfl <|
  .cons main_call11.v1.ref rfl rfl (binary_bufs_sub ..) rfl <|
  .cons main_v80 rfl rfl (binary_bufs_sub ..) rfl <|
  .cons main_v81 rfl rfl (unary_bufs_sub ..) rfl <|
  .cons main_v82 rfl rfl (unary_bufs_sub ..) rfl <|
  .cons main_v83 rfl rfl (binary_bufs_sub ..) rfl <|
  .cons main_call12.cst.ref rfl rfl (nullary_bufs_sub ..) rfl <|
  .cons main_call12.v0.ref rfl rfl (unary_bufs_sub ..) rfl <|
  .cons main_call12.v1.ref rfl rfl (binary_bufs_sub ..) rfl <|
  .cons main_v85 rfl rfl (binary_bufs_sub ..) rfl <|
  .cons main_v86 rfl rfl (unary_bufs_sub ..) rfl <|
  .cons main_v87 rfl rfl (unary_bufs_sub ..) rfl <|
  .cons main_v88 rfl rfl (binary_bufs_sub ..) rfl <|
  .cons main_call13.cst.ref rfl rfl (nullary_bufs_sub ..) rfl <|
  .cons main_call13.v0.ref rfl rfl (unary_bufs_sub ..) rfl <|
  .cons main_call13.v1.ref rfl rfl (binary_bufs_sub ..) rfl <|
  .cons main_v90 rfl rfl (binary_bufs_sub ..) rfl <|
  .cons main_v91 rfl rfl (unary_bufs_sub ..) rfl <|
  .cons main_v92 rfl rfl (unary_bufs_sub ..) rfl <|
  .cons main_v93 rfl rfl (binary_bufs_sub ..) rfl <|
  .cons main_v94 rfl rfl (reshape_bufs_sub ..) rfl <|
  .cons main_v95 rfl rfl (unary_bufs_sub ..) rfl <|
  .cons main_v96 rfl rfl (binary_bufs_sub ..) rfl <|
  .nil _

/-- The whole line writes the buffers numbered 16, …, 163, each once, in this order. -/
theorem numbered : Numbered 16 (ops : List (HloOp τ sig (Elt F))) :=
  numbered0.append rfl numbered1

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the program terminates, and every buffer ends
    at the fold of the 148 operations over what the launch gave the device. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => numbered.bufs_sub) m ρ
    (fun _ => numbered.fresh)

end Cert.ReferenceIdeal.RefValue

end
-- ==== Proof.RefMlp.lean ====
/-
  The seven-layer perceptron as host operations write it, on all the rows of a matrix at once.

  On an `[n, K]` matrix `h` one layer is: the product `h · W` (a general dot product contracting the columns of `h`
  with the rows of `W`), plus the bias laid as a `[1, M]` row and repeated down the `n` rows, then the maximum with
  a zero constant spread over the whole `[n, M]` shape; the last layer stops before the maximum. Read at an entry
  `(p, q)`, each layer is the row layer of the specification applied to row `p` of its operand, so the composition
  of the seven is, at `(p, 0)`, the network's value on row `p` of the input: the `[n, 1]` column `rows n P X`.
  The statement is for every number of rows `n`; the side conditions of the operations (which depend on `n` only
  through the shapes) are gathered in one record.
-/
import proofs.«134839_j7241314861638_1_alg».proof.Proof.Spec

noncomputable section

namespace Cert.ReferenceIdeal.RefValue

open Idealize.ShloMosaic Idealize.ShloMosaic.ValueIdx Cert.Lib.MatmulPlain Cert.Mlp

section Layer

variable {n K M : ℕ} (wf : DotDims.WF ⟨2, ![n, K]⟩ ⟨2, ![K, M]⟩ ⟨2, ![n, M]⟩ [1] [0] [0] [1] [] [])
  (h1 : (⟨1, ![M]⟩ : Shape).BroadcastsInDim ⟨2, ![1, M]⟩ ![1])
  (h2 : (⟨2, ![1, M]⟩ : Shape).BroadcastsInDim ⟨2, ![n, M]⟩ ![0, 1])

/-- The affine last layer on all rows: the product plus the bias repeated down the rows. -/
def hostLast (W : FVec Ideal ⟨2, ![K, M]⟩ .f32) (b : FVec Ideal ⟨1, ![M]⟩ .f32) (h : FVec Ideal ⟨2, ![n, K]⟩ .f32) :
    FVec Ideal ⟨2, ![n, M]⟩ .f32 :=
  addf (Host.dotGeneral (plainDims n K M wf) none h W)
    (broadcastInDim ⟨2, ![n, M]⟩ ![0, 1] h2 (broadcastInDim ⟨2, ![1, M]⟩ ![1] h1 b))

/-- One layer on all rows: the affine part, then the maximum with a zero spread over the shape. -/
def hostLayer (h0 : (⟨0, ![]⟩ : Shape).BroadcastsInDim ⟨2, ![n, M]⟩ ![])
    (W : FVec Ideal ⟨2, ![K, M]⟩ .f32) (b : FVec Ideal ⟨1, ![M]⟩ .f32) (h : FVec Ideal ⟨2, ![n, K]⟩ .f32) :
    FVec Ideal ⟨2, ![n, M]⟩ .f32 :=
  maximumf (addf (Host.dotGeneral (plainDims n K M wf) none h W)
      (broadcastInDim ⟨2, ![n, M]⟩ ![0, 1] h2 (broadcastInDim ⟨2, ![1, M]⟩ ![1] h1 b)))
    (broadcastInDim ⟨2, ![n, M]⟩ ![] h0 (constant (F := Ideal) ⟨0, ![]⟩ .f32 0x00000000#32))

/-- The last layer at `(p, q)` is the affine map on row `p`. -/
theorem hostLast_apply (W : FVec Ideal ⟨2, ![K, M]⟩ .f32) (b : FVec Ideal ⟨1, ![M]⟩ .f32) (h : FVec Ideal ⟨2, ![n, K]⟩ .f32)
    (p : Fin n) (q : Fin M) :
    hostLast wf h1 h2 W b h (ix2 p q) = affine W b (fun k => h (ix2 p k)) q :=
  hAffine_apply wf h W b h1 h2 p q

/-- A layer at `(p, q)` is the row layer on row `p`. -/
theorem hostLayer_apply (h0 : (⟨0, ![]⟩ : Shape).BroadcastsInDim ⟨2, ![n, M]⟩ ![])
    (W : FVec Ideal ⟨2, ![K, M]⟩ .f32) (b : FVec Ideal ⟨1, ![M]⟩ .f32) (h : FVec Ideal ⟨2, ![n, K]⟩ .f32)
    (p : Fin n) (q : Fin M) :
    hostLayer wf h1 h2 h0 W b h (ix2 p q) = dense W b (fun k => h (ix2 p k)) q :=
  hDense_apply wf h W b h1 h2 h0 p q

end Layer

/-- The side conditions of the network's host operations on a matrix of `n` rows: the six products' dimension
    numbers, the four biases laid as rows, those rows repeated down `n` rows, the zero spread over three shapes. -/
structure Side (n : ℕ) : Prop where
  wf_512_256 : DotDims.WF ⟨2, ![n, 512]⟩ ⟨2, ![512, 256]⟩ ⟨2, ![n, 256]⟩ [1] [0] [0] [1] [] []
  wf_256_512 : DotDims.WF ⟨2, ![n, 256]⟩ ⟨2, ![256, 512]⟩ ⟨2, ![n, 512]⟩ [1] [0] [0] [1] [] []
  wf_512_512 : DotDims.WF ⟨2, ![n, 512]⟩ ⟨2, ![512, 512]⟩ ⟨2, ![n, 512]⟩ [1] [0] [0] [1] [] []
  wf_256_128 : DotDims.WF ⟨2, ![n, 256]⟩ ⟨2, ![256, 128]⟩ ⟨2, ![n, 128]⟩ [1] [0] [0] [1] [] []
  wf_128_256 : DotDims.WF ⟨2, ![n, 128]⟩ ⟨2, ![128, 256]⟩ ⟨2, ![n, 256]⟩ [1] [0] [0] [1] [] []
  wf_256_1 : DotDims.WF ⟨2, ![n, 256]⟩ ⟨2, ![256, 1]⟩ ⟨2, ![n, 1]⟩ [1] [0] [0] [1] [] []
  row256 : (⟨1, ![256]⟩ : Shape).BroadcastsInDim ⟨2, ![1, 256]⟩ ![1]
  row512 : (⟨1, ![512]⟩ : Shape).BroadcastsInDim ⟨2, ![1, 512]⟩ ![1]
  row128 : (⟨1, ![128]⟩ : Shape).BroadcastsInDim ⟨2, ![1, 128]⟩ ![1]
  row1 : (⟨1, ![1]⟩ : Shape).BroadcastsInDim ⟨2, ![1, 1]⟩ ![1]
  over256 : (⟨2, ![1, 256]⟩ : Shape).BroadcastsInDim ⟨2, ![n, 256]⟩ ![0, 1]
  over512 : (⟨2, ![1, 512]⟩ : Shape).BroadcastsInDim ⟨2, ![n, 512]⟩ ![0, 1]
  over128 : (⟨2, ![1, 128]⟩ : Shape).BroadcastsInDim ⟨2, ![n, 128]⟩ ![0, 1]
  over1 : (⟨2, ![1, 1]⟩ : Shape).BroadcastsInDim ⟨2, ![n, 1]⟩ ![0, 1]
  zero256 : (⟨0, ![]⟩ : Shape).BroadcastsInDim ⟨2, ![n, 256]⟩ ![]
  zero512 : (⟨0, ![]⟩ : Shape).BroadcastsInDim ⟨2, ![n, 512]⟩ ![]
  zero128 : (⟨0, ![]⟩ : Shape).BroadcastsInDim ⟨2, ![n, 128]⟩ ![]

/-- The network on all the rows of an `[n, 512]` matrix, as host operations write it: six layers and the affine
    last one, each on the whole matrix the layer before left. -/
def hostMlp (n : ℕ) (s : Side n) (P : Params) (X : FVec Ideal ⟨2, ![n, 512]⟩ .f32) : FVec Ideal ⟨2, ![n, 1]⟩ .f32 :=
  hostLast s.wf_256_1 s.row1 s.over1 P.W6 P.b6
    (hostLayer s.wf_128_256 s.row256 s.over256 s.zero256 P.W5 P.b5
      (hostLayer s.wf_256_128 s.row128 s.over128 s.zero128 P.W4 P.b4
        (hostLayer s.wf_512_256 s.row256 s.over256 s.zero256 P.W3 P.b3
          (hostLayer s.wf_512_512 s.row512 s.over512 s.zero512 P.W2 P.b2
            (hostLayer s.wf_256_512 s.row512 s.over512 s.zero512 P.W1 P.b1
              (hostLayer s.wf_512_256 s.row256 s.over256 s.zero256 P.W0 P.b0 X))))))

/-- Entry `(p, 0)` of the host network's result is the network's value on row `p`: the result is `rows n P X`. -/
theorem hostMlp_eq (n : ℕ) (s : Side n) (P : Params) (X : FVec Ideal ⟨2, ![n, 512]⟩ .f32) :
    hostMlp n s P X = rows n P X := by
  funext j
  obtain ⟨p, u, rfl⟩ : ∃ (p : Fin n) (u : Fin 1), j = ix2 p u := ⟨j 0, j 1, eq_ix2 j⟩
  obtain rfl : u = 0 := Subsingleton.elim _ _
  rw [rows_apply]
  unfold hostMlp rowMlp
  rw [hostLast_apply]
  simp only [hostLayer_apply]

end Cert.ReferenceIdeal.RefValue

end
-- ==== Proof.RefValue.lean ====
/-
  What the reference program computes.

  Read one operation at a time over the final contents of its buffers, the program is: the network applied to the
  512 given rows (the observations laid as a `[512, 512]` matrix); the perturbed, normalised inputs — for each of
  the 512 batches and each of the 256 perturbations the observations minus one feature entry placed by an identity
  matrix, every column divided by 42 or by 160 according to the parity of its position — laid as a
  `[131072, 512]` matrix; the network applied to those 131072 rows; and the difference of the two results, the first
  repeated over the 256 perturbations. Each pass of the network is the host form of the seven layers, hence the
  column `rows n P X` of the specification. The perturbed inputs are kept as one function of the two data
  arguments and never opened: the other program builds them by the same operations.
-/
import proofs.«134839_j7241314861638_1_alg».proof.Proof.RefRun
import proofs.«134839_j7241314861638_1_alg».proof.Proof.RefMlp

noncomputable section

namespace Cert.ReferenceIdeal.RefValue

open Cert.ReferenceIdeal Cert.ReferenceIdeal.Facts₀ Idealize.ShloMosaic Idealize.ShloMosaic.TcCoe Idealize.SL.Sem
open Idealize.ShloMosaic.StableHlo Cert.Lib.SsaFold2 Cert.Mlp

/-! ## The perturbed, normalised inputs -/

/-- The `[128, 128]` identity matrix as floats: 1 where the row index equals the column index, else 0. -/
def eye : FVec Ideal S128x128 .f32 :=
  ((uitofp (F := Ideal) .f32) ((cmpi .eq) (addi (iotaInDim S128x128 32 0) ((broadcastInDim S128x128 ![] bcast_S_S128x128) (constantI S_ 32 0#32))) (iotaInDim S128x128 32 1)))

/-- The observations minus, for perturbation `(i, d)` of batch `b`, feature entry `(b, d, ·)` at position `i`:
    a `[512, 128, 2, 128, 4]` array laid as `[512, 256, 512]`. -/
def perturbed (obs : FVec Ideal S512x128x4 .f32) (feat : FVec Ideal S512x2x4 .f32) : FVec Ideal S512x256x512 .f32 :=
  (shapeCast S512x256x512 ((subf (F := Ideal) (φ := .f32)) ((broadcastInDim S512x128x2x128x4 ![0, 1, 2, 3, 4] bcast_S512x1x1x128x4_S512x128x2x128x4_0_1_2_3_4) ((broadcastInDim S512x1x1x128x4 ![0, 3, 4] bcast_S512x128x4_S512x1x1x128x4_0_3_4) obs)) ((mulf (F := Ideal) (φ := .f32)) ((broadcastInDim S512x128x2x128x4 ![0, 1, 2, 3, 4] bcast_S1x128x1x128x1_S512x128x2x128x4_0_1_2_3_4) ((broadcastInDim S1x128x1x128x1 ![1, 3] bcast_S128x128_S1x128x1x128x1_1_3) eye)) ((broadcastInDim S512x128x2x128x4 ![0, 1, 2, 3, 4] bcast_S512x1x2x1x4_S512x128x2x128x4_0_1_2_3_4) ((broadcastInDim S512x1x2x1x4 ![0, 2, 4] bcast_S512x2x4_S512x1x2x1x4_0_2_4) feat)))) shapeCasts_S512x128x2x128x4_S512x256x512)

/-- The modulus of the parity computation: 2 (it would be 1 were it 0). -/
def period : IVec S_ 32 :=
  (select ((cmpi .eq) (id (constantI S_ 32 2#32)) (constantI S_ 32 0#32)) (constantI S_ 32 1#32) (id (constantI S_ 32 2#32)))

/-- The truncated remainder of each column position by the modulus. -/
def colRem : IVec S512 32 :=
  (Host.remsi (iotaInDim S512 32 0) ((broadcastInDim S512 ![] bcast_S_S512) period))

/-- The remainder with the sign of the modulus: the parity of each column position. -/
def parity : IVec S512 32 :=
  (select (andi ((cmpi .ne) ((cmpi .slt) colRem ((broadcastInDim S512 ![] bcast_S_S512) (constantI S_ 32 0#32))) ((broadcastInDim S512 ![] bcast_S_S512) ((cmpi .slt) period (constantI S_ 32 0#32)))) ((cmpi .ne) colRem ((broadcastInDim S512 ![] bcast_S_S512) (constantI S_ 32 0#32)))) (addi colRem ((broadcastInDim S512 ![] bcast_S_S512) period)) colRem)

/-- The divisor of each column: 42 at the even positions, 160 at the odd ones. -/
def divisor : FVec Ideal S512 .f32 :=
  (id (select ((cmpi .eq) parity ((broadcastInDim S512 ![] bcast_S_S512) (constantI S_ 32 0#32))) ((broadcastInDim S512 ![] bcast_S_S512) (constant (F := Ideal) S_ .f32 0x42280000#32)) ((broadcastInDim S512 ![] bcast_S_S512) (constant (F := Ideal) S_ .f32 0x43200000#32))))

/-- The perturbed, normalised inputs laid as a `[131072, 512]` matrix: row `b · 256 + r` is perturbation `r` of
    batch `b`, every column divided by its divisor. -/
def glue (obs : FVec Ideal S512x128x4 .f32) (feat : FVec Ideal S512x2x4 .f32) : FVec Ideal S131072x512 .f32 :=
  (shapeCast S131072x512 ((Host.divf (F := Ideal) (φ := .f32)) (perturbed obs feat) ((broadcastInDim S512x256x512 ![0, 1, 2] bcast_S1x1x512_S512x256x512_0_1_2) ((broadcastInDim S1x1x512 ![2] bcast_S512_S1x1x512_2) divisor))) shapeCasts_S512x256x512_S131072x512)

/-! ## The line read one operation at a time -/

/-- The line's numbering at extended reals. -/
theorem numI : Numbered 16 (ops (F := Ideal)) := numbered

variable (V : Valuation τ sig (Elt Ideal))

theorem eye_eq : after ops V (Proc.devRef (τ := τ) .tc main_v40) = eye := by
  rw [at_unary numI 53 rfl (by decide) rfl V, at_binary numI 52 rfl (by decide) (by decide) rfl V,
    at_binary numI 51 rfl (by decide) (by decide) rfl V, at_unary numI 50 rfl (by decide) rfl V,
    at_nullary numI 49 rfl rfl V, at_nullary numI 48 rfl rfl V, at_nullary numI 47 rfl rfl V]
  rfl

theorem perturbed_eq : after ops V (Proc.devRef (τ := τ) .tc main_v49) = perturbed (V (Proc.devRef (τ := τ) .tc main_arg0)) (V (Proc.devRef (τ := τ) .tc main_arg1)) := by
  rw [at_reshape numI 62 rfl (by decide) rfl V, at_binary numI 61 rfl (by decide) (by decide) rfl V,
    at_unary numI 60 rfl (by decide) rfl V, at_unary numI 59 rfl (by decide) rfl V,
    at_binary numI 58 rfl (by decide) (by decide) rfl V, at_unary numI 57 rfl (by decide) rfl V,
    at_unary numI 56 rfl (by decide) rfl V, at_unary numI 55 rfl (by decide) rfl V,
    at_unary numI 54 rfl (by decide) rfl V, eye_eq V, after_arg numI main_arg0 (by decide) V,
    after_arg numI main_arg1 (by decide) V]
  rfl

theorem period_eq : after ops V (Proc.devRef (τ := τ) .tc main_call6_v2) = period := by
  rw [at_ternary numI 69 rfl (by decide) (by decide) (by decide) rfl V, at_nullary numI 68 rfl rfl V,
    at_binary numI 67 rfl (by decide) (by decide) rfl V, at_nullary numI 66 rfl rfl V,
    at_unary numI 65 rfl (by decide) rfl V, at_nullary numI 64 rfl rfl V]
  rfl

theorem colRem_eq : after ops V (Proc.devRef (τ := τ) .tc main_call6_v4) = colRem := by
  rw [at_binary numI 71 rfl (by decide) (by decide) rfl V, at_unary numI 70 rfl (by decide) rfl V, period_eq V,
    at_nullary numI 63 rfl rfl V]
  rfl

theorem parity_eq : after ops V (Proc.devRef (τ := τ) .tc main_v51) = parity := by
  rw [at_ternary numI 85 rfl (by decide) (by decide) (by decide) rfl V,
    at_binary numI 84 rfl (by decide) (by decide) rfl V, at_unary numI 83 rfl (by decide) rfl V,
    at_binary numI 82 rfl (by decide) (by decide) rfl V, at_binary numI 81 rfl (by decide) (by decide) rfl V,
    at_unary numI 80 rfl (by decide) rfl V, at_binary numI 79 rfl (by decide) (by decide) rfl V,
    at_nullary numI 78 rfl rfl V, at_binary numI 77 rfl (by decide) (by decide) rfl V,
    at_unary numI 76 rfl (by decide) rfl V, at_nullary numI 75 rfl rfl V,
    at_binary numI 74 rfl (by decide) (by decide) rfl V, at_unary numI 73 rfl (by decide) rfl V,
    at_nullary numI 72 rfl rfl V, colRem_eq V, period_eq V]
  rfl

theorem divisor_eq : after ops V (Proc.devRef (τ := τ) .tc main_v55) = divisor := by
  rw [at_unary numI 94 rfl (by decide) rfl V, at_ternary numI 93 rfl (by decide) (by decide) (by decide) rfl V,
    at_unary numI 92 rfl (by decide) rfl V, at_unary numI 91 rfl (by decide) rfl V, at_nullary numI 90 rfl rfl V,
    at_nullary numI 89 rfl rfl V, at_binary numI 88 rfl (by decide) (by decide) rfl V,
    at_unary numI 87 rfl (by decide) rfl V, at_nullary numI 86 rfl rfl V, parity_eq V]
  rfl

theorem glue_eq : after ops V (Proc.devRef (τ := τ) .tc main_v59) = glue (V (Proc.devRef (τ := τ) .tc main_arg0)) (V (Proc.devRef (τ := τ) .tc main_arg1)) := by
  rw [at_reshape numI 98 rfl (by decide) rfl V, at_binary numI 97 rfl (by decide) (by decide) rfl V,
    at_unary numI 96 rfl (by decide) rfl V, at_unary numI 95 rfl (by decide) rfl V, perturbed_eq V, divisor_eq V]
  rfl

/-! ## The two passes of the network -/

/-- The weights and biases, read off a valuation: arguments 2 … 15 in order. -/
def paramsV : Params :=
  ⟨V (Proc.devRef (τ := τ) .tc main_arg2),
    V (Proc.devRef (τ := τ) .tc main_arg3),
    V (Proc.devRef (τ := τ) .tc main_arg4),
    V (Proc.devRef (τ := τ) .tc main_arg5),
    V (Proc.devRef (τ := τ) .tc main_arg6),
    V (Proc.devRef (τ := τ) .tc main_arg7),
    V (Proc.devRef (τ := τ) .tc main_arg8),
    V (Proc.devRef (τ := τ) .tc main_arg9),
    V (Proc.devRef (τ := τ) .tc main_arg10),
    V (Proc.devRef (τ := τ) .tc main_arg11),
    V (Proc.devRef (τ := τ) .tc main_arg12),
    V (Proc.devRef (τ := τ) .tc main_arg13),
    V (Proc.devRef (τ := τ) .tc main_arg14),
    V (Proc.devRef (τ := τ) .tc main_arg15)⟩

/-- The side conditions of the pass over the 512 given rows. -/
theorem side512 : Side 512 :=
  ⟨dot_S512x512_S512x256_S512x256_1_0_0_1_n_n_wf, dot_S512x256_S256x512_S512x512_1_0_0_1_n_n_wf,
    dot_S512x512_S512x512_S512x512_1_0_0_1_n_n_wf, dot_S512x256_S256x128_S512x128_1_0_0_1_n_n_wf,
    dot_S512x128_S128x256_S512x256_1_0_0_1_n_n_wf, dot_S512x256_S256x1_S512x1_1_0_0_1_n_n_wf,
    bcast_S256_S1x256_1, bcast_S512_S1x512_1, bcast_S128_S1x128_1, bcast_S1_S1x1_1,
    bcast_S1x256_S512x256_0_1, bcast_S1x512_S512x512_0_1, bcast_S1x128_S512x128_0_1, bcast_S1x1_S512x1_0_1,
    bcast_S_S512x256, bcast_S_S512x512, bcast_S_S512x128⟩

/-- The side conditions of the pass over the 131072 perturbed rows. -/
theorem side131072 : Side 131072 :=
  ⟨dot_S131072x512_S512x256_S131072x256_1_0_0_1_n_n_wf, dot_S131072x256_S256x512_S131072x512_1_0_0_1_n_n_wf,
    dot_S131072x512_S512x512_S131072x512_1_0_0_1_n_n_wf, dot_S131072x256_S256x128_S131072x128_1_0_0_1_n_n_wf,
    dot_S131072x128_S128x256_S131072x256_1_0_0_1_n_n_wf, dot_S131072x256_S256x1_S131072x1_1_0_0_1_n_n_wf,
    bcast_S256_S1x256_1, bcast_S512_S1x512_1, bcast_S128_S1x128_1, bcast_S1_S1x1_1,
    bcast_S1x256_S131072x256_0_1, bcast_S1x512_S131072x512_0_1, bcast_S1x128_S131072x128_0_1, bcast_S1x1_S131072x1_0_1,
    bcast_S_S131072x256, bcast_S_S131072x512, bcast_S_S131072x128⟩

/-- The first pass: buffer %34 holds the host network on what buffer %0 holds. -/
theorem pass512 : after ops V (Proc.devRef (τ := τ) .tc main_v34) = hostMlp 512 side512 (paramsV V) (after ops V (Proc.devRef (τ := τ) .tc main_v0)) := by
  rw [at_binary numI 46 rfl (by decide) (by decide) rfl V, at_unary numI 45 rfl (by decide) rfl V,
    at_unary numI 44 rfl (by decide) rfl V, at_binary numI 43 rfl (by decide) (by decide) rfl V,
    at_binary numI 42 rfl (by decide) (by decide) rfl V, at_unary numI 41 rfl (by decide) rfl V,
    at_nullary numI 40 rfl rfl V, at_binary numI 39 rfl (by decide) (by decide) rfl V,
    at_unary numI 38 rfl (by decide) rfl V, at_unary numI 37 rfl (by decide) rfl V,
    at_binary numI 36 rfl (by decide) (by decide) rfl V, at_binary numI 35 rfl (by decide) (by decide) rfl V,
    at_unary numI 34 rfl (by decide) rfl V, at_nullary numI 33 rfl rfl V,
    at_binary numI 32 rfl (by decide) (by decide) rfl V, at_unary numI 31 rfl (by decide) rfl V,
    at_unary numI 30 rfl (by decide) rfl V, at_binary numI 29 rfl (by decide) (by decide) rfl V,
    at_binary numI 28 rfl (by decide) (by decide) rfl V, at_unary numI 27 rfl (by decide) rfl V,
    at_nullary numI 26 rfl rfl V, at_binary numI 25 rfl (by decide) (by decide) rfl V,
    at_unary numI 24 rfl (by decide) rfl V, at_unary numI 23 rfl (by decide) rfl V,
    at_binary numI 22 rfl (by decide) (by decide) rfl V, at_binary numI 21 rfl (by decide) (by decide) rfl V,
    at_unary numI 20 rfl (by decide) rfl V, at_nullary numI 19 rfl rfl V,
    at_binary numI 18 rfl (by decide) (by decide) rfl V, at_unary numI 17 rfl (by decide) rfl V,
    at_unary numI 16 rfl (by decide) rfl V, at_binary numI 15 rfl (by decide) (by decide) rfl V,
    at_binary numI 14 rfl (by decide) (by decide) rfl V, at_unary numI 13 rfl (by decide) rfl V,
    at_nullary numI 12 rfl rfl V, at_binary numI 11 rfl (by decide) (by decide) rfl V,
    at_unary numI 10 rfl (by decide) rfl V, at_unary numI 9 rfl (by decide) rfl V,
    at_binary numI 8 rfl (by decide) (by decide) rfl V, at_binary numI 7 rfl (by decide) (by decide) rfl V,
    at_unary numI 6 rfl (by decide) rfl V, at_nullary numI 5 rfl rfl V,
    at_binary numI 4 rfl (by decide) (by decide) rfl V, at_unary numI 3 rfl (by decide) rfl V,
    at_unary numI 2 rfl (by decide) rfl V, at_binary numI 1 rfl (by decide) (by decide) rfl V,
    after_arg numI main_arg2 (by decide) V, after_arg numI main_arg3 (by decide) V,
    after_arg numI main_arg4 (by decide) V, after_arg numI main_arg5 (by decide) V,
    after_arg numI main_arg6 (by decide) V, after_arg numI main_arg7 (by decide) V,
    after_arg numI main_arg8 (by decide) V, after_arg numI main_arg9 (by decide) V,
    after_arg numI main_arg10 (by decide) V, after_arg numI main_arg11 (by decide) V,
    after_arg numI main_arg12 (by decide) V, after_arg numI main_arg13 (by decide) V,
    after_arg numI main_arg14 (by decide) V, after_arg numI main_arg15 (by decide) V]
  rfl

/-- The second pass: buffer %93 holds the host network on what buffer %59 holds. -/
theorem pass131072 : after ops V (Proc.devRef (τ := τ) .tc main_v93) = hostMlp 131072 side131072 (paramsV V) (after ops V (Proc.devRef (τ := τ) .tc main_v59)) := by
  rw [at_binary numI 144 rfl (by decide) (by decide) rfl V, at_unary numI 143 rfl (by decide) rfl V,
    at_unary numI 142 rfl (by decide) rfl V, at_binary numI 141 rfl (by decide) (by decide) rfl V,
    at_binary numI 140 rfl (by decide) (by decide) rfl V, at_unary numI 139 rfl (by decide) rfl V,
    at_nullary numI 138 rfl rfl V, at_binary numI 137 rfl (by decide) (by decide) rfl V,
    at_unary numI 136 rfl (by decide) rfl V, at_unary numI 135 rfl (by decide) rfl V,
    at_binary numI 134 rfl (by decide) (by decide) rfl V, at_binary numI 133 rfl (by decide) (by decide) rfl V,
    at_unary numI 132 rfl (by decide) rfl V, at_nullary numI 131 rfl rfl V,
    at_binary numI 130 rfl (by decide) (by decide) rfl V, at_unary numI 129 rfl (by decide) rfl V,
    at_unary numI 128 rfl (by decide) rfl V, at_binary numI 127 rfl (by decide) (by decide) rfl V,
    at_binary numI 126 rfl (by decide) (by decide) rfl V, at_unary numI 125 rfl (by decide) rfl V,
    at_nullary numI 124 rfl rfl V, at_binary numI 123 rfl (by decide) (by decide) rfl V,
    at_unary numI 122 rfl (by decide) rfl V, at_unary numI 121 rfl (by decide) rfl V,
    at_binary numI 120 rfl (by decide) (by decide) rfl V, at_binary numI 119 rfl (by decide) (by decide) rfl V,
    at_unary numI 118 rfl (by decide) rfl V, at_nullary numI 117 rfl rfl V,
    at_binary numI 116 rfl (by decide) (by decide) rfl V, at_unary numI 115 rfl (by decide) rfl V,
    at_unary numI 114 rfl (by decide) rfl V, at_binary numI 113 rfl (by decide) (by decide) rfl V,
    at_binary numI 112 rfl (by decide) (by decide) rfl V, at_unary numI 111 rfl (by decide) rfl V,
    at_nullary numI 110 rfl rfl V, at_binary numI 109 rfl (by decide) (by decide) rfl V,
    at_unary numI 108 rfl (by decide) rfl V, at_unary numI 107 rfl (by decide) rfl V,
    at_binary numI 106 rfl (by decide) (by decide) rfl V, at_binary numI 105 rfl (by decide) (by decide) rfl V,
    at_unary numI 104 rfl (by decide) rfl V, at_nullary numI 103 rfl rfl V,
    at_binary numI 102 rfl (by decide) (by decide) rfl V, at_unary numI 101 rfl (by decide) rfl V,
    at_unary numI 100 rfl (by decide) rfl V, at_binary numI 99 rfl (by decide) (by decide) rfl V,
    after_arg numI main_arg2 (by decide) V, after_arg numI main_arg3 (by decide) V,
    after_arg numI main_arg4 (by decide) V, after_arg numI main_arg5 (by decide) V,
    after_arg numI main_arg6 (by decide) V, after_arg numI main_arg7 (by decide) V,
    after_arg numI main_arg8 (by decide) V, after_arg numI main_arg9 (by decide) V,
    after_arg numI main_arg10 (by decide) V, after_arg numI main_arg11 (by decide) V,
    after_arg numI main_arg12 (by decide) V, after_arg numI main_arg13 (by decide) V,
    after_arg numI main_arg14 (by decide) V, after_arg numI main_arg15 (by decide) V]
  rfl

/-! ## The result -/

/-- The result as a function of a valuation of the arguments. -/
def resultV : FVec Ideal S512x256 .f32 :=
  subf (shapeCast S512x256 (rows 131072 (paramsV V) (glue (V (Proc.devRef (τ := τ) .tc main_arg0)) (V (Proc.devRef (τ := τ) .tc main_arg1))))
      shapeCasts_S131072x1_S512x256)
    (broadcastInDim S512x256 ![0, 1] bcast_S512x1_S512x256_0_1
      (rows 512 (paramsV V) (shapeCast S512x512 (V (Proc.devRef (τ := τ) .tc main_arg0)) shapeCasts_S512x128x4_S512x512)))

/-- The last buffer of the line holds the result. -/
theorem value : after ops V (Proc.devRef (τ := τ) .tc main_v96) = resultV V := by
  rw [at_binary numI 147 rfl (by decide) (by decide) rfl V, at_unary numI 146 rfl (by decide) rfl V,
    at_reshape numI 145 rfl (by decide) rfl V, pass131072 V, pass512 V, glue_eq V,
    at_reshape numI 0 rfl (by decide) rfl V, after_arg numI main_arg0 (by decide) V, hostMlp_eq, hostMlp_eq]
  rfl

end Cert.ReferenceIdeal.RefValue

namespace Cert.ReferenceIdeal.RefValue

open Cert.ReferenceIdeal Cert.ReferenceIdeal.Facts₀ Idealize.ShloMosaic Idealize.ShloMosaic.TcCoe Idealize.SL.Sem
open Idealize.ShloMosaic.StableHlo Cert.Lib.SsaFold2 Cert.Mlp

/-- The weights and biases the launch gave device `c`: arguments 2 … 15 in order. -/
def params (m : (ℓ : Loc nD τ sig) → Buf (Elt Ideal) ℓ) (c : Dev nD) : Cert.Mlp.Params :=
  ⟨m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15)⟩

/-- What the program leaves in its result buffer on device `c`: the network on the perturbed rows, regrouped by
    batch, minus the network on the given rows repeated over the 256 perturbations. -/
def result (m : (ℓ : Loc nD τ sig) → Buf (Elt Ideal) ℓ) (c : Dev nD) : FVec Ideal S512x256 .f32 :=
  subf (shapeCast S512x256 (Cert.Mlp.rows 131072 (params m c) (glue (m ((c.tc : Thread nD τ).loc main_arg0)) (m ((c.tc : Thread nD τ).loc main_arg1))))
      shapeCasts_S131072x1_S512x256)
    (broadcastInDim S512x256 ![0, 1] bcast_S512x1_S512x256_0_1
      (Cert.Mlp.rows 512 (params m c) (shapeCast S512x512 (m ((c.tc : Thread nD τ).loc main_arg0)) shapeCasts_S512x128x4_S512x512)))

theorem result_eq (m : (ℓ : Loc nD τ sig) → Buf (Elt Ideal) ℓ) (c : Dev nD) :
    resultV (launchContents m c) = result m c := rfl

/-- Every weakly fair execution of the reference terminates with its result buffer at `result` and its sixteen
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c main_v96).trans ((value (launchContents m c)).trans (result_eq m c)),
      (h c main_arg0).trans (after_arg numI main_arg0 (by decide) _),
      (h c main_arg1).trans (after_arg numI main_arg1 (by decide) _),
      (h c main_arg2).trans (after_arg numI main_arg2 (by decide) _),
      (h c main_arg3).trans (after_arg numI main_arg3 (by decide) _),
      (h c main_arg4).trans (after_arg numI main_arg4 (by decide) _),
      (h c main_arg5).trans (after_arg numI main_arg5 (by decide) _),
      (h c main_arg6).trans (after_arg numI main_arg6 (by decide) _),
      (h c main_arg7).trans (after_arg numI main_arg7 (by decide) _),
      (h c main_arg8).trans (after_arg numI main_arg8 (by decide) _),
      (h c main_arg9).trans (after_arg numI main_arg9 (by decide) _),
      (h c main_arg10).trans (after_arg numI main_arg10 (by decide) _),
      (h c main_arg11).trans (after_arg numI main_arg11 (by decide) _),
      (h c main_arg12).trans (after_arg numI main_arg12 (by decide) _),
      (h c main_arg13).trans (after_arg numI main_arg13 (by decide) _),
      (h c main_arg14).trans (after_arg numI main_arg14 (by decide) _),
      (h c main_arg15).trans (after_arg numI main_arg15 (by decide) _)⟩)
    (run_main m ρ)

end Cert.ReferenceIdeal.RefValue

end
-- ==== Proof.lean ====
/-
  The proof of the certificate's claim: the kernel, its idealization and the reference each run (terminate, nothing
  faulting, their arguments unchanged), and at the ideal values the idealized kernel and the reference end with the same
  result.

  The computation is a seven-layer perceptron (six layers `max (h · W + b) 0`, then one affine layer with a single
  output) applied to every row of two matrices: the observations regrouped as [512, 512], and the perturbed, normalised
  inputs regrouped as [131072, 512]; the result is the second column regrouped as [512, 256] minus the first column
  repeated over the 256 columns. The kernel computes each column by launching a kernel over blocks of rows (one block of
  512 rows; 64 blocks of 2048 rows), each block's layers a product by the matrix unit into zeros, a bias row repeated
  down the rows and a maximum with zero, its operands passing through a change of float format; the reference computes
  them by host dot products. On extended reals a change of format is the identity, and both products are the plain sum
  over the contracted index, so at every row both compute the same nested sums: the two results are ONE function of
  the arguments (`kresult` and `result`), and no law of arithmetic and no finiteness of the inputs is used. The
  matrix of perturbed inputs is built by the same host operations in both programs and is never opened.
-/
import proofs.«134839_j7241314861638_1_alg».proof.Defs
import proofs.«134839_j7241314861638_1_alg».proof.Proof.Gen.Kernel
import proofs.«134839_j7241314861638_1_alg».proof.Proof.Gen.Kernel.Frame
import proofs.«134839_j7241314861638_1_alg».proof.Proof.Gen.KernelIdeal
import proofs.«134839_j7241314861638_1_alg».proof.Proof.Gen.KernelIdeal.Frame
import proofs.«134839_j7241314861638_1_alg».proof.Proof.Gen.ReferenceIdeal
import proofs.«134839_j7241314861638_1_alg».proof.Proof.Gen.Pre_finite_inputs
import proofs.«134839_j7241314861638_1_alg».proof.Proof.KernelResult
import proofs.«134839_j7241314861638_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing: the idealization is the program's own text read at the ideal values. -/
theorem preserves : Cert.preserves_Kernel_KernelIdeal := trivial

/-- From memories that agree on the arguments, the reference's result function is the idealized kernel's: the same
    network on the same rows with the same weights, the perturbed inputs built by the same operations. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RefValue.result m' c = Cert.KernelIdeal.RunValue.kresult m c := by
  obtain ⟨h0, h1, h2, h3, h4, h5, h6, h7, h8, h9, h10, h11, h12, h13, h14, h15⟩ := hagree
  unfold Cert.ReferenceIdeal.RefValue.result Cert.ReferenceIdeal.RefValue.params
  rw [h0, h1, h2, h3, h4, h5, h6, h7, h8, h9, h10, h11, h12, h13, h14, h15]
  rfl

theorem algebraic : Cert.algebraic_KernelIdeal_ReferenceIdeal := by
  intro m ρ m' ρ' _ hagree
  refine ⟨fun c => Cert.KernelIdeal.RunValue.kresult m c, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  exact result_eq m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
